-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4096x16 : S_.BroadcastsInDim S4096x16 (![] : Fin 0 → Fin S4096x16.rank)
  reducesTo_S4096x16_S_d0_1 : S4096x16.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x4096x64 .f32) (main_arg1 : FVec F S4x4096x4096 .f32) (main_arg2 : FVec F S4096x16 .f32) (main_arg3 : FVec F S_ .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩
abbrev S4096x4096 : Shape := ⟨2, ![4096, 4096]⟩
abbrev S512x16 : Shape := ⟨2, ![512, 16]⟩
abbrev S512x512 : Shape := ⟨2, ![512, 512]⟩
abbrev S4x4096x1 : Shape := ⟨3, ![4, 4096, 1]⟩
abbrev S1x512x512 : Shape := ⟨3, ![1, 512, 512]⟩
abbrev S1x512x1 : Shape := ⟨3, ![1, 512, 1]⟩
abbrev S512x1 : Shape := ⟨2, ![512, 1]⟩
abbrev S1x512x64 : Shape := ⟨3, ![1, 512, 64]⟩
abbrev S512x64 : Shape := ⟨2, ![512, 64]⟩

abbrev nBuf : Space → Nat
  | .hbm => 9
  | .vmem => 34
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S4096x16, .f32⟩
  | .hbm, ⟨3, _⟩ => ⟨S_, .f32⟩
  | .hbm, ⟨4, _⟩ => ⟨S4096x4096, .bf16⟩
  | .hbm, ⟨5, _⟩ => ⟨S4x4096x1, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x512, .bf16⟩
  | .local _ .vmem, ⟨5, _⟩ => ⟨S512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512x1, .f32⟩
  | .local _ .vmem, ⟨15, _⟩ => ⟨S1x512x1, .f32⟩
  | .local _ .vmem, ⟨16, _⟩ => ⟨S512x1, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x512x64, .f32⟩
  | .local _ .vmem, ⟨26, _⟩ => ⟨S1x512x64, .f32⟩
  | .local _ .vmem, ⟨27, _⟩ => ⟨S1x512x1, .f32⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x64, .f32⟩
  | .local _ .vmem, ⟨32, _⟩ => ⟨S1x512x64, .f32⟩
  | .local _ .vmem, ⟨33, _⟩ => ⟨S512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_17 : BitVec 32 := 0#32
  let v31 : BitVec 1 := Scalar.cmpi .ne v30 c0_i32_17
  v31

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 8, 8], ![false, false, false]⟩

def k2_cond2 (i : grid2.Coords) : BitVec 1 :=
  let arg2 : BitVec 32 := BitVec.ofNat 32 (i 2).val
  let c7_i32 : BitVec 32 := 7#32
  let v34 : BitVec 1 := Scalar.cmpi .eq arg2 c7_i32
  let v35 : BitVec 32 := Scalar.extui v34
  let c0_i32_22 : BitVec 32 := 0#32
  let v36 : BitVec 1 := Scalar.cmpi .ne v35 c0_i32_22
  v36

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S1x512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1x512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, true]

abbrev stage2_7 : Fin 2 → Memref sig .tc .vmem S1x512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  broadcasts_S512x1_S512x64 : S512x1.Broadcasts S512x64
  shapeCasts_S512x64_S1x512x64 : S512x64.ShapeCasts S1x512x64
  bcast_S_S4x4096x64 : S_.BroadcastsInDim S4x4096x64 (![] : Fin 0 → Fin S4x4096x64.rank)
  dot_S512x16_S512x16_S512x512_1_1_0_0_n_n_wf : DotDims.WF S512x16 S512x16 S512x512 [1] [1] [0] [0] [] []
  dot_S512x512_S512x1_S512x1_1_0_0_1_n_n_wf : DotDims.WF S512x512 S512x1 S512x1 [1] [0] [0] [1] [] []
  dot_S512x512_S512x1_S512x1_0_0_1_1_n_n_wf : DotDims.WF S512x512 S512x1 S512x1 [0] [0] [1] [1] [] []
  dot_S512x512_S512x64_S512x64_1_0_0_1_n_n_wf : DotDims.WF S512x512 S512x64 S512x64 [1] [0] [0] [1] [] []
  dot_S512x512_S512x64_S512x64_0_0_1_1_n_n_wf : DotDims.WF S512x512 S512x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S4096x16.size a
  hwx0_0 : ∀ i : grid0.Coords, EltTy.bits .f32 = 32 ∨ (Rect.block (s := S4096x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x4096.size a
  hwx1_0 : ∀ i : grid1.Coords, EltTy.bits .f32 = 32 ∨ (Rect.block (s := S4x4096x4096) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x4096x4096.size a
  hwx1_1 : ∀ i : grid1.Coords, EltTy.bits .f32 = 32 ∨ (Rect.block (s := S4x4096x4096) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .bf16 = 32 ∨ (Rect.block (s := S4096x4096) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .bf16 = 32 ∨ (Rect.block (s := S4096x4096) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1.size a ≤ S4x4096x1.size a
  hwx1_4 : ∀ i : grid1.Coords, EltTy.bits .f32 = 32 ∨ (Rect.block (s := S4x4096x1) S1x512x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S4x4096x4096.size a
  hwx2_0 : ∀ i : grid2.Coords, EltTy.bits .f32 = 32 ∨ (Rect.block (s := S4x4096x4096) S1x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S4x4096x4096.size a
  hwx2_1 : ∀ i : grid2.Coords, EltTy.bits .f32 = 32 ∨ (Rect.block (s := S4x4096x4096) S1x512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .bf16 = 32 ∨ (Rect.block (s := S4096x4096) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .bf16 = 32 ∨ (Rect.block (s := S4096x4096) S512x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x64.size a ≤ S4x4096x64.size a
  hwx2_4 : ∀ i : grid2.Coords, EltTy.bits .f32 = 32 ∨ (Rect.block (s := S4x4096x64) S1x512x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1.size a ≤ S4x4096x1.size a
  hwx2_5 : ∀ i : grid2.Coords, EltTy.bits .f32 = 32 ∨ (Rect.block (s := S4x4096x1) S1x512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1.size a ≤ S4x4096x1.size a
  hwx2_6 : ∀ i : grid2.Coords, EltTy.bits .f32 = 32 ∨ (Rect.block (s := S4x4096x1) S1x512x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x64.size a ≤ S4x4096x64.size a
  hwx2_7 : ∀ i : grid2.Coords, EltTy.bits .f32 = 32 ∨ (Rect.block (s := S4x4096x64) S1x512x64.size (cc2_transform_7 i) (hinb2_7 i)).WholeWords (EltTy.packing .f32)

variable [Facts₀]

def dot_S512x16_S512x16_S512x512_1_1_0_0_n_n : DotDims S512x16 S512x16 S512x512 where
  lhsContracting := [1]
  rhsContracting := [1]
  lhsNonContracting := [0]
  rhsNonContracting := [0]
  lhsBatch := []
  rhsBatch := []
  wf := dot_S512x16_S512x16_S512x512_1_1_0_0_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S512x512_S512x1_S512x1_0_0_1_1_n_n : DotDims S512x512 S512x1 S512x1 where
  lhsContracting := [0]
  rhsContracting := [0]
  lhsNonContracting := [1]
  rhsNonContracting := [1]
  lhsBatch := []
  rhsBatch := []
  wf := dot_S512x512_S512x1_S512x1_0_0_1_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x64_S512x64_0_0_1_1_n_n : DotDims S512x512 S512x64 S512x64 where
  lhsContracting := [0]
  rhsContracting := [0]
  lhsNonContracting := [1]
  rhsNonContracting := [1]
  lhsBatch := []
  rhsBatch := []
  wf := dot_S512x512_S512x64_S512x64_0_0_1_1_n_n_wf

abbrev win0_0 : Pipeline.Window sig grid0 :=
  Pipeline.Window.ofSpec (Memref.whole main_arg2) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S1x512x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v1) S1x512x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x512x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩
abbrev S16x4096 : Shape := ⟨2, ![16, 4096]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S4096x16, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S16x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S1x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x64, .f32⟩
  | .hbm, ⟨35, _⟩ => ⟨S4x4096x64, .f32⟩
  | .hbm, ⟨36, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  transposes_S4x4096x4096_S4x4096x4096_0_2_1 : S4x4096x4096.Transposes [0, 2, 1] S4x4096x4096
  bcast_S_S4x4096x4096 : S_.BroadcastsInDim S4x4096x4096 (![] : Fin 0 → Fin S4x4096x4096.rank)
  transposes_S4096x16_S16x4096_1_0 : S4096x16.Transposes [1, 0] S16x4096
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S_S4x4096x64 : S_.BroadcastsInDim S4x4096x64 (![] : Fin 0 → Fin S4x4096x64.rank)
  dot_S4096x16_S16x4096_S4096x4096_1_0_0_1_n_n_wf : DotDims.WF S4096x16 S16x4096 S4096x4096 [1] [0] [0] [1] [] []
  dot_S4x4096x4096_S4x4096x64_S4x4096x64_2_1_1_2_0_0_wf : DotDims.WF S4x4096x4096 S4x4096x64 S4x4096x64 [2] [1] [1] [2] [0] [0]

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Spec.lean ====
/-
  The two programs' results as plain functions of the four argument arrays, over literal index types.

  Notation: b < 4 a batch, i j < 4096 nodes, c < 64 a channel, r < 16 a rank index; a node j = bj * 512 + k lies in column
  tile bj < 8 at offset k < 512 (`col bj k`).

  gate  A i j = sigma (sum_r U i r * U j r)                      (symmetric in i, j)
  kernel  deg b i = sum_bj 1/2 * (sum_k (W b i j * A i j) * 1 + sum_k (W b j i * A j i) * 1),   j = col bj k
          d b i   = (max (deg b i) eps)^(-1/2)
          out b i c = (d b i * sum_bj 1/2 * (sum_k (W b i j * A i j) * (d b j * x b j c)
                                            + sum_k (W b j i * A j i) * (d b j * x b j c))) * s
  reference  K b i j = (1/2 * (W b i j + W b j i)) * A' i j,   A' = 1 / (1 + exp (-(sum_r U i r * U j r)))
          deg' b i = 0 + sum_j K b i j,   d' = (max deg' eps)^(-1/2)
          out' b i c = s * sum_j ((K b i j * d' b i) * d' b j) * x b j c
-/
import Idealize.ShloMosaic.PureOps.Ideal

noncomputable section

namespace Cert.Spec

open Idealize.ShloMosaic

/-- The arrays as curried functions into the extended reals. -/
abbrev X3 : Type := Fin 4 → Fin 4096 → Fin 64 → EReal
abbrev W3 : Type := Fin 4 → Fin 4096 → Fin 4096 → EReal
abbrev U2 : Type := Fin 4096 → Fin 16 → EReal

/-- Node `bj * 512 + k`: offset `k` of column tile `bj`. -/
def col (bj : Fin 8) (k : Fin 512) : Fin 4096 := ⟨bj.val * 512 + k.val, by omega⟩

/-- The float words both programs share. -/
def half : EReal := Ideal.ofBits .f32 0x3F000000#32
def eps : EReal := Ideal.ofBits .f32 0x2B8CBCCC#32
def one : EReal := Ideal.ofBits .f32 0x3F800000#32
def zero : EReal := Ideal.ofBits .f32 0x00000000#32

/-- The low-rank logits `(U Uᵀ) i j`. -/
def logit (U : U2) (i j : Fin 4096) : EReal := ∑ r : Fin 16, U i r * U j r

/-- The kernel's gate: the logistic function of the logits. -/
def gateK (U : U2) (i j : Fin 4096) : EReal := Ideal.logistic (logit U i j)

/-- One column tile's share of row `i` against a right-hand vector `v`: half of the direct block's product plus the
    transposed block's. -/
def tile (W : W3) (U : U2) (v : Fin 4096 → EReal) (b : Fin 4) (i : Fin 4096) (bj : Fin 8) : EReal :=
  half * ((∑ k : Fin 512, (W b i (col bj k) * gateK U i (col bj k)) * v (col bj k))
        + (∑ k : Fin 512, (W b (col bj k) i * gateK U (col bj k) i) * v (col bj k)))

/-- The kernel's degree: the tiles' shares against the all-ones vector, accumulated from zero. -/
def degK (W : W3) (U : U2) (b : Fin 4) (i : Fin 4096) : EReal := zero + ∑ bj : Fin 8, tile W U (fun _ => one) b i bj

/-- The kernel's normalizer `max(deg, eps)^(-1/2)`. -/
def dK (W : W3) (U : U2) (b : Fin 4) (i : Fin 4096) : EReal := Ideal.rsqrt (max (degK W U b i) eps)

/-- The kernel's result. -/
def outK (x : X3) (W : W3) (U : U2) (s : EReal) (b : Fin 4) (i : Fin 4096) (c : Fin 64) : EReal :=
  (dK W U b i * (zero + ∑ bj : Fin 8, tile W U (fun j => dK W U b j * x b j c) b i bj)) * s

/-- The reference's gate: `1 / (1 + exp (-logit))` spelt with the host's operations. -/
def gateR (U : U2) (i j : Fin 4096) : EReal := Ideal.div one (one + Ideal.exp (-(logit U i j)))

/-- The reference's gated, symmetrized adjacency. -/
def adjR (W : W3) (U : U2) (b : Fin 4) (i j : Fin 4096) : EReal := (half * (W b i j + W b j i)) * gateR U i j

/-- The reference's degree and normalizer. -/
def degR (W : W3) (U : U2) (b : Fin 4) (i : Fin 4096) : EReal := zero + ∑ j : Fin 4096, adjR W U b i j
def dR (W : W3) (U : U2) (b : Fin 4) (i : Fin 4096) : EReal := Ideal.rsqrt (max (degR W U b i) eps)

/-- The reference's result. -/
def outR (x : X3) (W : W3) (U : U2) (s : EReal) (b : Fin 4) (i : Fin 4096) (c : Fin 64) : EReal :=
  s * ∑ j : Fin 4096, ((adjR W U b i j * dR W U b i) * dR W U b j) * x b j c

end Cert.Spec

end
-- ==== Proof.RefSide.lean ====
/-
  The reference's result read at an index: it is `Cert.Spec.outR` of the argument arrays.

  Stage by stage, each array the reference writes is read at literal coordinates:
    logits        (U Uᵀ) i j            = sum_r U i r * U j r
    gate          A' i j                = 1 / (1 + exp (-(U Uᵀ) i j))
    adjacency     K b i j               = (1/2 * (W b i j + W b j i)) * A' i j
    degree        deg' b i              = 0 + sum_j K b i j
    normalizer    d' b i                = (max (deg' b i) eps)^(-1/2)
    scaled        ((K b i j * d' b i) * d' b j)
    result        s * sum_j scaled b i j * x b j c
-/
import proofs.«150832_j3959959847448_2_alg».proof.Proof.Gen.ReferenceIdeal.Read
import proofs.«150832_j3959959847448_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Idealize.ShloMosaic Idealize.ShloMosaic.TcCoe Idealize.SL.Sem
open Cert.ReferenceIdeal Cert.ReferenceIdeal.Gen Cert.ReferenceIdeal.Read
open Idealize.ShloMosaic.ValueIdx (ix0 ix2 ix3 eq_ix2 eq_ix3)

/-- The argument arrays as curried functions of their coordinates. -/
abbrev xs (x : FVec Ideal S4x4096x64 .f32) : Cert.Spec.X3 := fun b j c => x (ix3 b j c)
abbrev Ws (W : FVec Ideal S4x4096x4096 .f32) : Cert.Spec.W3 := fun b i j => W (ix3 b i j)
abbrev Us (U : FVec Ideal S4096x16 .f32) : Cert.Spec.U2 := fun i r => U (ix2 i r)

variable (x : FVec Ideal S4x4096x64 .f32) (W : FVec Ideal S4x4096x4096 .f32) (U : FVec Ideal S4096x16 .f32)
  (s : FVec Ideal S_ .f32)

/-- The logits: the product of `U` with its transpose, read at `(i, j)`, is the sum over the rank index. -/
theorem logit_eq (i j : Fin 4096) : val_main_v5 (F := Ideal) U (ix2 i j) = Cert.Spec.logit (Us U) i j := by
  rw [val_main_v5_apply]
  unfold Cert.Spec.logit
  refine Finset.sum_congr rfl fun k _ => ?_
  rw [val_main_v4_apply]
  have e1 : lidx_main_v5 (ix2 i j) k = ix2 i k :=
    funext fun a => by match a with | ⟨0, _⟩ => rfl | ⟨1, _⟩ => rfl
  have e2 : idx_main_v4 (ridx_main_v5 (ix2 i j) k) = ix2 j k :=
    funext fun a => by match a with | ⟨0, _⟩ => rfl | ⟨1, _⟩ => rfl
  rw [e1, e2]

/-- The gate `1 / (1 + exp (-logit))` at `(i, j)`. -/
theorem gate_eq (i j : Fin 4096) : val_main_v11 (F := Ideal) U (ix2 i j) = Cert.Spec.gateR (Us U) i j := by
  rw [val_main_v11_apply, val_main_v10_apply, val_main_cst_1_apply, val_main_v9_apply, val_main_v8_apply,
    val_main_cst_0_apply, val_main_v7_apply, val_main_v6_apply, logit_eq]
  simp only [Ideal.hostDivf_def, Ideal.addf_def, Ideal.hostUnary_exp_def, Ideal.hostNegf_def, Ideal.negf_def,
    Ideal.ofBits_def]
  rfl

/-- The gated, symmetrized adjacency at `(b, i, j)`: the transpose reads `W b j i`, the two broadcasts of the gate
    forget the batch. -/
theorem adj_eq (b : Fin 4) (i j : Fin 4096) :
    val_main_v14 (F := Ideal) W U (ix3 b i j) = Cert.Spec.adjR (Ws W) (Us U) b i j := by
  have e0 : idx_main_v0 (ix3 b i j) = ix3 b j i :=
    funext fun a => by match a with | ⟨0, _⟩ => rfl | ⟨1, _⟩ => rfl | ⟨2, _⟩ => rfl
  have e13 : idx_main_v12 (idx_main_v13 (ix3 b i j)) = ix2 i j :=
    funext fun a => by match a with | ⟨0, _⟩ => rfl | ⟨1, _⟩ => rfl
  rw [val_main_v14_apply, val_main_v3_apply, val_main_v2_apply, val_main_cst_apply, val_main_v1_apply,
    val_main_v0_apply, val_main_v13_apply, val_main_v12_apply, e0, e13, gate_eq]
  simp only [Ideal.mulf_def, Ideal.addf_def, Ideal.ofBits_def]
  rfl

/-- The degree at `(b, i)`: the row sum of the adjacency, accumulated from the zero word. -/
theorem deg_eq (b : Fin 4) (i : Fin 4096) :
    val_main_v15 (F := Ideal) W U (ix2 b i) = Cert.Spec.degR (Ws W) (Us U) b i := by
  rw [val_main_v15_apply, val_main_cst_2_apply]
  unfold Cert.Spec.degR
  refine congrArg₂ (· + ·) rfl (Finset.sum_congr rfl fun k _ => ?_)
  have e : idx_main_v15 (ix2 b i) k = ix3 b i k :=
    funext fun a => by match a with | ⟨0, _⟩ => rfl | ⟨1, _⟩ => rfl | ⟨2, _⟩ => rfl
  rw [e, adj_eq]

/-- The normalizer `max(deg, eps)^(-1/2)` at `(b, i)`. -/
theorem d_eq (b : Fin 4) (i : Fin 4096) :
    val_main_v18 (F := Ideal) W U (ix2 b i) = Cert.Spec.dR (Ws W) (Us U) b i := by
  rw [val_main_v18_apply, val_main_v17_apply, val_main_v16_apply, val_main_cst_3_apply, deg_eq]
  simp only [Ideal.hostUnary_rsqrt_def, Ideal.maximumf_def, Ideal.ofBits_def]
  rfl

/-- The adjacency scaled by the row's and the column's normalizers at `(b, i, j)`. -/
theorem scaled_eq (b : Fin 4) (i j : Fin 4096) :
    val_main_v24 (F := Ideal) W U (ix3 b i j)
      = (Cert.Spec.adjR (Ws W) (Us U) b i j * Cert.Spec.dR (Ws W) (Us U) b i) * Cert.Spec.dR (Ws W) (Us U) b j := by
  have e20 : idx_main_v19 (idx_main_v20 (ix3 b i j)) = ix2 b i :=
    funext fun a => by match a with | ⟨0, _⟩ => rfl | ⟨1, _⟩ => rfl
  have e23 : idx_main_v22 (idx_main_v23 (ix3 b i j)) = ix2 b j :=
    funext fun a => by match a with | ⟨0, _⟩ => rfl | ⟨1, _⟩ => rfl
  rw [val_main_v24_apply, val_main_v21_apply, val_main_v20_apply, val_main_v19_apply, val_main_v23_apply,
    val_main_v22_apply, e20, e23, d_eq, d_eq, adj_eq]
  simp only [Ideal.mulf_def]

/-- The reference's result at `(b, i, c)`. -/
theorem out_eq (b : Fin 4) (i : Fin 4096) (c : Fin 64) :
    val_main_v27 (F := Ideal) x W U s (ix3 b i c) = Cert.Spec.outR (xs x) (Ws W) (Us U) (s ix0) b i c := by
  rw [val_main_v27_apply, val_main_v26_apply, val_main_v25_apply]
  unfold Cert.Spec.outR
  simp only [Ideal.mulf_def]
  refine congrArg₂ (· * ·) rfl (Finset.sum_congr rfl fun k _ => ?_)
  have el : lidx_main_v25 (ix3 b i c) k = ix3 b i k :=
    funext fun a => by match a with | ⟨0, _⟩ => rfl | ⟨1, _⟩ => rfl | ⟨2, _⟩ => rfl
  have er : ridx_main_v25 (ix3 b i c) k = ix3 b k c :=
    funext fun a => by match a with | ⟨0, _⟩ => rfl | ⟨1, _⟩ => rfl | ⟨2, _⟩ => rfl
  rw [el, er, scaled_eq]

/-- The reference's result, as a function of the index, is `Cert.Spec.outR` of the arrays read at their coordinates. -/
theorem ref_eq :
    val_main_v27 (F := Ideal) x W U s
      = fun i => Cert.Spec.outR (fun b j c => x (ix3 b j c)) (fun b i j => W (ix3 b i j)) (fun i r => U (ix2 i r))
          (s ix0) (i 0) (i 1) (i 2) := by
  funext i
  obtain ⟨b, n, c, rfl⟩ : ∃ (b : Fin 4) (n : Fin 4096) (c : Fin 64), i = ix3 b n c := ⟨i 0, i 1, i 2, eq_ix3 i⟩
  exact out_eq x W U s b n c

end Cert.RefSide

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.Finite.lean ====
/-
  From the precondition "every argument array is finite" to "every entry of every argument array is a real number".

  The precondition is the conjunction of four tests all(|a| < +inf), one per argument array, and it is stated to be
  true. A conjunction of truth values is true only if each one is; an "all" over an array is true only if the tested
  fact holds at every index; and |v| < +inf on the extended reals holds exactly when v is neither +inf nor -inf,
  that is, when v is a real number.
-/
import proofs.«150832_j3959959847448_2_alg».proof.Pre_finite_inputs
import proofs.«150832_j3959959847448_2_alg».proof.Proof.LibFiniteEntry
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The scalar shape has exactly one index. -/
instance : Subsingleton S_.Idx := ⟨fun a b => funext fun d => d.elim0⟩

/-- If the four-fold test all(|x| < +inf) and all(|W| < +inf) and all(|U| < +inf) and all(|s| < +inf) is true, then
    every entry of x, W, U and s is a real number: the conjunction gives each of the four tests, each test gives
    |v| < +inf at every index of its array, and that excludes both infinities. -/
theorem real_of_pre [Cert.Pre_finite_inputs.Facts]
    (x : FVec Ideal S4x4096x64 .f32) (W : FVec Ideal S4x4096x4096 .f32) (U : FVec Ideal S4096x16 .f32)
    (s : FVec Ideal S_ .f32)
    (h : Cert.Pre_finite_inputs.fn (F := Ideal) x W U s = fun _ => 1#1) :
    (∀ i, ∃ r : ℝ, x i = (r : EReal)) ∧ (∀ i, ∃ r : ℝ, W i = (r : EReal)) ∧ (∀ i, ∃ r : ℝ, U i = (r : EReal))
      ∧ (∀ i, ∃ r : ℝ, s i = (r : EReal)) := by
  have h0 := congrFun h ValueIdx.ix0
  dsimp only [fn, fn_part1] at h0
  -- the outer conjunctions, from the last test inwards
  obtain ⟨h123, hs⟩ := IntOp.andi_eq_one.1 h0
  obtain ⟨h12, hU⟩ := IntOp.andi_eq_one.1 h123
  obtain ⟨hx, hW⟩ := IntOp.andi_eq_one.1 h12
  -- each "all" read at an index is |v| < +inf there
  refine ⟨fun i => ?_, fun i => ?_, fun i => ?_, fun i => ?_⟩
  · exact Cert.FiniteEntry.real_of_abs_lt (v := x i) (Host.reduce_andi_all _ _ _ _ _ hx i)
  · exact Cert.FiniteEntry.real_of_abs_lt (v := W i) (Host.reduce_andi_all _ _ _ _ _ hW i)
  · exact Cert.FiniteEntry.real_of_abs_lt (v := U i) (Host.reduce_andi_all _ _ _ _ _ hU i)
  · exact Cert.FiniteEntry.real_of_abs_lt (v := s i) (Host.reduce_andi_all _ _ _ _ _ hs i)

/-- The same over explicit coordinates: x at (b, i, c), W at (b, i, j), U at (i, r) and the scalar s are real numbers. -/
theorem real_of_pre_coords [Cert.Pre_finite_inputs.Facts]
    (x : FVec Ideal S4x4096x64 .f32) (W : FVec Ideal S4x4096x4096 .f32) (U : FVec Ideal S4096x16 .f32)
    (s : FVec Ideal S_ .f32)
    (h : Cert.Pre_finite_inputs.fn (F := Ideal) x W U s = fun _ => 1#1) :
    (∀ (b : Fin 4) (i : Fin 4096) (c : Fin 64), ∃ r : ℝ, x (ValueIdx.ix3 b i c) = (r : EReal))
      ∧ (∀ (b : Fin 4) (i j : Fin 4096), ∃ r : ℝ, W (ValueIdx.ix3 b i j) = (r : EReal))
      ∧ (∀ (i : Fin 4096) (r : Fin 16), ∃ t : ℝ, U (ValueIdx.ix2 i r) = (t : EReal))
      ∧ (∃ r : ℝ, s ValueIdx.ix0 = (r : EReal)) := by
  obtain ⟨hx, hW, hU, hs⟩ := real_of_pre x W U s h
  exact ⟨fun b i c => hx _, fun b i j => hW _, fun i r => hU _, hs _⟩

end Cert.Finite

end
-- ==== Proof.Algebra.lean ====
/-
  The real-number algebra joining the two results.

  All four argument arrays hold finite values, so every intermediate quantity of either side is the
  coercion of a real number, and the comparison can be carried out in the field of reals where
  multiplication distributes over finite sums.

  * The two gates agree on the nose once the word for one is read as the number 1, and the gate is
    symmetric because the logits are.
  * The 4096 nodes are 8 column tiles of 512: summing tile by tile is summing over all nodes.
  * With the gate symmetric, the direct and transposed blocks of a tile combine into the symmetrized
    adjacency  K i j = (1/2 (W i j + W j i)) A i j,  so both degrees are  sum_j K i j,  both normalizers are
    (max (deg, eps))^(-1/2)  (a real because eps is a positive real), and both results are
    s * d i * sum_j K i j * d j * x j.
-/
import proofs.«150832_j3959959847448_2_alg».proof.Proof.Spec
import Mathlib

noncomputable section

namespace Cert.Spec

open Idealize.ShloMosaic

/-! ### The float words as real numbers -/

theorem one_eq : one = 1 := by
  simp [one, Ideal.ofBits, Ideal.ieee, -EReal.coe_mul]; norm_num

theorem half_eq : half = ((1 / 2 : ℝ) : EReal) := by
  simp [half, Ideal.ofBits, Ideal.ieee, -EReal.coe_mul]; norm_num

theorem zero_eq : zero = 0 := by simp [zero, Ideal.ofBits, Ideal.ieee]

/-- The floor under the degree is a positive real number (its value is never needed). -/
theorem eps_pos : ∃ e : ℝ, 0 < e ∧ eps = (e : EReal) := by
  simp [eps, Ideal.ofBits, Ideal.ieee, -EReal.coe_mul]

/-! ### Coercion of finite sums and of maxima -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ### Eight tiles of 512 are the 4096 nodes -/

/-- A node is a tile and an offset in it. -/
def colEquiv : Fin 8 × Fin 512 ≃ Fin 4096 where
  toFun p := col p.1 p.2
  invFun j := (⟨j.val / 512, by omega⟩, ⟨j.val % 512, Nat.mod_lt _ (by norm_num)⟩)
  left_inv := by
    rintro ⟨⟨a, ha⟩, ⟨k, hk⟩⟩
    simp only [col, Prod.mk.injEq, Fin.mk.injEq]
    omega
  right_inv := by
    rintro ⟨j, hj⟩
    simp only [col, Fin.mk.injEq]
    omega

/-- Summing tile by tile is summing over all nodes. -/
theorem sum_col {M : Type} [AddCommMonoid M] (f : Fin 4096 → M) :
    ∑ bj : Fin 8, ∑ k : Fin 512, f (col bj k) = ∑ j : Fin 4096, f j := by
  rw [← Fintype.sum_prod_type']
  exact Fintype.sum_equiv colEquiv _ _ (fun _ => rfl)

/-! ### The real-valued twins -/

/-- The logits, the gate, the symmetrized adjacency, the degree and the normalizer over the reals. -/
def logitr (u : Fin 4096 → Fin 16 → ℝ) (i j : Fin 4096) : ℝ := ∑ r : Fin 16, u i r * u j r
def gater (u : Fin 4096 → Fin 16 → ℝ) (i j : Fin 4096) : ℝ := (1 + Real.exp (-(logitr u i j)))⁻¹
def adjr (w : Fin 4 → Fin 4096 → Fin 4096 → ℝ) (u : Fin 4096 → Fin 16 → ℝ) (b : Fin 4) (i j : Fin 4096) : ℝ :=
  (1 / 2 * (w b i j + w b j i)) * gater u i j
def degr (w : Fin 4 → Fin 4096 → Fin 4096 → ℝ) (u : Fin 4096 → Fin 16 → ℝ) (b : Fin 4) (i : Fin 4096) : ℝ :=
  ∑ j : Fin 4096, adjr w u b i j
def dr (w : Fin 4 → Fin 4096 → Fin 4096 → ℝ) (u : Fin 4096 → Fin 16 → ℝ) (e : ℝ) (b : Fin 4) (i : Fin 4096) : ℝ :=
  (Real.sqrt (max (degr w u b i) e))⁻¹

theorem logitr_symm (u : Fin 4096 → Fin 16 → ℝ) (i j : Fin 4096) : logitr u i j = logitr u j i :=
  Finset.sum_congr rfl (fun _ _ => mul_comm _ _)

theorem gater_symm (u : Fin 4096 → Fin 16 → ℝ) (i j : Fin 4096) : gater u i j = gater u j i := by
  unfold gater; rw [logitr_symm]

/-- The two blocks of every tile, summed over the tiles, are one sum over all nodes against the symmetrized
    adjacency. -/
theorem tiles_sum (w : Fin 4 → Fin 4096 → Fin 4096 → ℝ) (u : Fin 4096 → Fin 16 → ℝ) (v : Fin 4096 → ℝ)
    (b : Fin 4) (i : Fin 4096) :
    ∑ bj : Fin 8, (1 / 2 * ((∑ k : Fin 512, (w b i (col bj k) * gater u i (col bj k)) * v (col bj k))
        + ∑ k : Fin 512, (w b (col bj k) i * gater u (col bj k) i) * v (col bj k)))
      = ∑ j : Fin 4096, adjr w u b i j * v j := by
  rw [← sum_col (fun j => adjr w u b i j * v j)]
  refine Finset.sum_congr rfl (fun bj _ => ?_)
  rw [← Finset.sum_add_distrib, Finset.mul_sum]
  refine Finset.sum_congr rfl (fun k _ => ?_)
  unfold adjr
  rw [gater_symm u (col bj k) i]
  ring

/-! ### Every quantity of either side is the coercion of its twin -/

section Coe

variable (x : X3) (W : W3) (U : U2) (s : EReal)
variable (xr : Fin 4 → Fin 4096 → Fin 64 → ℝ) (w : Fin 4 → Fin 4096 → Fin 4096 → ℝ) (u : Fin 4096 → Fin 16 → ℝ)
variable (sr e : ℝ)

theorem gateK_eq_gateR (i j : Fin 4096) : gateK U i j = gateR U i j := by
  unfold gateK gateR Ideal.logistic
  rw [one_eq]

theorem logit_coe (hU : ∀ i r, U i r = (u i r : EReal)) (i j : Fin 4096) :
    logit U i j = (logitr u i j : EReal) := by
  unfold logit logitr
  rw [coe_sum]
  refine Finset.sum_congr rfl (fun r _ => ?_)
  rw [hU, hU, EReal.coe_mul]

theorem gateR_coe (hU : ∀ i r, U i r = (u i r : EReal)) (i j : Fin 4096) :
    gateR U i j = (gater u i j : EReal) := by
  unfold gateR gater
  rw [one_eq, logit_coe U u hU, ← EReal.coe_neg, Ideal.exp_coe, ← EReal.coe_one, ← EReal.coe_add, Ideal.div,
    if_neg (EReal.coe_ne_zero.mpr (by positivity)), ← EReal.coe_inv, ← EReal.coe_mul, one_mul]

theorem tile_coe (hW : ∀ b i j, W b i j = (w b i j : EReal)) (hU : ∀ i r, U i r = (u i r : EReal))
    (V : Fin 4096 → EReal) (v : Fin 4096 → ℝ) (hV : ∀ j, V j = (v j : EReal)) (b : Fin 4) (i : Fin 4096) (bj : Fin 8) :
    tile W U V b i bj
      = ((1 / 2 * ((∑ k : Fin 512, (w b i (col bj k) * gater u i (col bj k)) * v (col bj k))
          + ∑ k : Fin 512, (w b (col bj k) i * gater u (col bj k) i) * v (col bj k)) : ℝ) : EReal) := by
  unfold tile
  rw [half_eq, EReal.coe_mul, EReal.coe_add, coe_sum, coe_sum]
  congr 2
  · refine Finset.sum_congr rfl (fun k _ => ?_)
    rw [gateK_eq_gateR, gateR_coe U u hU, hW, hV, EReal.coe_mul, EReal.coe_mul]
  · refine Finset.sum_congr rfl (fun k _ => ?_)
    rw [gateK_eq_gateR, gateR_coe U u hU, hW, hV, EReal.coe_mul, EReal.coe_mul]

theorem tiles_coe (hW : ∀ b i j, W b i j = (w b i j : EReal)) (hU : ∀ i r, U i r = (u i r : EReal))
    (V : Fin 4096 → EReal) (v : Fin 4096 → ℝ) (hV : ∀ j, V j = (v j : EReal)) (b : Fin 4) (i : Fin 4096) :
    ∑ bj : Fin 8, tile W U V b i bj = ((∑ j : Fin 4096, adjr w u b i j * v j : ℝ) : EReal) := by
  rw [← tiles_sum, coe_sum]
  exact Finset.sum_congr rfl (fun bj _ => tile_coe W U w u hW hU V v hV b i bj)

theorem degK_coe (hW : ∀ b i j, W b i j = (w b i j : EReal)) (hU : ∀ i r, U i r = (u i r : EReal))
    (b : Fin 4) (i : Fin 4096) : degK W U b i = (degr w u b i : EReal) := by
  unfold degK degr
  rw [zero_eq, zero_add, tiles_coe W U w u hW hU (fun _ => one) (fun _ => 1) (fun _ => by rw [one_eq, EReal.coe_one])]
  simp only [mul_one]

theorem adjR_coe (hW : ∀ b i j, W b i j = (w b i j : EReal)) (hU : ∀ i r, U i r = (u i r : EReal))
    (b : Fin 4) (i j : Fin 4096) : adjR W U b i j = (adjr w u b i j : EReal) := by
  unfold adjR adjr
  rw [half_eq, hW, hW, gateR_coe U u hU, ← EReal.coe_add, ← EReal.coe_mul, ← EReal.coe_mul]

theorem degR_coe (hW : ∀ b i j, W b i j = (w b i j : EReal)) (hU : ∀ i r, U i r = (u i r : EReal))
    (b : Fin 4) (i : Fin 4096) : degR W U b i = (degr w u b i : EReal) := by
  unfold degR degr
  rw [zero_eq, zero_add, coe_sum]
  exact Finset.sum_congr rfl (fun j _ => adjR_coe W U w u hW hU b i j)

/-- The reciprocal square root of a maximum with a positive real is a real. -/
theorem rsqrt_max_coe (t : ℝ) (he : 0 < e) (heps : eps = (e : EReal)) :
    Ideal.rsqrt (max (t : EReal) eps) = (((Real.sqrt (max t e))⁻¹ : ℝ) : EReal) := by
  have hpos : 0 < max t e := lt_max_of_lt_right he
  rw [heps, ← coe_max, Ideal.rsqrt_coe, if_neg (not_lt.mpr hpos.le), if_neg hpos.ne']

theorem dK_coe (hW : ∀ b i j, W b i j = (w b i j : EReal)) (hU : ∀ i r, U i r = (u i r : EReal))
    (he : 0 < e) (heps : eps = (e : EReal)) (b : Fin 4) (i : Fin 4096) :
    dK W U b i = (dr w u e b i : EReal) := by
  unfold dK dr
  rw [degK_coe W U w u hW hU, rsqrt_max_coe e _ he heps]

theorem dR_coe (hW : ∀ b i j, W b i j = (w b i j : EReal)) (hU : ∀ i r, U i r = (u i r : EReal))
    (he : 0 < e) (heps : eps = (e : EReal)) (b : Fin 4) (i : Fin 4096) :
    dR W U b i = (dr w u e b i : EReal) := by
  unfold dR dr
  rw [degR_coe W U w u hW hU, rsqrt_max_coe e _ he heps]

theorem outK_coe (hx : ∀ b j c, x b j c = (xr b j c : EReal)) (hW : ∀ b i j, W b i j = (w b i j : EReal))
    (hU : ∀ i r, U i r = (u i r : EReal)) (hs : s = (sr : EReal)) (he : 0 < e) (heps : eps = (e : EReal))
    (b : Fin 4) (i : Fin 4096) (c : Fin 64) :
    outK x W U s b i c
      = (((dr w u e b i * ∑ j : Fin 4096, adjr w u b i j * (dr w u e b j * xr b j c)) * sr : ℝ) : EReal) := by
  unfold outK
  rw [zero_eq, zero_add,
    tiles_coe W U w u hW hU (fun j => dK W U b j * x b j c) (fun j => dr w u e b j * xr b j c)
      (fun j => by rw [dK_coe W U w u e hW hU he heps, hx, EReal.coe_mul]),
    dK_coe W U w u e hW hU he heps, hs, ← EReal.coe_mul, ← EReal.coe_mul]

theorem outR_coe (hx : ∀ b j c, x b j c = (xr b j c : EReal)) (hW : ∀ b i j, W b i j = (w b i j : EReal))
    (hU : ∀ i r, U i r = (u i r : EReal)) (hs : s = (sr : EReal)) (he : 0 < e) (heps : eps = (e : EReal))
    (b : Fin 4) (i : Fin 4096) (c : Fin 64) :
    outR x W U s b i c
      = ((sr * ∑ j : Fin 4096, ((adjr w u b i j * dr w u e b i) * dr w u e b j) * xr b j c : ℝ) : EReal) := by
  unfold outR
  rw [hs, EReal.coe_mul, coe_sum]
  refine congrArg (fun t => (sr : EReal) * t) (Finset.sum_congr rfl (fun j _ => ?_))
  rw [adjR_coe W U w u hW hU, dR_coe W U w u e hW hU he heps, dR_coe W U w u e hW hU he heps, hx,
    EReal.coe_mul, EReal.coe_mul, EReal.coe_mul]

end Coe

/-! ### The two results agree -/

theorem outK_eq_outR (x : X3) (W : W3) (U : U2) (s : EReal)
    (hx : ∀ b j c, ∃ r : ℝ, x b j c = (r : EReal)) (hW : ∀ b i j, ∃ r : ℝ, W b i j = (r : EReal))
    (hU : ∀ i r, ∃ t : ℝ, U i r = (t : EReal)) (hs : ∃ r : ℝ, s = (r : EReal))
    (b : Fin 4) (i : Fin 4096) (c : Fin 64) : outK x W U s b i c = outR x W U s b i c := by
  choose xr hxr using hx
  choose w hw using hW
  choose u hu using hU
  obtain ⟨sr, hsr⟩ := hs
  obtain ⟨e, he, heps⟩ := eps_pos
  rw [outK_coe x W U s xr w u sr e hxr hw hu hsr he heps, outR_coe x W U s xr w u sr e hxr hw hu hsr he heps]
  congr 1
  simp only [Finset.mul_sum, Finset.sum_mul]
  exact Finset.sum_congr rfl (fun j _ => by ring)

end Cert.Spec

end
-- ==== Proof.FrameBase.lean ====
/-
  What the three regions' frame modules share: the resource algebra, the state that rides beside the unscoped buffers
  between the items of the program (the generator register at some state, the core owing nothing), and the family of
  the three pipelines' proof data as a literal match on the pipeline's number.
-/
import proofs.«150832_j3959959847448_2_alg».proof.Proof.Gen.KernelIdeal.Launch
import proofs.«150832_j3959959847448_2_alg».proof.Proof.Gen.KernelIdeal.Skeleton
import proofs.«150832_j3959959847448_2_alg».proof.Proof.Gen.KernelIdeal.Points
import proofs.«150832_j3959959847448_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The resource algebra every region's proof data lives in. -/
abbrev MM (F : FTy → Type) : Type _ := MT nD τ sig Unit (Elt F) ℕ (UR sig nD τ) ℕ

abbrev VV : Variants := Variants.none
/-- No core owes another anything: no level is assigned. -/
abbrev LL : GSem nD τ sig → Finset Unit := fun _ => ∅
abbrev lvv : GSem nD τ sig → Unit → ℕ := fun _ _ => 0

/-- What rides beside the unscoped buffers through every item: the generator register at some state and the core's
    `owes`, at nothing. -/
abbrev RR (c : Dev nD) : sProp (MM F) :=
  iprop((∃ r, prngReg c r) ∗ ∃ W, owes (c : Thread nD τ) (0 : CellTallies nD τ sig Unit) W)

/-- One pipeline's proof data on every core. -/
abbrev DatOf (F : FTy → Type) [FloatOps F] (cfg : Pipeline.Cfg sig Λ₀) : Type _ :=
  (c : Dev nD) → Dat τ (Elt F) Unit ℕ (UR sig nD τ) ℕ cfg c

/-- The three pipelines' proof data as one family: a literal match, so that at a numeral it reduces to the
    pipeline's own. -/
def pdatsOf (d0 : DatOf F cfg0) (d1 : DatOf F cfg1) (d2 : DatOf F cfg2) :
    (p : Fin 3) → (c : Dev nD) → Dat τ (Elt F) Unit ℕ (UR sig nD τ) ℕ (cfgs p) c
  | ⟨0, _⟩ => d0
  | ⟨1, _⟩ => d1
  | ⟨2, _⟩ => d2

/-- A region's segment record over that family. -/
abbrev RegOf (d0 : DatOf F cfg0) (d1 : DatOf F cfg1) (d2 : DatOf F cfg2) (p : Fin 3) : Type _ :=
  Pipeline.RegionSeg (pcfgs (F := F)) adm (pdatsOf d0 d1 d2) () defs₀ VV LL lvv p

end Cert.KernelIdeal.Hand

end
-- ==== Proof.FrameChain.lean ====
/-
  The unscoped buffers of a core one by one, and the core's `owes` at nothing as a pipeline point's.
-/
import proofs.«150832_j3959959847448_2_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- One whole buffer of core `c` held outright at contents `f`. -/
abbrev ptw (c : Dev nD) (b : Ref sig .tc) (f : Buf (Elt F) ((c : Thread nD τ).loc b)) : sProp (MM F) :=
  ((c : Thread nD τ).loc b) ↦{fullShare} f

/-- The program has nine unscoped buffers: its four arguments, the three regions' results and the two host results. -/
theorem held_uc_eq (c : Dev nD) (W : Valuation τ sig (Elt F)) :
    (StableHlo.held (c : Thread nD τ) (Pipeline.ucRefs τ sig) W : sProp (MM F))
      = iprop(ptw c main_arg0 (W main_arg0) ∗ ptw c main_arg1 (W main_arg1) ∗ ptw c main_arg2 (W main_arg2) ∗ ptw c main_arg3 (W main_arg3)
          ∗ ptw c main_v0 (W main_v0) ∗ ptw c main_v1 (W main_v1) ∗ ptw c main_v2 (W main_v2) ∗ ptw c main_v3 (W main_v3) ∗ ptw c main_v4 (W main_v4)) := by
  unfold StableHlo.held
  rw [bigSep_eq_bigSepL_of_eq [Proc.devRef .tc main_arg0, Proc.devRef .tc main_arg1, Proc.devRef .tc main_arg2, Proc.devRef .tc main_arg3,
    Proc.devRef .tc main_v0, Proc.devRef .tc main_v1, Proc.devRef .tc main_v2, Proc.devRef .tc main_v3, Proc.devRef .tc main_v4] (by decide) (by decide)]
  rfl

/-- The core's `owes` at nothing is a pipeline point's, for proof data that owes nothing there and bounds its recorded
    pairs by nothing; and back. -/
theorem owesAt_intro {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp (MM F)) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ (UR sig nD τ) ℕ cfg c) (t : Fin (cfg.N + 1))
    (h0 : dat.owed t = 0) :
    (dat.owesAt () t : sProp (MM F)) ⊢ iprop(∃ W, owes (c : Thread nD τ) (0 : CellTallies nD τ sig Unit) W) := by
  unfold Pipeline.Dat.owesAt Pipeline.owesWithin; rw [h0]
  iintro ⟨%W, -, HO⟩; iexists W; iexact HO

/-- A whole buffer held outright is held at the two halves of the full share, and back. -/
theorem ptw_halves (c : Dev nD) (b : Ref sig .tc) (f : Buf (Elt F) ((c : Thread nD τ).loc b)) :
    (ptw c b f : sProp (MM F)) ⊣⊢ iprop((((c : Thread nD τ).loc b) ↦{fullShare.left} f) ∗ (((c : Thread nD τ).loc b) ↦{fullShare.right} f)) :=
  pointsTo_share (PosShare.mem_left_op_right fullShare)

end Cert.KernelIdeal.Hand

end
-- ==== Proof.Body0.lean ====
/-
  The gate kernel's body on whole staging buffers: it loads its two 512x16 operand blocks, and stores ONE 512x512 tile
  through the whole zero-offset rectangle, so the tile it leaves is the store's payload at the operands.
-/
import proofs.«150832_j3959959847448_2_alg».proof.Proof.FrameBase
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-2 access, as the constant function. -/
theorem zeros2 : (![0, 0] : Fin 2 → ℕ) = fun _ => 0 := by funext a; fin_cases a <;> rfl

/-- The whole 512x16 rectangle the gate kernel loads its operands through. -/
abbrev rOp : Rect S512x16 := Rect.unit (s := S512x16) ![0, 0] S512x16.size inb_S512x16_S512x16_0_0
/-- The whole 512x512 rectangle it stores its tile through. -/
abbrev rTile : Rect S512x512 := Rect.unit (s := S512x512) ![0, 0] S512x512.size inb_S512x512_S512x512_0_0

/-- The tile's staging buffer after the body, from the two operand blocks: its one store as a piece. -/
def gateOut (x0 x1 : Vec F S512x16 .f32) : Vec F S512x512 .bf16 :=
  View.canon [⟨rTile, k0_pay1 (View.ld x0 rOp) (View.ld x1 rOp)⟩]

/-- The store is through the whole rectangle and so are the loads: the tile is the payload at the operand blocks. -/
theorem gateOut_eq (x0 x1 : Vec F S512x16 .f32) : gateOut x0 x1 = k0_pay1 x0 x1 := by
  unfold gateOut
  rw [View.canon_unit_zero (S := S512x512) zeros2]
  simp only [View.ld_unit_zero (S := S512x16) zeros2]

/-- The one store covers the buffer. -/
theorem coverGate (p0 : Vec F S512x512 .bf16) (y : S512x512.Idx) :
    ∃ pc ∈ ([⟨rTile, p0⟩] : List (View.Piece (Elt F) S512x512 .bf16)), y ∈ pc.1.set :=
  ⟨_, List.mem_singleton_self _, View.mem_set_unit_zero (S := S512x512) zeros2 inb_S512x512_S512x512_0_0 y⟩

set_option maxHeartbeats 1000000 in
/-- The gate kernel's body on whole staging memrefs, the operands' at read contents and the tile's at anything, runs to
    the continuation holding the operands' as they were and the tile's at `gateOut` of them. -/
theorem sound_gate (c : Dev nD) (E : Set ℕ) (i : grid0.Coords) (arg2 : Memref sig .tc .vmem S512x16 .f32) (harg2 : arg2.IsWhole)
    (arg3 : Memref sig .tc .vmem S512x16 .f32) (harg3 : arg3.IsWhole) (arg4 : Memref sig .tc .vmem S512x512 .bf16) (harg4 : arg4.IsWhole)
    (x0 x1 : Vec F S512x16 .f32) (K : PUnit → sProp (MM F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
              ∗ owns (c : Thread nD τ) arg4 fullShare (gateOut x0 x1)) -∗ K ⟨⟩))
      ⊢ wp frame (wpE (defs₀ (F := F)) Variants.none c none) E (cc0__gate_kernel i arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverGate _)

end Cert.KernelIdeal.Hand

end
-- ==== Proof.Region0.lean ====
/-
  Region 0, the gate kernel, as a segment of the program. Its grid has 8 x 8 points (bi, bj); windows 0 and 1 read the
  row tiles bi and bj of the one array U (so both sit on the same buffer and each holds half of its share), window 2
  writes tile (bi, bj) of the gate matrix. After the body at a point the two input windows hold their blocks and the
  output window holds the body's payload of those two blocks.
-/
import proofs.«150832_j3959959847448_2_alg».proof.Proof.FrameChain
import proofs.«150832_j3959959847448_2_alg».proof.Proof.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region0

-- what each core's buffers hold when the region is entered
variable (Wv : Dev nD → Valuation τ sig (Elt F))

/-- The same read at a TensorCore reference. -/
abbrev Vat (c : Dev nD) (b : Ref sig .tc) : Buf (Elt F) ((c : Thread nD τ).loc b) := Wv c b

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vat Wv c (Pipeline.arrRef spec0 w))

/-- The proof data: arrays as found; inputs left in place, the output at the gate payload; the two windows on U hold the
    two halves of its share; nothing owed; the invariant is the scoped rest and the generator register, untouched. -/
def dat0 (c : Dev nD) : Dat τ (Elt F) Unit ℕ (UR sig nD τ) ℕ cfg0 c where
  A w := Vat Wv c (Pipeline.arrRef spec0 w)
  after w t := match w with
    | ⟨0, _⟩ => iblk0 Wv c 0 t
    | ⟨1, _⟩ => iblk0 Wv c 1 t
    | ⟨2, _⟩ => gateOut (iblk0 Wv c 0 t) (iblk0 Wv c 1 t)
  Φ _ := Pipeline.ΦA spec0 c
  q w := match w with
    | ⟨0, _⟩ => fullShare.left
    | ⟨1, _⟩ => fullShare.right
    | ⟨2, _⟩ => fullShare
  owed _ := 0

theorem A0_eq (c : Dev nD) (w : Fin cfg0.W) : (dat0 Wv c).A w = Vat Wv c (Pipeline.arrRef spec0 w) := by dsimp only [dat0]
theorem after0_0 (c : Dev nD) (t : Fin cfg0.N) : (dat0 Wv c).after 0 t = iblk0 Wv c 0 t := by dsimp only [dat0]
theorem after0_1 (c : Dev nD) (t : Fin cfg0.N) : (dat0 Wv c).after 1 t = iblk0 Wv c 1 t := by dsimp only [dat0]
theorem after0_2 (c : Dev nD) (t : Fin cfg0.N) : (dat0 Wv c).after 2 t = gateOut (iblk0 Wv c 0 t) (iblk0 Wv c 1 t) := by dsimp only [dat0]

/-- An input window the body leaves in place holds its block at every point, refetched there or not: when it is not
    refetched its block index has not moved. -/
theorem before0_0 (c : Dev nD) (t : Fin cfg0.N) (d) : (dat0 Wv c).before 0 t d = iblk0 Wv c 0 t := by
  have h := (dat0 Wv c).before_in_eq_fetched 0 rfl (fun _ => rfl) (fun _ _ _ => rfl)
    (fun t => by rw [after0_0]; unfold Dat.blockOf iblk0; rw [A0_eq]; try rfl) t d
  rw [h]; unfold Dat.fetched Dat.blockOf iblk0; rw [A0_eq]; try rfl
theorem before0_1 (c : Dev nD) (t : Fin cfg0.N) (d) : (dat0 Wv c).before 1 t d = iblk0 Wv c 1 t := by
  have h := (dat0 Wv c).before_in_eq_fetched 1 rfl (fun _ => rfl) (fun _ _ _ => rfl)
    (fun t => by rw [after0_1]; unfold Dat.blockOf iblk0; rw [A0_eq]; try rfl) t d
  rw [h]; unfold Dat.fetched Dat.blockOf iblk0; rw [A0_eq]; try rfl

/-- The body at any point: the two input buffers hold their blocks, so the gate kernel's run applies; the invariant and
    the core's `owes` pass through unread. -/
theorem sound_body0 (c : Dev nD) (t : Fin cfg0.N) :
    iprop((dat0 Wv c).Φ t.castSucc ∗ (dat0 Wv c).owesAt () t.castSucc
        ∗ (∃ d, owns (c : Thread nD τ) (st0_0 t) fullShare ((dat0 Wv c).before 0 t d))
        ∗ (∃ d, owns (c : Thread nD τ) (st0_1 t) fullShare ((dat0 Wv c).before 1 t d))
        ∗ (∃ d, owns (c : Thread nD τ) (st0_2 t) fullShare ((dat0 Wv c).before 2 t d)))
      ⊢ wp frame (wpE (defs₀ (F := F)) Variants.none c none) Set.univ (bodyAt0 t) (fun _ =>
        iprop((dat0 Wv c).Φ t.succ ∗ (dat0 Wv c).owesAt () t.succ
          ∗ owns (c : Thread nD τ) (st0_0 t) fullShare ((dat0 Wv c).after 0 t)
          ∗ owns (c : Thread nD τ) (st0_1 t) fullShare ((dat0 Wv c).after 1 t)
          ∗ owns (c : Thread nD τ) (st0_2 t) fullShare ((dat0 Wv c).after 2 t))) := by
  unfold bodyAt0
  simp only [before0_0, before0_1]
  rw [show (dat0 Wv c).Φ t.succ = (dat0 Wv c).Φ t.castSucc from rfl,
    show (dat0 Wv c).owesAt () t.succ = (dat0 Wv c).owesAt () t.castSucc from rfl,
    after0_0, after0_1, after0_2]
  iintro ⟨HΦ, Ho, ⟨%d0, H0⟩, ⟨%d1, H1⟩, ⟨%d2, H2⟩⟩
  iapply (sound_gate c Set.univ _ _ _ _ _ _ _ (iblk0 Wv c 0 t) (iblk0 Wv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) Wv c) (defs₀ (F := F)) Variants.none () Set.univ := fun t => by
  rw [bigSep_W0, bigSep_W0]
  exact sound_body0 Wv c t

end Region0

section Seg0

variable (Wv : Dev nD → Valuation τ sig (Elt F)) (d1 : DatOf F cfg1) (d2 : DatOf F cfg2)

/-- What core `c`'s buffers hold when the region is left: the gate matrix's buffer at what the write-backs leave, every
    other buffer as entered. -/
def Wnext0 (c : Dev nD) : Valuation τ sig (Elt F) :=
  Function.update (Wv c) (Proc.devRef .tc main_v0) ((dat0 Wv c).arrAt 2 cfg0.N)

theorem Wnext0_v0 (c : Dev nD) : Wnext0 Wv c main_v0 = (dat0 Wv c).arrAt 2 cfg0.N := Function.update_self ..
theorem Wnext0_of_ne (c : Dev nD) (b : Ref sig .tc) (h : b ≠ main_v0) : Wnext0 Wv c b = Wv c b :=
  Function.update_of_ne (StableHlo.devRef_ne_of_ne h) ..

/-- The pipeline's arrays window by window: U's buffer at its two halves, the gate matrix's outright. -/
theorem arrays0_eq (c : Dev nD) (Fa : (w : Fin cfg0.W) → Buf (Elt F) ((cfg0.win w).arr.view.loc (c : Thread nD τ))) :
    ((dat0 Wv c).arrays Fa : sProp (MM F))
      = iprop((((c : Thread nD τ).loc main_arg2) ↦{fullShare.left} Fa 0) ∗ (((c : Thread nD τ).loc main_arg2) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

set_option backward.isDefEq.respectTransparency.types false in
/-- Region 0 over the thread state "every unscoped buffer at its contents, the generator register at some state, nothing
    owed": U's buffer is split in two halves for the two windows on it at entry and joined again at exit, where the gate
    matrix's buffer comes back at what the write-backs left. -/
def reg0 : RegOf (dat0 Wv) d1 d2 0 where
  win := winFacts₀0
  block_pos := block_pos0
  stage_whole := stage_whole0
  K := PEmpty
  osem k := k.elim
  ho := Pipeline.OwnSemFacts.none _
  hbody c := (body_obligation0 Wv c).loose
  hwaits := Pipeline.hwaits_of_owed_zero _ _ _ _ LL lvv 0 fun _ _ => rfl
  pre c := iprop(StableHlo.held (c : Thread nD τ) (Pipeline.ucRefs τ sig) (Wv c) ∗ RR c)
  post c := iprop(StableHlo.held (c : Thread nD τ) (Pipeline.ucRefs τ sig) (Wnext0 Wv c) ∗ RR c)
  X c := iprop(∃ r, prngReg c r)
  Y c := iprop(∃ r, prngReg c r)
  Z c := iprop(ptw c main_arg0 (Wv c main_arg0) ∗ ptw c main_arg1 (Wv c main_arg1) ∗ ptw c main_arg3 (Wv c main_arg3)
    ∗ ptw c main_v1 (Wv c main_v1) ∗ ptw c main_v2 (Wv c main_v2) ∗ ptw c main_v3 (Wv c main_v3) ∗ ptw c main_v4 (Wv c main_v4))
  hentry c := by
    rw [Pipeline.ownSems0_none, held_uc_eq]
    show _ ⊢ |={Set.univ}=> iprop((dat0 Wv c).arrays ((dat0 Wv c).arrAt · 0) ∗ _ ∗ (dat0 Wv c).owesAt () 0 ∗ _ ∗ _)
    rw [arrays0_eq]
    iintro ⟨⟨⟨H0, H1, H2, H3, Hv0, Hv1, Hv2, Hv3, Hv4⟩, Hp, HO⟩, -, -⟩
    ihave H2' := (ptw_halves c main_arg2 (Wv c main_arg2)).1 $$ [H2]
    · iexact H2
    icases H2' with ⟨H2a, H2b⟩
    imodintro
    isplitl [H2a H2b Hv0]
    · isplitl [H2a]; · iexact H2a
      isplitl [H2b]; · iexact H2b
      iexact Hv0
    isplitr; · unfold Pipeline.prefHeld; rw [show (Finset.univ : Finset (Fin 0)) = ∅ from rfl, BI.bigSep_empty]; iempintro
    isplitl [HO]; · iapply (owesAt_intro (dat0 Wv c) 0 rfl rfl); iexact HO
    isplitl [Hp]; · iexact Hp
    isplitl [H0]; · iexact H0
    isplitl [H1]; · iexact H1
    isplitl [H3]; · iexact H3
    isplitl [Hv1]; · iexact Hv1
    isplitl [Hv2]; · iexact Hv2
    isplitl [Hv3]; · iexact Hv3
    iexact Hv4
  hin c := by
    show _ ⊢ Pipeline.ΦA spec0 c
    unfold Pipeline.ΦA
    iintro ⟨Hp, -, Hr⟩
    isplitl [Hr]; · iexact Hr
    iexact Hp
  hout c := by
    rw [Pipeline.ownSems0_none]
    show Pipeline.ΦA spec0 c ⊢ _
    unfold Pipeline.ΦA
    iintro ⟨Hr, Hp⟩
    isplitl [Hp]; · iexact Hp
    isplitr; · iempintro
    iexact Hr
  hexit c := by
    show iprop((dat0 Wv c).arrays ((dat0 Wv c).arrAt · cfg0.N) ∗ (dat0 Wv c).owesAt () (Fin.last cfg0.N) ∗ _ ∗ _) ⊢ _
    rw [arrays0_eq, held_uc_eq, Wnext0_v0, Wnext0_of_ne Wv c main_arg0 (by decide), Wnext0_of_ne Wv c main_arg1 (by decide),
      Wnext0_of_ne Wv c main_arg2 (by decide), Wnext0_of_ne Wv c main_arg3 (by decide), Wnext0_of_ne Wv c main_v1 (by decide),
      Wnext0_of_ne Wv c main_v2 (by decide), Wnext0_of_ne Wv c main_v3 (by decide), Wnext0_of_ne Wv c main_v4 (by decide),
      (dat0 Wv c).arrAt_in 0 rfl, (dat0 Wv c).arrAt_in 1 rfl, A0_eq, A0_eq]
    iintro ⟨⟨H2a, H2b, Hv0⟩, HO, HY, ⟨H0, H1, H3, Hv1, Hv2, Hv3, Hv4⟩⟩
    ihave H2 := (ptw_halves c main_arg2 (Wv c main_arg2)).2 $$ [H2a H2b]
    · isplitl [H2a]; · iexact H2a
      iexact H2b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat0 Wv c) _ rfl); iexact HO

end Seg0

end Cert.KernelIdeal.Hand

end
-- ==== Proof.Body1A.lean ====
/-
  The degree kernel's body on whole staging buffers. The grid's last coordinate walks the eight column tiles of a row
  block: at the first the accumulator is zeroed, at every one the tile's share is added to it, at the last the normalizer
  is stored into the output window. This module: the two branch conditions decided over the grid, the accumulator's step
  as a function of the four blocks, and the run at a point that is neither first nor last.
-/
import proofs.«150832_j3959959847448_2_alg».proof.Proof.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The branch conditions -/

/-- The condition of the first `scf.if` (the zeroing), from the grid coordinates: the program's chain of scalar
    operations on the last coordinate. -/
abbrev cond1_0 (i : grid1.Coords) : Prop :=
  (Scalar.cmpi .ne (Scalar.extui (Scalar.cmpi .eq (BitVec.ofNat 32 (i 2).val) 0#32)) 0#32) = 1#1
/-- It holds at the points ≡ 0 (mod 8): the first column tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the second `scf.if` (the normalizer's store). -/
abbrev cond1_1 (i : grid1.Coords) : Prop := k1_cond2 i = 1#1
/-- It holds at the points ≡ 7 (mod 8): the last column tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The accesses and the accumulator's step -/

/-- The zero offsets of a rank-3 access, as the constant function. -/
theorem zeros3 : (![0, 0, 0] : Fin 3 → ℕ) = fun _ => 0 := by funext a; fin_cases a <;> rfl

/-- The whole rectangles of the W blocks, the accumulator and the output window. -/
abbrev rW : Rect S1x512x512 := Rect.unit (s := S1x512x512) ![0, 0, 0] S1x512x512.size inb_S1x512x512_S1x512x512_0_0_0
abbrev rAcc : Rect S512x1 := Rect.unit (s := S512x1) ![0, 0] S512x1.size inb_S512x1_S512x1_0_0
abbrev rDeg : Rect S1x512x1 := Rect.unit (s := S1x512x1) ![0, 0, 0] S1x512x1.size inb_S1x512x1_S1x512x1_0_0_0

/-- The accumulator after a point's store: the accumulator before it plus the tile's share, from the direct and the
    transposed W blocks `x0 x1` and the two gate tiles `x2 x3`. -/
def degStep (x0 x1 : Vec F S1x512x512 .f32) (x2 x3 : Vec F S512x512 .bf16) (s : Vec F S512x1 .f32) : Vec F S512x1 .f32 :=
  k1_pay2 x2 x3 x0 x1 s

/-- One whole-rectangle store covers the accumulator, whatever was stored before it. -/
theorem coverAcc (p0 : Vec F S512x1 .f32) (L : List (View.Piece (Elt F) S512x1 .f32)) (y : S512x1.Idx) :
    ∃ pc ∈ ((⟨rAcc, p0⟩ : View.Piece (Elt F) S512x1 .f32) :: L), y ∈ pc.1.set :=
  ⟨_, List.mem_cons_self, View.mem_set_unit_zero (S := S512x1) zeros2 inb_S512x1_S512x1_0_0 y⟩

/-- What the accumulator reads after the point's store through the whole rectangle, the payload's operands loaded
    through the whole rectangles: the step at the blocks. -/
theorem read_acc_step {κ : Kind} {sp : Space} (v : View sig κ sp S512x1 .f32) (f : v.ty.Contents (Elt F))
    (x0 x1 : Vec F S1x512x512 .f32) (x2 x3 : Vec F S512x512 .bf16) (s : Vec F S512x1 .f32)
    (L : List (View.Piece (Elt F) S512x1 .f32)) :
    v.read (Elt F) (v.writes (Elt F) f
        ((⟨rAcc, k1_pay2 (View.ld x2 rTile) (View.ld x3 rTile) (View.ld x0 rW) (View.ld x1 rW) (View.ld s rAcc)⟩ : View.Piece (Elt F) S512x1 .f32) :: L))
      = degStep x0 x1 x2 x3 s := by
  rw [View.read_writes_eq_canon _ _ _ (coverAcc _ L), View.canon_cons_unit_zero (S := S512x1) zeros2]
  simp only [View.ld_unit_zero (S := S512x512) zeros2, View.ld_unit_zero (S := S1x512x512) zeros3,
    View.ld_unit_zero (S := S512x1) zeros2]
  rfl

/-! ## The run at a middle point -/

set_option maxHeartbeats 1000000 in
/-- At a point that is neither the first nor the last column tile the body adds the tile's share to the accumulator
    and touches nothing else: the output window's buffer is handed back at the contents it came with. -/
theorem sound_deg_middle (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : ¬cond1_0 i) (hc1 : ¬cond1_1 i)
    (x0 x1 : Vec F S1x512x512 .f32) (x2 x3 : Vec F S512x512 .bf16) (xi : Vec F S1x512x1 .f32) (s : Vec F S512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi ∗ owns (c : Thread nD τ) arg8 fullShare s
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare xi
              ∗ owns (c : Thread nD τ) arg8 fullShare (degStep x0 x1 x2 x3 s)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  subst hf0; subst hf1; subst hf2; subst hf3; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  exact read_acc_step _ _ _ _ _ _ _ _

end Cert.KernelIdeal.Hand

end
-- ==== Proof.Body1B.lean ====
/-
  The degree kernel's run at the first column tile of a row block: the accumulator is zeroed, and the zero is what
  the accumulating load reads back.
-/
import proofs.«150832_j3959959847448_2_alg».proof.Proof.Body1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000 in
/-- At the first column tile the body zeroes the accumulator, whatever it held, and adds the tile's share to the zero;
    the output window's buffer is handed back at the contents it came with. -/
theorem sound_deg_first (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : cond1_0 i) (hc1 : ¬cond1_1 i)
    (x0 x1 : Vec F S1x512x512 .f32) (x2 x3 : Vec F S512x512 .bf16) (xi : Vec F S1x512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi ∗ (∃ s, owns (c : Thread nD τ) arg8 fullShare s)
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare xi
              ∗ owns (c : Thread nD τ) arg8 fullShare (degStep x0 x1 x2 x3 k1_pay1)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f7, %hf7, H7⟩, ⟨%s8, %f8, -, H8⟩, Hk⟩
  subst hf0; subst hf1; subst hf2; subst hf3; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  have hv : sound_deg_first.sl.v24 c arg8 = View.ld (k1_pay1 (F := F)) rAcc := by
    unfold sound_deg_first.sl.v24 sound_deg_first.sl.H8_1
    rw [View.readCov_unit_zero (S := S512x1) _ zeros2, View.ld_unit_zero (S := S512x1) zeros2]
  rw [hv]
  exact read_acc_step _ _ _ _ _ _ _ _

end Cert.KernelIdeal.Hand

end
-- ==== Proof.Body1C.lean ====
/-
  The degree kernel's run at the last column tile of a row block: after the tile's share is added, the accumulator is
  read back and its normalizer is stored into the output window.
-/
import proofs.«150832_j3959959847448_2_alg».proof.Proof.Body1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- One whole-rectangle store covers the output window's buffer. -/
theorem coverDeg (p0 : Vec F S1x512x1 .f32) (y : S1x512x1.Idx) :
    ∃ pc ∈ ([⟨rDeg, p0⟩] : List (View.Piece (Elt F) S1x512x1 .f32)), y ∈ pc.1.set :=
  ⟨_, List.mem_singleton_self _, View.mem_set_unit_zero (S := S1x512x1) zeros3 inb_S1x512x1_S1x512x1_0_0_0 y⟩

/-- The step's payload at operands loaded through the whole rectangles is the step at the blocks. -/
theorem pay2_ld (x0 x1 : Vec F S1x512x512 .f32) (x2 x3 : Vec F S512x512 .bf16) (s : Vec F S512x1 .f32) :
    k1_pay2 (View.ld x2 rTile) (View.ld x3 rTile) (View.ld x0 rW) (View.ld x1 rW) (View.ld s rAcc) = degStep x0 x1 x2 x3 s := by
  simp only [View.ld_unit_zero (S := S512x512) zeros2, View.ld_unit_zero (S := S1x512x512) zeros3,
    View.ld_unit_zero (S := S512x1) zeros2]
  rfl

set_option maxHeartbeats 1000000 in
/-- At the last column tile the body adds the tile's share to the accumulator, reads the sum back and stores its
    normalizer into the output window's buffer, whatever that held. -/
theorem sound_deg_last (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : ¬cond1_0 i) (hc1 : cond1_1 i)
    (x0 x1 : Vec F S1x512x512 .f32) (x2 x3 : Vec F S512x512 .bf16) (s : Vec F S512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare (k1_pay3 (degStep x0 x1 x2 x3 s))
              ∗ owns (c : Thread nD τ) arg8 fullShare (degStep x0 x1 x2 x3 s)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0; subst hf1; subst hf2; subst hf3; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have hv : sound_deg_last.sl.v32 c arg3 arg4 arg5 arg6 arg8 f0 f1 f2 f3 f8
      = degStep (arg3.view.read (Elt F) f0) (arg4.view.read (Elt F) f1) (arg5.view.read (Elt F) f2) (arg6.view.read (Elt F) f3)
          (arg8.view.read (Elt F) f8) := by
    unfold sound_deg_last.sl.v32 sound_deg_last.sl.H8_1
    rw [View.readCov_unit_zero (S := S512x1) _ zeros2]
    exact pay2_ld _ _ _ _ _
  isplitl [H7]
  · iexists _; isplitr
    swap; · iexact H7
    ipureintro
    rw [hv, View.read_writes_eq_canon _ _ _ (coverDeg _), View.canon_unit_zero (S := S1x512x1) zeros3]
  iexists _; isplitr
  swap; · iexact H8
  ipureintro
  unfold sound_deg_last.sl.H8_1
  exact read_acc_step _ _ _ _ _ _ _ _

end Cert.KernelIdeal.Hand

end
-- ==== Proof.Region1a.lean ====
/-
  Region 1, the degree kernel, as a segment of the program: its proof data. The grid has 4 x 8 x 8 points (b, bi, bj);
  windows 0 and 1 read tiles (b, bi, bj) and (b, bj, bi) of the one array W, windows 2 and 3 read tiles (bi, bj) and
  (bj, bi) of the gate matrix (so each pair sits on one buffer and each window holds half of its share), window 4
  writes rows bi of batch b of the normalizer, at the last column tile only. Between points the kernel carries an
  accumulator in a scratch buffer: zeroed at the first column tile, the tile's share added at every one.
-/
import proofs.«150832_j3959959847448_2_alg».proof.Proof.Region0
import proofs.«150832_j3959959847448_2_alg».proof.Proof.Body1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region1

-- what each core's buffers hold when the region is entered
variable (Wv : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vat Wv c (Pipeline.arrRef spec1 w))

/-! ## The accumulation -/

/-- The accumulator after the body at position `n`: at a first column tile (every eighth point) the step from zero,
    elsewhere the step from what the point before left. -/
def acc1 (c : Dev nD) : (n : ℕ) → n < cfg1.N → Vec F S512x1 .f32
  | 0, hn => degStep (iblk1 Wv c 0 ⟨0, hn⟩) (iblk1 Wv c 1 ⟨0, hn⟩) (iblk1 Wv c 2 ⟨0, hn⟩) (iblk1 Wv c 3 ⟨0, hn⟩) k1_pay1
  | n + 1, hn =>
    if (n + 1) % 8 = 0 then degStep (iblk1 Wv c 0 ⟨n + 1, hn⟩) (iblk1 Wv c 1 ⟨n + 1, hn⟩) (iblk1 Wv c 2 ⟨n + 1, hn⟩) (iblk1 Wv c 3 ⟨n + 1, hn⟩) k1_pay1
    else degStep (iblk1 Wv c 0 ⟨n + 1, hn⟩) (iblk1 Wv c 1 ⟨n + 1, hn⟩) (iblk1 Wv c 2 ⟨n + 1, hn⟩) (iblk1 Wv c 3 ⟨n + 1, hn⟩) (acc1 c n (Nat.lt_of_succ_lt hn))

/-- At a first column tile: the step from zero. -/
theorem acc1_first (c : Dev nD) (t : Fin cfg1.N) (h : t.val % 8 = 0) :
    acc1 Wv c t.val t.isLt = degStep (iblk1 Wv c 0 t) (iblk1 Wv c 1 t) (iblk1 Wv c 2 t) (iblk1 Wv c 3 t) k1_pay1 := by
  obtain ⟨n, hn⟩ := t
  cases n with
  | zero => rfl
  | succ n => exact if_pos h

/-- Elsewhere: the step from what the point before left. -/
theorem acc1_step (c : Dev nD) (t : Fin cfg1.N) (h : t.val % 8 ≠ 0) :
    acc1 Wv c t.val t.isLt = degStep (iblk1 Wv c 0 t) (iblk1 Wv c 1 t) (iblk1 Wv c 2 t) (iblk1 Wv c 3 t)
      (acc1 Wv c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant that carries the accumulator -/

/-- The kernel's scratch accumulator as a memref. -/
abbrev scM1 : Memref sig .tc .vmem S512x1 .f32 := Memref.whole cc1_scratch0

/-- A whole buffer of core `c` at some contents. -/
abbrev anyBuf (c : Dev nD) (b : Ref sig .tc) : sProp (MM F) :=
  iprop(∃ f : Buf (Elt F) ((c : Thread nD τ).loc b), ((c : Thread nD τ).loc b) ↦{fullShare} f)

/-- The core's scoped buffers that are neither a staging buffer of this call nor its accumulator (the other two calls'
    staging buffers and the third call's scratch), each at some contents. -/
def others1 (c : Dev nD) : sProp (MM F) :=
  iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc2_stg0_0 ∗ anyBuf c cc2_stg0_1 ∗ anyBuf c cc2_stg1_0 ∗ anyBuf c cc2_stg1_1 ∗ anyBuf c cc2_stg2_0 ∗ anyBuf c cc2_stg2_1 ∗ anyBuf c cc2_stg3_0 ∗ anyBuf c cc2_stg3_1 ∗ anyBuf c cc2_stg4_0 ∗ anyBuf c cc2_stg4_1 ∗ anyBuf c cc2_stg5_0 ∗ anyBuf c cc2_stg5_1 ∗ anyBuf c cc2_stg6_0 ∗ anyBuf c cc2_stg6_1 ∗ anyBuf c cc2_stg7_0 ∗ anyBuf c cc2_stg7_1 ∗ anyBuf c cc2_scratch0)

/-- The invariant before position `n`: before the first point the scoped rest at anything and the generator register
    at some state; afterwards the same with the accumulator at what the point before left in it. -/
def PhiS1 (c : Dev nD) : (n : ℕ) → n ≤ cfg1.N → sProp (MM F)
  | 0, _ => Pipeline.ΦA spec1 c
  | n + 1, hn => iprop(owns (c : Thread nD τ) scM1 fullShare (acc1 Wv c n hn) ∗ others1 c ∗ (∃ r, prngReg c r))

theorem PhiS1_zero (c : Dev nD) (n : ℕ) (h : n ≤ cfg1.N) (hz : n = 0) : PhiS1 Wv c n h = Pipeline.ΦA spec1 c := by
  subst hz; rfl

theorem PhiS1_succ (c : Dev nD) (n : ℕ) (hn : n < cfg1.N) :
    PhiS1 Wv c (n + 1) hn = iprop(owns (c : Thread nD τ) scM1 fullShare (acc1 Wv c n hn) ∗ others1 c ∗ (∃ r, prngReg c r)) := rfl

theorem PhiS1_pos (c : Dev nD) (n : ℕ) (h : n ≤ cfg1.N) (hz : n ≠ 0) :
    PhiS1 Wv c n h = iprop(owns (c : Thread nD τ) scM1 fullShare (acc1 Wv c (n - 1) (by omega)) ∗ others1 c ∗ (∃ r, prngReg c r)) := by
  cases n with
  | zero => exact absurd rfl hz
  | succ n => rfl

/-! ## The proof data -/

/-- The proof data: arrays as found; the four inputs left in place, the output window at the normalizer of the
    accumulator (what the last column tile stores; elsewhere the window is idle and this is not consulted); each pair of
    windows on one array holds the two halves of its share; nothing owed; the invariant carries the accumulator. -/
def dat1 (c : Dev nD) : Dat τ (Elt F) Unit ℕ (UR sig nD τ) ℕ cfg1 c where
  A w := Vat Wv c (Pipeline.arrRef spec1 w)
  after w t := match w with
    | ⟨0, _⟩ => iblk1 Wv c 0 t
    | ⟨1, _⟩ => iblk1 Wv c 1 t
    | ⟨2, _⟩ => iblk1 Wv c 2 t
    | ⟨3, _⟩ => iblk1 Wv c 3 t
    | ⟨4, _⟩ => k1_pay3 (acc1 Wv c t.val t.isLt)
  Φ t := PhiS1 Wv c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A1_eq (c : Dev nD) (w : Fin cfg1.W) : (dat1 Wv c).A w = Vat Wv c (Pipeline.arrRef spec1 w) := by dsimp only [dat1]
theorem after1_0 (c : Dev nD) (t : Fin cfg1.N) : (dat1 Wv c).after 0 t = iblk1 Wv c 0 t := by dsimp only [dat1]
theorem after1_1 (c : Dev nD) (t : Fin cfg1.N) : (dat1 Wv c).after 1 t = iblk1 Wv c 1 t := by dsimp only [dat1]
theorem after1_2 (c : Dev nD) (t : Fin cfg1.N) : (dat1 Wv c).after 2 t = iblk1 Wv c 2 t := by dsimp only [dat1]
theorem after1_3 (c : Dev nD) (t : Fin cfg1.N) : (dat1 Wv c).after 3 t = iblk1 Wv c 3 t := by dsimp only [dat1]
theorem after1_4 (c : Dev nD) (t : Fin cfg1.N) : (dat1 Wv c).after 4 t = k1_pay3 (acc1 Wv c t.val t.isLt) := by dsimp only [dat1]

/-- The invariant at a point's start, restated at the point's position. -/
theorem Phi1_castSucc (c : Dev nD) (t : Fin cfg1.N) :
    (dat1 Wv c).Φ t.castSucc = PhiS1 Wv c t.val (Nat.le_of_lt t.isLt) := by
  dsimp only [dat1]; simp only [Fin.coe_castSucc]

/-- An input window the body leaves in place holds its block at every point. -/
theorem before1_0 (c : Dev nD) (t : Fin cfg1.N) (d) : (dat1 Wv c).before 0 t d = iblk1 Wv c 0 t := by
  have h := (dat1 Wv c).before_in_eq_fetched 0 rfl (fun _ => rfl) (fun _ _ _ => rfl)
    (fun t => by rw [after1_0]; unfold Dat.blockOf iblk1; rw [A1_eq]; try rfl) t d
  rw [h]; unfold Dat.fetched Dat.blockOf iblk1; rw [A1_eq]; try rfl
theorem before1_1 (c : Dev nD) (t : Fin cfg1.N) (d) : (dat1 Wv c).before 1 t d = iblk1 Wv c 1 t := by
  have h := (dat1 Wv c).before_in_eq_fetched 1 rfl (fun _ => rfl) (fun _ _ _ => rfl)
    (fun t => by rw [after1_1]; unfold Dat.blockOf iblk1; rw [A1_eq]; try rfl) t d
  rw [h]; unfold Dat.fetched Dat.blockOf iblk1; rw [A1_eq]; try rfl
theorem before1_2 (c : Dev nD) (t : Fin cfg1.N) (d) : (dat1 Wv c).before 2 t d = iblk1 Wv c 2 t := by
  have h := (dat1 Wv c).before_in_eq_fetched 2 rfl (fun _ => rfl) (fun _ _ _ => rfl)
    (fun t => by rw [after1_2]; unfold Dat.blockOf iblk1; rw [A1_eq]; try rfl) t d
  rw [h]; unfold Dat.fetched Dat.blockOf iblk1; rw [A1_eq]; try rfl
theorem before1_3 (c : Dev nD) (t : Fin cfg1.N) (d) : (dat1 Wv c).before 3 t d = iblk1 Wv c 3 t := by
  have h := (dat1 Wv c).before_in_eq_fetched 3 rfl (fun _ => rfl) (fun _ _ _ => rfl)
    (fun t => by rw [after1_3]; unfold Dat.blockOf iblk1; rw [A1_eq]; try rfl) t d
  rw [h]; unfold Dat.fetched Dat.blockOf iblk1; rw [A1_eq]; try rfl

end Region1

end Cert.KernelIdeal.Hand

end
-- ==== Proof.Region1b.lean ====
/-
  Region 1, the degree kernel: the body obligation. At a point the kernel's run is the one its column tile selects
  (first, middle, last); the invariant hands it the accumulator at what the point before left and takes it back at the
  point's own; the output window is idle, handed back untouched, at every column tile but the last.
-/
import proofs.«150832_j3959959847448_2_alg».proof.Proof.Region1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region1

variable (Wv : Dev nD → Valuation τ sig (Elt F))

/-! ## Where the output window is idle -/

/-- Off the last column tile the configuration calls the output window idle; -/
theorem idleAt1_4 (i : grid1.Coords) (h : ¬cond1_1 i) : cfg1.idle 4 i = true := by
  show (!(k1_cond2 i == 1#1)) = true
  rw [Bool.not_eq_true', beq_eq_false_iff_ne]; exact h
/-- at it, live; -/
theorem liveAt1_4 (i : grid1.Coords) (h : cond1_1 i) : cfg1.idle 4 i = false := by
  show (!(k1_cond2 i == 1#1)) = false
  rw [Bool.not_eq_false', beq_iff_eq]; exact h
/-- and the window is written back at the last column tile only. -/
theorem noFlush1_4 (t : Fin cfg1.N) (h : t.val % 8 ≠ 7) : (cfg1.win 4).flush t = false :=
  Bool.eq_false_iff.mpr fun hf => h ((flush1_4 t).mp hf)

/-! ## The scoped rest with the accumulator split out -/

theorem owns_scM1 (c : Dev nD) (d : Vec F S512x1 .f32) :
    (owns (c : Thread nD τ) scM1 fullShare d : sProp (MM F)) = (((c : Thread nD τ).loc cc1_scratch0) ↦{fullShare} d) :=
  owns_whole _ _ _ _

/-- The class's invariant is the accumulator at some contents, the other scoped buffers and the generator register; -/
theorem PhiA1_open (c : Dev nD) :
    (Pipeline.ΦA spec1 c : sProp (MM F)) ⊢ iprop((∃ d, owns (c : Thread nD τ) scM1 fullShare d) ∗ others1 c ∗ (∃ r, prngReg c r)) := by
  unfold Pipeline.ΦA others1; rw [scopedRest1_eq]; simp only [owns_scM1]
  iintro ⟨⟨A0, A1, A2, A3, A4, A5, ⟨%fs, HS⟩, A6, A7, A8, A9, A10, A11, A12, A13, A14, A15, A16, A17, A18, A19, A20, A21, A22⟩, Hg⟩
  isplitl [HS]; · iexists fs; iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  iexact Hg

/-- and back. -/
theorem PhiA1_close (c : Dev nD) :
    iprop((∃ d, owns (c : Thread nD τ) scM1 fullShare d) ∗ others1 c ∗ (∃ r, prngReg c r)) ⊢ (Pipeline.ΦA spec1 c : sProp (MM F)) := by
  unfold Pipeline.ΦA others1; rw [scopedRest1_eq]; simp only [owns_scM1]
  iintro ⟨⟨%fs, HS⟩, ⟨A0, A1, A2, A3, A4, A5, A6, A7, A8, A9, A10, A11, A12, A13, A14, A15, A16, A17, A18, A19, A20, A21, A22⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS]; · iexists fs; iexact HS
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  iexact Hg

/-! ## What the body leaves in each window's buffer -/

theorem leaves1_0 (c : Dev nD) (t : Fin cfg1.N) :
    (dat1 Wv c).leavesExact 0 t = owns (c : Thread nD τ) (st1_0 t) fullShare (iblk1 Wv c 0 t) := by
  unfold Dat.leavesExact; rw [show cfg1.idle 0 (cfg1.grid.coords t) = false from rfl, after1_0]
theorem leaves1_1 (c : Dev nD) (t : Fin cfg1.N) :
    (dat1 Wv c).leavesExact 1 t = owns (c : Thread nD τ) (st1_1 t) fullShare (iblk1 Wv c 1 t) := by
  unfold Dat.leavesExact; rw [show cfg1.idle 1 (cfg1.grid.coords t) = false from rfl, after1_1]
theorem leaves1_2 (c : Dev nD) (t : Fin cfg1.N) :
    (dat1 Wv c).leavesExact 2 t = owns (c : Thread nD τ) (st1_2 t) fullShare (iblk1 Wv c 2 t) := by
  unfold Dat.leavesExact; rw [show cfg1.idle 2 (cfg1.grid.coords t) = false from rfl, after1_2]
theorem leaves1_3 (c : Dev nD) (t : Fin cfg1.N) :
    (dat1 Wv c).leavesExact 3 t = owns (c : Thread nD τ) (st1_3 t) fullShare (iblk1 Wv c 3 t) := by
  unfold Dat.leavesExact; rw [show cfg1.idle 3 (cfg1.grid.coords t) = false from rfl, after1_3]

/-! ## The body at a point -/

set_option maxHeartbeats 1000000 in
/-- The body at any point: the four input buffers hold their blocks; the point's column tile selects the run; the
    accumulator comes from the invariant (at anything before the very first point and at a first column tile, else at
    what the point before left) and goes back to it at the point's own contents; the core owes nothing throughout. -/
theorem sound_body1 (c : Dev nD) (t : Fin cfg1.N) :
    iprop((dat1 Wv c).Φ t.castSucc ∗ (dat1 Wv c).owesAt () t.castSucc
        ∗ (∃ d, owns (c : Thread nD τ) (st1_0 t) fullShare ((dat1 Wv c).before 0 t d))
        ∗ (∃ d, owns (c : Thread nD τ) (st1_1 t) fullShare ((dat1 Wv c).before 1 t d))
        ∗ (∃ d, owns (c : Thread nD τ) (st1_2 t) fullShare ((dat1 Wv c).before 2 t d))
        ∗ (∃ d, owns (c : Thread nD τ) (st1_3 t) fullShare ((dat1 Wv c).before 3 t d))
        ∗ (∃ d, owns (c : Thread nD τ) (st1_4 t) fullShare ((dat1 Wv c).before 4 t d)))
      ⊢ wp frame (wpE (defs₀ (F := F)) Variants.none c none) Set.univ (bodyAt1 t) (fun _ =>
        iprop((dat1 Wv c).Φ t.succ ∗ (dat1 Wv c).owesAt () t.succ
          ∗ (dat1 Wv c).leavesExact 0 t ∗ (dat1 Wv c).leavesExact 1 t ∗ (dat1 Wv c).leavesExact 2 t
          ∗ (dat1 Wv c).leavesExact 3 t ∗ (dat1 Wv c).leavesExact 4 t)) := by
  unfold bodyAt1
  simp only [before1_0, before1_1, before1_2, before1_3]
  rw [show (dat1 Wv c).owesAt () t.succ = (dat1 Wv c).owesAt () t.castSucc from rfl,
    show (dat1 Wv c).Φ t.succ = PhiS1 Wv c (t.val + 1) t.isLt from rfl, PhiS1_succ,
    leaves1_0, leaves1_1, leaves1_2, leaves1_3, Phi1_castSucc]
  have hN : t.val < 256 := lt_of_lt_of_eq t.isLt (show cfg1.N = 256 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 Wv c) 4 t (idleAt1_4 _ hc1) (noFlush1_4 t (by omega)), acc1_first Wv c t h0]
    by_cases hz : t.val = 0
    · rw [PhiS1_zero Wv c _ _ hz]
      iintro ⟨HΦ, Ho, ⟨%d0, H0⟩, ⟨%d1, H1⟩, ⟨%d2, H2⟩, ⟨%d3, H3⟩, ⟨%d4, H4⟩⟩
      ihave HΦ' := (PhiA1_open c) $$ [HΦ]
      · iexact HΦ
      icases HΦ' with ⟨HS, Hoth, Hg⟩
      iapply (sound_deg_first c Set.univ _ _ _ _ _ _ _ _ _ _ _ _ _ hc0 hc1 (iblk1 Wv c 0 t) (iblk1 Wv c 1 t) (iblk1 Wv c 2 t) (iblk1 Wv c 3 t) ((dat1 Wv c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4
    · rw [PhiS1_pos Wv c _ _ hz]
      iintro ⟨⟨HS, Hoth, Hg⟩, Ho, ⟨%d0, H0⟩, ⟨%d1, H1⟩, ⟨%d2, H2⟩, ⟨%d3, H3⟩, ⟨%d4, H4⟩⟩
      iapply (sound_deg_first c Set.univ _ _ _ _ _ _ _ _ _ _ _ _ _ hc0 hc1 (iblk1 Wv c 0 t) (iblk1 Wv c 1 t) (iblk1 Wv c 2 t) (iblk1 Wv c 3 t) ((dat1 Wv c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4
  · have hc0 : ¬cond1_0 (grid1.coords t) := fun h => h0 ((hcond1_0 t).mp h)
    have hz : t.val ≠ 0 := fun h => h0 (by rw [h])
    rw [PhiS1_pos Wv c _ _ hz, acc1_step Wv c t h0]
    by_cases h1 : t.val % 8 = 7
    · have hc1 : cond1_1 (grid1.coords t) := (hcond1_1 t).mpr h1
      rw [show (dat1 Wv c).leavesExact 4 t = owns (c : Thread nD τ) (st1_4 t) fullShare ((dat1 Wv c).after 4 t) from by
        unfold Dat.leavesExact; rw [liveAt1_4 _ hc1], after1_4, acc1_step Wv c t h0]
      iintro ⟨⟨HS, Hoth, Hg⟩, Ho, ⟨%d0, H0⟩, ⟨%d1, H1⟩, ⟨%d2, H2⟩, ⟨%d3, H3⟩, ⟨%d4, H4⟩⟩
      iapply (sound_deg_last c Set.univ _ _ _ _ _ _ _ _ _ _ _ _ _ hc0 hc1 (iblk1 Wv c 0 t) (iblk1 Wv c 1 t) (iblk1 Wv c 2 t) (iblk1 Wv c 3 t) (acc1 Wv c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 Wv c) 4 t (idleAt1_4 _ hc1) (noFlush1_4 t h1)]
      iintro ⟨⟨HS, Hoth, Hg⟩, Ho, ⟨%d0, H0⟩, ⟨%d1, H1⟩, ⟨%d2, H2⟩, ⟨%d3, H3⟩, ⟨%d4, H4⟩⟩
      iapply (sound_deg_middle c Set.univ _ _ _ _ _ _ _ _ _ _ _ _ _ hc0 hc1 (iblk1 Wv c 0 t) (iblk1 Wv c 1 t) (iblk1 Wv c 2 t) (iblk1 Wv c 3 t) ((dat1 Wv c).before 4 t d4) (acc1 Wv c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) Wv c) (defs₀ (F := F)) Variants.none () Set.univ := fun t => by
  rw [bigSep_W1, bigSep_W1]
  exact sound_body1 Wv c t

end Region1

end Cert.KernelIdeal.Hand

end
-- ==== Proof.Region1c.lean ====
/-
  Region 1, the degree kernel, as a segment record over the thread state "every unscoped buffer at its contents, the
  generator register at some state, nothing owed": at entry the buffers of W and of the gate matrix are each split in two
  halves for the two windows on them, at exit they are joined again and the normalizer's buffer comes back at what the
  write-backs left.
-/
import proofs.«150832_j3959959847448_2_alg».proof.Proof.Region1b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Seg1

variable (Wv : Dev nD → Valuation τ sig (Elt F)) (d0 : DatOf F cfg0) (d2 : DatOf F cfg2)

/-- What core `c`'s buffers hold when the region is left: the normalizer's buffer at what the write-backs leave, every
    other buffer as entered. -/
def Wnext1 (c : Dev nD) : Valuation τ sig (Elt F) :=
  Function.update (Wv c) (Proc.devRef .tc main_v1) ((dat1 Wv c).arrAt 4 cfg1.N)

theorem Wnext1_v1 (c : Dev nD) : Wnext1 Wv c main_v1 = (dat1 Wv c).arrAt 4 cfg1.N := Function.update_self ..
theorem Wnext1_of_ne (c : Dev nD) (b : Ref sig .tc) (h : b ≠ main_v1) : Wnext1 Wv c b = Wv c b :=
  Function.update_of_ne (StableHlo.devRef_ne_of_ne h) ..

/-- The pipeline's arrays window by window: W's buffer and the gate matrix's at their two halves, the normalizer's
    outright. -/
theorem arrays1_eq (c : Dev nD) (Fa : (w : Fin cfg1.W) → Buf (Elt F) ((cfg1.win w).arr.view.loc (c : Thread nD τ))) :
    ((dat1 Wv c).arrays Fa : sProp (MM F))
      = iprop((((c : Thread nD τ).loc main_arg1) ↦{fullShare.left} Fa 0) ∗ (((c : Thread nD τ).loc main_arg1) ↦{fullShare.right} Fa 1)
          ∗ (((c : Thread nD τ).loc main_v0) ↦{fullShare.left} Fa 2) ∗ (((c : Thread nD τ).loc main_v0) ↦{fullShare.right} Fa 3)
          ∗ (((c : Thread nD τ).loc main_v1) ↦{fullShare} Fa 4)) := by
  unfold Dat.arrays
  rw [bigSep_W1, (arr_whole1 0).set_eq_univ, (arr_whole1 2).set_eq_univ, (arr_whole1 4).set_eq_univ]
  rfl

/-- After the last point the invariant gives the class's back: the accumulator's contents are forgotten. -/
theorem Phi1_last (c : Dev nD) : (dat1 Wv c).Φ (Fin.last cfg1.N) ⊢ (Pipeline.ΦA spec1 c : sProp (MM F)) := by
  rw [show (dat1 Wv c).Φ (Fin.last cfg1.N) = PhiS1 Wv c (Fin.last cfg1.N).val (Nat.le_of_lt_succ (Fin.last cfg1.N).isLt) from rfl,
    PhiS1_pos Wv c _ _ (by rw [Fin.val_last]; have : cfg1.N = 256 := N_1; omega)]
  iintro ⟨HS, Hoth, Hg⟩
  iapply (PhiA1_close c)
  isplitl [HS]; · iexists _; iexact HS
  isplitl [Hoth]; · iexact Hoth
  iexact Hg

set_option backward.isDefEq.respectTransparency.types false in
/-- Region 1 as a segment. -/
def reg1 : RegOf d0 (dat1 Wv) d2 1 where
  win := winFacts₀1
  block_pos := block_pos1
  stage_whole := stage_whole1
  K := PEmpty
  osem k := k.elim
  ho := Pipeline.OwnSemFacts.none _
  hbody c := (body_obligation1 Wv c).loose
  hwaits := Pipeline.hwaits_of_owed_zero _ _ _ _ LL lvv 1 fun _ _ => rfl
  pre c := iprop(StableHlo.held (c : Thread nD τ) (Pipeline.ucRefs τ sig) (Wv c) ∗ RR c)
  post c := iprop(StableHlo.held (c : Thread nD τ) (Pipeline.ucRefs τ sig) (Wnext1 Wv c) ∗ RR c)
  X c := iprop(∃ r, prngReg c r)
  Y c := iprop(∃ r, prngReg c r)
  Z c := iprop(ptw c main_arg0 (Wv c main_arg0) ∗ ptw c main_arg2 (Wv c main_arg2) ∗ ptw c main_arg3 (Wv c main_arg3)
    ∗ ptw c main_v2 (Wv c main_v2) ∗ ptw c main_v3 (Wv c main_v3) ∗ ptw c main_v4 (Wv c main_v4))
  hentry c := by
    rw [Pipeline.ownSems0_none, held_uc_eq]
    show _ ⊢ |={Set.univ}=> iprop((dat1 Wv c).arrays ((dat1 Wv c).arrAt · 0) ∗ _ ∗ (dat1 Wv c).owesAt () 0 ∗ _ ∗ _)
    rw [arrays1_eq]
    iintro ⟨⟨⟨H0, H1, H2, H3, Hv0, Hv1, Hv2, Hv3, Hv4⟩, Hp, HO⟩, -, -⟩
    ihave H1' := (ptw_halves c main_arg1 (Wv c main_arg1)).1 $$ [H1]
    · iexact H1
    icases H1' with ⟨H1a, H1b⟩
    ihave Hv0' := (ptw_halves c main_v0 (Wv c main_v0)).1 $$ [Hv0]
    · iexact Hv0
    icases Hv0' with ⟨Hv0a, Hv0b⟩
    imodintro
    isplitl [H1a H1b Hv0a Hv0b Hv1]
    · isplitl [H1a]; · iexact H1a
      isplitl [H1b]; · iexact H1b
      isplitl [Hv0a]; · iexact Hv0a
      isplitl [Hv0b]; · iexact Hv0b
      iexact Hv1
    isplitr; · unfold Pipeline.prefHeld; rw [show (Finset.univ : Finset (Fin 0)) = ∅ from rfl, BI.bigSep_empty]; iempintro
    isplitl [HO]; · iapply (owesAt_intro (dat1 Wv c) 0 rfl rfl); iexact HO
    isplitl [Hp]; · iexact Hp
    isplitl [H0]; · iexact H0
    isplitl [H2]; · iexact H2
    isplitl [H3]; · iexact H3
    isplitl [Hv2]; · iexact Hv2
    isplitl [Hv3]; · iexact Hv3
    iexact Hv4
  hin c := by
    show _ ⊢ Pipeline.ΦA spec1 c
    unfold Pipeline.ΦA
    iintro ⟨Hp, -, Hr⟩
    isplitl [Hr]; · iexact Hr
    iexact Hp
  hout c := by
    rw [Pipeline.ownSems0_none]
    refine (Phi1_last Wv c).trans ?_
    unfold Pipeline.ΦA
    iintro ⟨Hr, Hp⟩
    isplitl [Hp]; · iexact Hp
    isplitr; · iempintro
    iexact Hr
  hexit c := by
    show iprop((dat1 Wv c).arrays ((dat1 Wv c).arrAt · cfg1.N) ∗ (dat1 Wv c).owesAt () (Fin.last cfg1.N) ∗ _ ∗ _) ⊢ _
    rw [arrays1_eq, held_uc_eq, Wnext1_v1, Wnext1_of_ne Wv c main_arg0 (by decide), Wnext1_of_ne Wv c main_arg1 (by decide), Wnext1_of_ne Wv c main_arg2 (by decide), Wnext1_of_ne Wv c main_arg3 (by decide), Wnext1_of_ne Wv c main_v0 (by decide), Wnext1_of_ne Wv c main_v2 (by decide), Wnext1_of_ne Wv c main_v3 (by decide), Wnext1_of_ne Wv c main_v4 (by decide),
      (dat1 Wv c).arrAt_in 0 rfl, (dat1 Wv c).arrAt_in 1 rfl, (dat1 Wv c).arrAt_in 2 rfl, (dat1 Wv c).arrAt_in 3 rfl,
      A1_eq, A1_eq, A1_eq, A1_eq]
    iintro ⟨⟨H1a, H1b, Hv0a, Hv0b, Hv1⟩, HO, HY, ⟨H0, H2, H3, Hv2, Hv3, Hv4⟩⟩
    ihave H1 := (ptw_halves c main_arg1 (Wv c main_arg1)).2 $$ [H1a H1b]
    · isplitl [H1a]; · iexact H1a
      iexact H1b
    ihave Hv0 := (ptw_halves c main_v0 (Wv c main_v0)).2 $$ [Hv0a Hv0b]
    · isplitl [Hv0a]; · iexact Hv0a
      iexact Hv0b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat1 Wv c) _ rfl); iexact HO

end Seg1

end Cert.KernelIdeal.Hand

end
-- ==== Proof.Body2.lean ====
/-
  The coupling kernel's body on whole staging memrefs, one run per control case.

  At a grid point the kernel (a) zeroes the accumulator when the column-tile coordinate is the first, (b) adds to the
  accumulator the point's share  1/2 * (direct block product + transposed block product)  against the scaled x block,
  (c) at the last column-tile coordinate scales the accumulator by the row tile's normalizer into the output window.
  The three runs below are the three control cases that occur on the grid: first column tile, a middle one, the last.
-/
import proofs.«150832_j3959959847448_2_alg».proof.Proof.FrameBase
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The body's branch conditions -/

/-- The first conditional: the column-tile coordinate is zero (the accumulator is reset). -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the column-tile coordinate is the last (the output window is written). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## What a point leaves in the accumulator -/

/-- The accumulator after a point: what it held plus the point's share, from the direct and transposed W blocks
    `x0 x1`, the gate tiles `x2 x3`, the x block `x4` and the column tile's normalizer block `x6`. -/
def mmStep (x0 x1 : Vec F S1x512x512 .f32) (x2 x3 : Vec F S512x512 .bf16) (x4 : Vec F S1x512x64 .f32)
    (x6 : Vec F S1x512x1 .f32) (s : Vec F S512x64 .f32) : Vec F S512x64 .f32 :=
  k2_pay1 (k2_pay4 x2 x3 x0 x1 x6 x4 s)

/-- The zero offsets of the whole-buffer rectangles, in the two spellings the body uses. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the view's contents. -/
theorem readAt_unit_zero {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-shape rectangle at zero offsets, LAST, reads back as its payload. -/
theorem read_writes_unit_zero {sp : Space} {S : Shape} {e : EltTy} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## A middle column tile: the accumulator gains the point's share, the output window is untouched -/

set_option maxHeartbeats 1000000 in
/-- A middle column tile (neither conditional taken): the inputs and the output window are handed back as they were,
    the accumulator at what it held plus the point's share. -/
theorem sound_kernel2_mid (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond2_0 i) (hc1 : ¬cond2_1 i)
    (x0 x1 : Vec F S1x512x512 .f32) (x2 x3 : Vec F S512x512 .bf16) (x4 : Vec F S1x512x64 .f32) (x5 x6 : Vec F S1x512x1 .f32)
    (xi : Vec F S1x512x64 .f32) (s : Vec F S512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi ∗ owns (c : Thread nD τ) arg11 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare xi
            ∗ owns (c : Thread nD τ) arg11 fullShare (mmStep x0 x1 x2 x3 x4 x6 s)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fi, %hfi, HI⟩, ⟨%fs, %hfs, HS⟩, Hk⟩
  subst hf0 hf1 hf2 hf3 hf4 hf5 hf6 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists fi; isplitr; · ipureintro; rfl
    iexact HI
  iexists _; isplitr
  swap; · iexact HS
  ipureintro
  refine (read_writes_unit_zero (S := S512x64) _ _ hz2 _ _ _).trans ?_
  rw [readAt_unit_zero (S := S512x512) arg5.view f2 hz2, readAt_unit_zero (S := S512x512) arg6.view f3 hz2,
    readAt_unit_zero (S := S1x512x512) arg3.view f0 hz3, readAt_unit_zero (S := S1x512x512) arg4.view f1 hz3,
    readAt_unit_zero (S := S1x512x1) arg9.view f6 hz3, readAt_unit_zero (S := S1x512x64) arg7.view f4 hz3,
    readAt_unit_zero (S := S512x64) arg11.view fs hz2]
  rfl

/-! ## The first column tile: the accumulator is reset, then gains the point's share -/

set_option maxHeartbeats 1000000 in
/-- The first column tile (the reset taken, the output store not): whatever the accumulator held, it is zeroed and
    then gains the point's share; the output window is handed back as it was. -/
theorem sound_kernel2_first (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : cond2_0 i) (hc1 : ¬cond2_1 i)
    (x0 x1 : Vec F S1x512x512 .f32) (x2 x3 : Vec F S512x512 .bf16) (x4 : Vec F S1x512x64 .f32) (x5 x6 : Vec F S1x512x1 .f32)
    (xi : Vec F S1x512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi ∗ (∃ s, owns (c : Thread nD τ) arg11 fullShare s)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi
            ∗ owns (c : Thread nD τ) arg11 fullShare (mmStep x0 x1 x2 x3 x4 x6 k2_pay3)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fi, %hfi, HI⟩, ⟨%s, %fs, -, HS⟩, Hk⟩
  subst hf0 hf1 hf2 hf3 hf4 hf5 hf6 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists fi; isplitr; · ipureintro; rfl
    iexact HI
  iexists _; isplitr
  swap; · iexact HS
  ipureintro
  refine (read_writes_unit_zero (S := S512x64) _ _ hz2 _ _ _).trans ?_
  rw [readAt_unit_zero (S := S512x512) arg5.view f2 hz2, readAt_unit_zero (S := S512x512) arg6.view f3 hz2,
    readAt_unit_zero (S := S1x512x512) arg3.view f0 hz3, readAt_unit_zero (S := S1x512x512) arg4.view f1 hz3,
    readAt_unit_zero (S := S1x512x1) arg9.view f6 hz3, readAt_unit_zero (S := S1x512x64) arg7.view f4 hz3]
  unfold sound_kernel2_first.sl.v29 sound_kernel2_first.sl.HS_1
  rw [View.readCov_unit_zero (S := S512x64) arg11.view hz2 inb_S512x64_S512x64_0_0]
  rfl

/-! ## The last column tile: the accumulator gains the point's share and is scaled into the output window -/

set_option maxHeartbeats 1000000 in
/-- The last column tile (the reset not taken, the output store taken): the accumulator gains the point's share and
    the output window, whatever it held, receives the accumulator scaled by the row tile's normalizer block `x5`. -/
theorem sound_kernel2_last (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond2_0 i) (hc1 : cond2_1 i)
    (x0 x1 : Vec F S1x512x512 .f32) (x2 x3 : Vec F S512x512 .bf16) (x4 : Vec F S1x512x64 .f32) (x5 x6 : Vec F S1x512x1 .f32)
    (s : Vec F S512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d) ∗ owns (c : Thread nD τ) arg11 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare (k2_pay2 x5 (mmStep x0 x1 x2 x3 x4 x6 s))
            ∗ owns (c : Thread nD τ) arg11 fullShare (mmStep x0 x1 x2 x3 x4 x6 s)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %fd, -, HI⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists _; isplitr
    swap; · iexact HI
    ipureintro
    refine (read_writes_unit_zero (S := S1x512x64) _ _ hz3 _ _ _).trans ?_
    rw [readAt_unit_zero (S := S1x512x1) arg8.view f5 hz3]
    unfold sound_kernel2_last.sl.v39 sound_kernel2_last.sl.HS_1
    rw [View.readCov_unit_zero (S := S512x64) arg11.view hz2 inb_S512x64_S512x64_0_0]
    rw [readAt_unit_zero (S := S512x512) arg5.view f2 hz2, readAt_unit_zero (S := S512x512) arg6.view f3 hz2,
      readAt_unit_zero (S := S1x512x512) arg3.view f0 hz3, readAt_unit_zero (S := S1x512x512) arg4.view f1 hz3,
      readAt_unit_zero (S := S1x512x1) arg9.view f6 hz3, readAt_unit_zero (S := S1x512x64) arg7.view f4 hz3,
      readAt_unit_zero (S := S512x64) arg11.view fs hz2]
    rfl
  iexists _; isplitr
  swap; · iexact HS
  ipureintro
  unfold sound_kernel2_last.sl.HS_1
  refine (read_writes_unit_zero (S := S512x64) _ _ hz2 _ _ _).trans ?_
  rw [readAt_unit_zero (S := S512x512) arg5.view f2 hz2, readAt_unit_zero (S := S512x512) arg6.view f3 hz2,
      readAt_unit_zero (S := S1x512x512) arg3.view f0 hz3, readAt_unit_zero (S := S1x512x512) arg4.view f1 hz3,
      readAt_unit_zero (S := S1x512x1) arg9.view f6 hz3, readAt_unit_zero (S := S1x512x64) arg7.view f4 hz3,
      readAt_unit_zero (S := S512x64) arg11.view fs hz2]
  rfl

end Cert.KernelIdeal.Hand

end
-- ==== Proof.Region2a.lean ====
/-
  Region 2, the coupling kernel, as a segment of the program. Its grid has 4 x 8 x 8 points (batch, row tile, column tile),
  the column tile running fastest. Windows 0 and 1 read the direct and the transposed-source blocks of W, windows 2 and 3
  the two gate tiles, window 4 the x block, windows 5 and 6 the normalizer at the row tile and at the column tile, window 7
  is the output. Three pairs of windows sit on one array each and hold half of its share each.

  The body keeps an accumulator in a scratch buffer of its own: at the first column tile it is reset and gains the point's
  share, at every later column tile it gains the point's share over what the previous point left, and at the last column
  tile the accumulator, scaled by the row tile's normalizer, is stored into the output window, which is written back there
  and nowhere else. So the invariant between points carries the scratch at the accumulation up to the previous point, and
  the output window is idle except at the last column tile.
-/
import proofs.«150832_j3959959847448_2_alg».proof.Proof.Region0
import proofs.«150832_j3959959847448_2_alg».proof.Proof.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region2

-- what each core's buffers hold when the region is entered
variable (Wv : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (Vat Wv c (Pipeline.arrRef spec2 w))

/-- THE ACCUMULATION. What the scratch holds after the body at position `n`: at the first column tile of a row the point's
    share over the zero fill, at a later one the point's share over what the previous point left. -/
def acc2 (c : Dev nD) : (n : ℕ) → n < cfg2.N → Vec F S512x64 .f32
  | 0, hn => mmStep (iblk2 Wv c 0 ⟨0, hn⟩) (iblk2 Wv c 1 ⟨0, hn⟩) (iblk2 Wv c 2 ⟨0, hn⟩) (iblk2 Wv c 3 ⟨0, hn⟩) (iblk2 Wv c 4 ⟨0, hn⟩)
      (iblk2 Wv c 6 ⟨0, hn⟩) k2_pay3
  | n + 1, hn =>
    if (n + 1) % 8 = 0 then
      mmStep (iblk2 Wv c 0 ⟨n + 1, hn⟩) (iblk2 Wv c 1 ⟨n + 1, hn⟩) (iblk2 Wv c 2 ⟨n + 1, hn⟩) (iblk2 Wv c 3 ⟨n + 1, hn⟩)
        (iblk2 Wv c 4 ⟨n + 1, hn⟩) (iblk2 Wv c 6 ⟨n + 1, hn⟩) k2_pay3
    else
      mmStep (iblk2 Wv c 0 ⟨n + 1, hn⟩) (iblk2 Wv c 1 ⟨n + 1, hn⟩) (iblk2 Wv c 2 ⟨n + 1, hn⟩) (iblk2 Wv c 3 ⟨n + 1, hn⟩)
        (iblk2 Wv c 4 ⟨n + 1, hn⟩) (iblk2 Wv c 6 ⟨n + 1, hn⟩) (acc2 c n (Nat.lt_of_succ_lt hn))

/-- At the first column tile of a row the accumulation starts afresh. -/
theorem acc2_first (c : Dev nD) (t : Fin cfg2.N) (h : t.val % 8 = 0) :
    acc2 Wv c t.val t.isLt
      = mmStep (iblk2 Wv c 0 t) (iblk2 Wv c 1 t) (iblk2 Wv c 2 t) (iblk2 Wv c 3 t) (iblk2 Wv c 4 t) (iblk2 Wv c 6 t) k2_pay3 := by
  obtain ⟨n, hn⟩ := t
  cases n with
  | zero => exact rfl
  | succ n => exact (if_pos h).trans rfl

/-- At a later column tile it continues from what the point before left. -/
theorem acc2_step (c : Dev nD) (t : Fin cfg2.N) (h : t.val % 8 ≠ 0) :
    acc2 Wv c t.val t.isLt
      = mmStep (iblk2 Wv c 0 t) (iblk2 Wv c 1 t) (iblk2 Wv c 2 t) (iblk2 Wv c 3 t) (iblk2 Wv c 4 t) (iblk2 Wv c 6 t)
          (acc2 Wv c (t.val - 1) (Nat.lt_of_le_of_lt (Nat.sub_le _ _) t.isLt)) := by
  obtain ⟨n, hn⟩ := t
  cases n with
  | zero => exact absurd (Nat.zero_mod _) h
  | succ n => exact (if_neg h).trans rfl

/-- The kernel's scratch operand: a whole scoped buffer of its own, passed beside the windows. -/
abbrev scM2 : Memref sig .tc .vmem S512x64 .f32 := Memref.whole cc2_scratch0

/-- One whole scoped buffer of core `c` held outright at some contents. -/
abbrev anyAt (c : Dev nD) (b : Ref sig .tc) : sProp (MM F) :=
  iprop(∃ f : Buf (Elt F) ((c : Thread nD τ).loc b), ((c : Thread nD τ).loc b) ↦{fullShare} f)

/-- The scoped buffers that are neither a staging buffer of this call nor its scratch, each at some contents. -/
def rest2 (c : Dev nD) : sProp (MM F) :=
  iprop(anyAt c cc0_stg0_0 ∗ anyAt c cc0_stg0_1 ∗ anyAt c cc0_stg1_0 ∗ anyAt c cc0_stg1_1 ∗ anyAt c cc0_stg2_0 ∗ anyAt c cc0_stg2_1
    ∗ anyAt c cc1_stg0_0 ∗ anyAt c cc1_stg0_1 ∗ anyAt c cc1_stg1_0 ∗ anyAt c cc1_stg1_1 ∗ anyAt c cc1_stg2_0 ∗ anyAt c cc1_stg2_1
    ∗ anyAt c cc1_stg3_0 ∗ anyAt c cc1_stg3_1 ∗ anyAt c cc1_stg4_0 ∗ anyAt c cc1_stg4_1 ∗ anyAt c cc1_scratch0)

/-- The invariant before position `n`: before the first point what the launch hands the region (every scoped buffer that
    is no staging buffer of the call at anything, the generator register at some state); afterwards the same with the scratch
    at what the point before left in it. -/
def PhiS2 (c : Dev nD) : (n : ℕ) → n ≤ cfg2.N → sProp (MM F)
  | 0, _ => Pipeline.ΦA spec2 c
  | n + 1, hn => iprop(owns (c : Thread nD τ) scM2 fullShare (acc2 Wv c n hn) ∗ rest2 c ∗ (∃ r, prngReg c r))

theorem PhiS2_zero (c : Dev nD) (n : ℕ) (h : n ≤ cfg2.N) (hz : n = 0) : PhiS2 Wv c n h = Pipeline.ΦA spec2 c := by
  subst hz; rfl

theorem PhiS2_succ (c : Dev nD) (n : ℕ) (hn : n < cfg2.N) :
    PhiS2 Wv c (n + 1) hn = iprop(owns (c : Thread nD τ) scM2 fullShare (acc2 Wv c n hn) ∗ rest2 c ∗ (∃ r, prngReg c r)) := rfl

theorem PhiS2_pos (c : Dev nD) (n : ℕ) (h : n ≤ cfg2.N) (hz : n ≠ 0) :
    PhiS2 Wv c n h = iprop(owns (c : Thread nD τ) scM2 fullShare (acc2 Wv c (n - 1) (by omega)) ∗ rest2 c ∗ (∃ r, prngReg c r)) := by
  cases n with
  | zero => exact absurd rfl hz
  | succ n => rfl

/-- The proof data: arrays as found; inputs left in place; the output window at the accumulator scaled by the row tile's
    normalizer (consulted at the last column tile only); the two windows on each shared array hold the two halves of its
    share; nothing owed; the invariant carries the scratch. -/
def dat2 (c : Dev nD) : Dat τ (Elt F) Unit ℕ (UR sig nD τ) ℕ cfg2 c where
  A w := Vat Wv c (Pipeline.arrRef spec2 w)
  after w t := match w with
    | ⟨0, _⟩ => iblk2 Wv c 0 t
    | ⟨1, _⟩ => iblk2 Wv c 1 t
    | ⟨2, _⟩ => iblk2 Wv c 2 t
    | ⟨3, _⟩ => iblk2 Wv c 3 t
    | ⟨4, _⟩ => iblk2 Wv c 4 t
    | ⟨5, _⟩ => iblk2 Wv c 5 t
    | ⟨6, _⟩ => iblk2 Wv c 6 t
    | ⟨7, _⟩ => k2_pay2 (iblk2 Wv c 5 t) (acc2 Wv c t.val t.isLt)
  Φ t := PhiS2 Wv c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare.left
    | ⟨6, _⟩ => fullShare.right
    | ⟨7, _⟩ => fullShare
  owed _ := 0

theorem A2_eq (c : Dev nD) (w : Fin cfg2.W) : (dat2 Wv c).A w = Vat Wv c (Pipeline.arrRef spec2 w) := by dsimp only [dat2]
theorem after2_0 (c : Dev nD) (t : Fin cfg2.N) : (dat2 Wv c).after 0 t = iblk2 Wv c 0 t := by dsimp only [dat2]
theorem after2_1 (c : Dev nD) (t : Fin cfg2.N) : (dat2 Wv c).after 1 t = iblk2 Wv c 1 t := by dsimp only [dat2]
theorem after2_2 (c : Dev nD) (t : Fin cfg2.N) : (dat2 Wv c).after 2 t = iblk2 Wv c 2 t := by dsimp only [dat2]
theorem after2_3 (c : Dev nD) (t : Fin cfg2.N) : (dat2 Wv c).after 3 t = iblk2 Wv c 3 t := by dsimp only [dat2]
theorem after2_4 (c : Dev nD) (t : Fin cfg2.N) : (dat2 Wv c).after 4 t = iblk2 Wv c 4 t := by dsimp only [dat2]
theorem after2_5 (c : Dev nD) (t : Fin cfg2.N) : (dat2 Wv c).after 5 t = iblk2 Wv c 5 t := by dsimp only [dat2]
theorem after2_6 (c : Dev nD) (t : Fin cfg2.N) : (dat2 Wv c).after 6 t = iblk2 Wv c 6 t := by dsimp only [dat2]
theorem after2_7 (c : Dev nD) (t : Fin cfg2.N) :
    (dat2 Wv c).after 7 t = k2_pay2 (iblk2 Wv c 5 t) (acc2 Wv c t.val t.isLt) := by dsimp only [dat2]

/-- The invariant at a point's start, restated at the point's position. -/
theorem PhiS2_castSucc (c : Dev nD) (t : Fin cfg2.N) :
    (dat2 Wv c).Φ t.castSucc = PhiS2 Wv c t.val (Nat.le_of_lt t.isLt) := by
  dsimp only [dat2]; simp only [Fin.coe_castSucc]

end Region2

end Cert.KernelIdeal.Hand

end
-- ==== Proof.Region2.lean ====
/-
  Region 2, the coupling kernel: the body obligation of its proof data and its segment record. At every point the body's
  run of the point's control case applies; the scratch leaves the invariant at the previous point's accumulation and
  returns at this point's; the output window passes through as found away from the last column tile.
-/
import proofs.«150832_j3959959847448_2_alg».proof.Proof.Region2a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region2

variable (Wv : Dev nD → Valuation τ sig (Elt F))

/-! ## What the body finds in the input windows -/

/-- An input window the body leaves in place holds its block at every point, refetched there or not: when it is not
    refetched (the row tile's normalizer within a row) its block index has not moved. -/
theorem before2_0 (c : Dev nD) (t : Fin cfg2.N) (d) : (dat2 Wv c).before 0 t d = iblk2 Wv c 0 t := by
  have h := (dat2 Wv c).before_in_eq_fetched 0 rfl (fun _ => rfl) (fun _ _ _ => rfl)
    (fun t => by rw [after2_0]; unfold Dat.blockOf iblk2; rw [A2_eq]; try rfl) t d
  rw [h]; unfold Dat.fetched Dat.blockOf iblk2; rw [A2_eq]; try rfl
theorem before2_1 (c : Dev nD) (t : Fin cfg2.N) (d) : (dat2 Wv c).before 1 t d = iblk2 Wv c 1 t := by
  have h := (dat2 Wv c).before_in_eq_fetched 1 rfl (fun _ => rfl) (fun _ _ _ => rfl)
    (fun t => by rw [after2_1]; unfold Dat.blockOf iblk2; rw [A2_eq]; try rfl) t d
  rw [h]; unfold Dat.fetched Dat.blockOf iblk2; rw [A2_eq]; try rfl
theorem before2_2 (c : Dev nD) (t : Fin cfg2.N) (d) : (dat2 Wv c).before 2 t d = iblk2 Wv c 2 t := by
  have h := (dat2 Wv c).before_in_eq_fetched 2 rfl (fun _ => rfl) (fun _ _ _ => rfl)
    (fun t => by rw [after2_2]; unfold Dat.blockOf iblk2; rw [A2_eq]; try rfl) t d
  rw [h]; unfold Dat.fetched Dat.blockOf iblk2; rw [A2_eq]; try rfl
theorem before2_3 (c : Dev nD) (t : Fin cfg2.N) (d) : (dat2 Wv c).before 3 t d = iblk2 Wv c 3 t := by
  have h := (dat2 Wv c).before_in_eq_fetched 3 rfl (fun _ => rfl) (fun _ _ _ => rfl)
    (fun t => by rw [after2_3]; unfold Dat.blockOf iblk2; rw [A2_eq]; try rfl) t d
  rw [h]; unfold Dat.fetched Dat.blockOf iblk2; rw [A2_eq]; try rfl
theorem before2_4 (c : Dev nD) (t : Fin cfg2.N) (d) : (dat2 Wv c).before 4 t d = iblk2 Wv c 4 t := by
  have h := (dat2 Wv c).before_in_eq_fetched 4 rfl (fun _ => rfl) (fun _ _ _ => rfl)
    (fun t => by rw [after2_4]; unfold Dat.blockOf iblk2; rw [A2_eq]; try rfl) t d
  rw [h]; unfold Dat.fetched Dat.blockOf iblk2; rw [A2_eq]; try rfl
theorem before2_5 (c : Dev nD) (t : Fin cfg2.N) (d) : (dat2 Wv c).before 5 t d = iblk2 Wv c 5 t := by
  have h := (dat2 Wv c).before_in_eq_fetched 5 rfl (fun _ => rfl) (fun _ _ _ => rfl)
    (fun t => by rw [after2_5]; unfold Dat.blockOf iblk2; rw [A2_eq]; try rfl) t d
  rw [h]; unfold Dat.fetched Dat.blockOf iblk2; rw [A2_eq]; try rfl
theorem before2_6 (c : Dev nD) (t : Fin cfg2.N) (d) : (dat2 Wv c).before 6 t d = iblk2 Wv c 6 t := by
  have h := (dat2 Wv c).before_in_eq_fetched 6 rfl (fun _ => rfl) (fun _ _ _ => rfl)
    (fun t => by rw [after2_6]; unfold Dat.blockOf iblk2; rw [A2_eq]; try rfl) t d
  rw [h]; unfold Dat.fetched Dat.blockOf iblk2; rw [A2_eq]; try rfl

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The output window is idle exactly where the body's store into it is not taken: away from the last column tile. -/
theorem idleAt2_7 (t : Fin cfg2.N) (h : ¬cond2_1 (grid2.coords t)) : cfg2.idle 7 (grid2.coords t) = true := by
  show (!(k2_cond2 (grid2.coords t) == 1#1)) = true
  simpa [cond2_1] using h
theorem liveAt2_7 (t : Fin cfg2.N) (h : cond2_1 (grid2.coords t)) : cfg2.idle 7 (grid2.coords t) = false := by
  show (!(k2_cond2 (grid2.coords t) == 1#1)) = false
  simpa [cond2_1] using h
/-- Away from the last column tile the output block is not written back. -/
theorem noFlush2_7 (t : Fin cfg2.N) (h : t.val % 8 ≠ 7) : (cfg2.win 7).flush t = false := by
  cases hf : (cfg2.win 7).flush t with
  | false => rfl
  | true => exact absurd ((flush2_7 t).mp hf) h

/-! ## The scratch out of the scoped rest, and back -/

/-- What the launch hands the region, buffer by buffer, the kernel's scratch last and as a memref owned at some contents. -/
theorem PhiA2_eq (c : Dev nD) :
    (Pipeline.ΦA spec2 c : sProp (MM F))
      = iprop((anyAt c cc0_stg0_0 ∗ anyAt c cc0_stg0_1 ∗ anyAt c cc0_stg1_0 ∗ anyAt c cc0_stg1_1 ∗ anyAt c cc0_stg2_0 ∗ anyAt c cc0_stg2_1 ∗ anyAt c cc1_stg0_0 ∗ anyAt c cc1_stg0_1 ∗ anyAt c cc1_stg1_0 ∗ anyAt c cc1_stg1_1 ∗ anyAt c cc1_stg2_0 ∗ anyAt c cc1_stg2_1 ∗ anyAt c cc1_stg3_0 ∗ anyAt c cc1_stg3_1 ∗ anyAt c cc1_stg4_0 ∗ anyAt c cc1_stg4_1 ∗ anyAt c cc1_scratch0
          ∗ (∃ d, owns (c : Thread nD τ) scM2 fullShare d)) ∗ (∃ r, prngReg c r)) := by
  unfold Pipeline.ΦA; rw [scopedRest2_eq]; simp only [owns_whole]; try rfl

theorem PhiA2_split (c : Dev nD) :
    (Pipeline.ΦA spec2 c : sProp (MM F))
      ⊢ iprop((∃ d, owns (c : Thread nD τ) scM2 fullShare d) ∗ rest2 c ∗ (∃ r, prngReg c r)) := by
  rw [PhiA2_eq]; unfold rest2
  iintro ⟨⟨R1, R2, R3, R4, R5, R6, R7, R8, R9, R10, R11, R12, R13, R14, R15, R16, R17, HS⟩, Hg⟩
  isplitl [HS]; · iexact HS
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    iexact R17
  iexact Hg

theorem PhiA2_join (c : Dev nD) :
    iprop((∃ d, owns (c : Thread nD τ) scM2 fullShare d) ∗ rest2 c ∗ (∃ r, prngReg c r))
      ⊢ (Pipeline.ΦA spec2 c : sProp (MM F)) := by
  rw [PhiA2_eq]; unfold rest2
  iintro ⟨HS, ⟨R1, R2, R3, R4, R5, R6, R7, R8, R9, R10, R11, R12, R13, R14, R15, R16, R17⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact HS
  iexact Hg

/-! ## The body obligation -/

set_option maxHeartbeats 1600000 in
/-- The body at any point. The input buffers hold their blocks, so the kernel's run of the point's control case applies:
    at the first column tile the scratch is taken at anything and left at the fresh accumulation, at a later one it is
    taken at what the point before left and left at that plus the point's share; the output window is handed back as
    found except at the last column tile, where it receives the scaled accumulator. -/
theorem sound_body2 (c : Dev nD) (t : Fin cfg2.N) :
    iprop((dat2 Wv c).Φ t.castSucc ∗ (dat2 Wv c).owesAt () t.castSucc
        ∗ (∃ d, owns (c : Thread nD τ) (st2_0 t) fullShare ((dat2 Wv c).before 0 t d))
        ∗ (∃ d, owns (c : Thread nD τ) (st2_1 t) fullShare ((dat2 Wv c).before 1 t d))
        ∗ (∃ d, owns (c : Thread nD τ) (st2_2 t) fullShare ((dat2 Wv c).before 2 t d))
        ∗ (∃ d, owns (c : Thread nD τ) (st2_3 t) fullShare ((dat2 Wv c).before 3 t d))
        ∗ (∃ d, owns (c : Thread nD τ) (st2_4 t) fullShare ((dat2 Wv c).before 4 t d))
        ∗ (∃ d, owns (c : Thread nD τ) (st2_5 t) fullShare ((dat2 Wv c).before 5 t d))
        ∗ (∃ d, owns (c : Thread nD τ) (st2_6 t) fullShare ((dat2 Wv c).before 6 t d))
        ∗ (∃ d, owns (c : Thread nD τ) (st2_7 t) fullShare ((dat2 Wv c).before 7 t d)))
      ⊢ wp frame (wpE (defs₀ (F := F)) Variants.none c none) Set.univ (bodyAt2 t) (fun _ =>
        iprop((dat2 Wv c).Φ t.succ ∗ (dat2 Wv c).owesAt () t.succ
          ∗ (dat2 Wv c).leavesExact 0 t ∗ (dat2 Wv c).leavesExact 1 t ∗ (dat2 Wv c).leavesExact 2 t ∗ (dat2 Wv c).leavesExact 3 t ∗ (dat2 Wv c).leavesExact 4 t ∗ (dat2 Wv c).leavesExact 5 t ∗ (dat2 Wv c).leavesExact 6 t ∗ (dat2 Wv c).leavesExact 7 t)) := by
  unfold bodyAt2
  simp only [before2_0, before2_1, before2_2, before2_3, before2_4, before2_5, before2_6]
  rw [show (dat2 Wv c).owesAt () t.succ = (dat2 Wv c).owesAt () t.castSucc from rfl,
    show (dat2 Wv c).Φ t.succ = PhiS2 Wv c (t.val + 1) t.isLt from rfl, PhiS2_succ, PhiS2_castSucc]
  rw [show (dat2 Wv c).leavesExact 0 t = owns (c : Thread nD τ) (st2_0 t) fullShare ((dat2 Wv c).after 0 t) from by
    unfold Dat.leavesExact; rw [liveAt2_0 t], after2_0]
  rw [show (dat2 Wv c).leavesExact 1 t = owns (c : Thread nD τ) (st2_1 t) fullShare ((dat2 Wv c).after 1 t) from by
    unfold Dat.leavesExact; rw [liveAt2_1 t], after2_1]
  rw [show (dat2 Wv c).leavesExact 2 t = owns (c : Thread nD τ) (st2_2 t) fullShare ((dat2 Wv c).after 2 t) from by
    unfold Dat.leavesExact; rw [liveAt2_2 t], after2_2]
  rw [show (dat2 Wv c).leavesExact 3 t = owns (c : Thread nD τ) (st2_3 t) fullShare ((dat2 Wv c).after 3 t) from by
    unfold Dat.leavesExact; rw [liveAt2_3 t], after2_3]
  rw [show (dat2 Wv c).leavesExact 4 t = owns (c : Thread nD τ) (st2_4 t) fullShare ((dat2 Wv c).after 4 t) from by
    unfold Dat.leavesExact; rw [liveAt2_4 t], after2_4]
  rw [show (dat2 Wv c).leavesExact 5 t = owns (c : Thread nD τ) (st2_5 t) fullShare ((dat2 Wv c).after 5 t) from by
    unfold Dat.leavesExact; rw [liveAt2_5 t], after2_5]
  rw [show (dat2 Wv c).leavesExact 6 t = owns (c : Thread nD τ) (st2_6 t) fullShare ((dat2 Wv c).after 6 t) from by
    unfold Dat.leavesExact; rw [liveAt2_6 t], after2_6]
  have hN : t.val < 256 := lt_of_lt_of_eq t.isLt (show cfg2.N = 256 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 Wv c) 7 t (idleAt2_7 t hc1) (noFlush2_7 t (by omega)), acc2_first Wv c t h0]
    by_cases hz : t.val = 0
    · rw [PhiS2_zero Wv c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA2_split c) $$ [HΦ]
      · iexact HΦ
      icases HΦ' with ⟨HS, HR, Hg⟩
      iapply (sound_kernel2_first c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS2_pos Wv c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_first c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc0 : ¬cond2_0 (grid2.coords t) := fun h => h0 ((hcond2_0 t).mp h)
    have hz : t.val ≠ 0 := fun h => h0 (by rw [h])
    rw [acc2_step Wv c t h0, PhiS2_pos Wv c _ _ hz]
    by_cases h1 : t.val % 8 = 7
    · have hc1 : cond2_1 (grid2.coords t) := (hcond2_1 t).mpr h1
      rw [show (dat2 Wv c).leavesExact 7 t = owns (c : Thread nD τ) (st2_7 t) fullShare ((dat2 Wv c).after 7 t) from by
        unfold Dat.leavesExact; rw [liveAt2_7 t hc1], after2_7, acc2_step Wv c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_last c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 Wv c) 7 t (idleAt2_7 t hc1) (noFlush2_7 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_mid c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation2 (c : Dev nD) : BodyObligation (dat2 (F := F) Wv c) (defs₀ (F := F)) Variants.none () Set.univ := fun t => by
  rw [bigSep_W2, bigSep_W2]
  exact sound_body2 Wv c t

end Region2

section Seg2

variable (Wv : Dev nD → Valuation τ sig (Elt F)) (d0 : DatOf F cfg0) (d1 : DatOf F cfg1)

/-- After any point but the first the invariant gives back what the launch handed the region: the scratch's named contents
    are forgotten. -/
theorem Phi2_out (c : Dev nD) (t : Fin (cfg2.N + 1)) (ht : t.val ≠ 0) : (dat2 Wv c).Φ t ⊢ (Pipeline.ΦA spec2 c : sProp (MM F)) := by
  rw [show (dat2 Wv c).Φ t = PhiS2 Wv c t.val (Nat.le_of_lt_succ t.isLt) from rfl, PhiS2_pos Wv c _ _ ht]
  iintro ⟨HS, HR, Hg⟩
  iapply (PhiA2_join c)
  isplitl [HS]; · iexists _; iexact HS
  isplitl [HR]; · iexact HR
  iexact Hg

/-- What core `c`'s buffers hold when the region is left: the result's buffer at what the write-backs leave, every other
    buffer as entered. -/
def Wnext2 (c : Dev nD) : Valuation τ sig (Elt F) :=
  Function.update (Wv c) (Proc.devRef .tc main_v2) ((dat2 Wv c).arrAt 7 cfg2.N)

theorem Wnext2_v2 (c : Dev nD) : Wnext2 Wv c main_v2 = (dat2 Wv c).arrAt 7 cfg2.N := Function.update_self ..
theorem Wnext2_of_ne (c : Dev nD) (b : Ref sig .tc) (h : b ≠ main_v2) : Wnext2 Wv c b = Wv c b :=
  Function.update_of_ne (StableHlo.devRef_ne_of_ne h) ..

/-- The pipeline's arrays window by window: W's, the gate matrix's and the normalizer's buffers at their two halves, x's and
    the result's outright. -/
theorem arrays2_eq (c : Dev nD) (Fa : (w : Fin cfg2.W) → Buf (Elt F) ((cfg2.win w).arr.view.loc (c : Thread nD τ))) :
    ((dat2 Wv c).arrays Fa : sProp (MM F))
      = iprop((((c : Thread nD τ).loc main_arg1) ↦{fullShare.left} Fa 0) ∗ (((c : Thread nD τ).loc main_arg1) ↦{fullShare.right} Fa 1)
          ∗ (((c : Thread nD τ).loc main_v0) ↦{fullShare.left} Fa 2) ∗ (((c : Thread nD τ).loc main_v0) ↦{fullShare.right} Fa 3)
          ∗ (((c : Thread nD τ).loc main_arg0) ↦{fullShare} Fa 4)
          ∗ (((c : Thread nD τ).loc main_v1) ↦{fullShare.left} Fa 5) ∗ (((c : Thread nD τ).loc main_v1) ↦{fullShare.right} Fa 6)
          ∗ (((c : Thread nD τ).loc main_v2) ↦{fullShare} Fa 7)) := by
  unfold Dat.arrays
  rw [bigSep_W2, (arr_whole2 0).set_eq_univ, (arr_whole2 2).set_eq_univ, (arr_whole2 4).set_eq_univ, (arr_whole2 5).set_eq_univ,
    (arr_whole2 7).set_eq_univ]
  rfl

set_option maxHeartbeats 3200000 in
set_option backward.isDefEq.respectTransparency.types false in
/-- Region 2 over the thread state "every unscoped buffer at its contents, the generator register at some state, nothing
    owed": the three shared buffers are split in two halves each for the two windows on them at entry and joined again at
    exit, where the result's buffer comes back at what the write-backs left. -/
def reg2 : RegOf d0 d1 (dat2 Wv) 2 where
  win := winFacts₀2
  block_pos := block_pos2
  stage_whole := stage_whole2
  K := PEmpty
  osem k := k.elim
  ho := Pipeline.OwnSemFacts.none _
  hbody c := (body_obligation2 Wv c).loose
  hwaits := Pipeline.hwaits_of_owed_zero _ _ _ _ LL lvv 2 fun _ _ => rfl
  pre c := iprop(StableHlo.held (c : Thread nD τ) (Pipeline.ucRefs τ sig) (Wv c) ∗ RR c)
  post c := iprop(StableHlo.held (c : Thread nD τ) (Pipeline.ucRefs τ sig) (Wnext2 Wv c) ∗ RR c)
  X c := iprop(∃ r, prngReg c r)
  Y c := iprop(∃ r, prngReg c r)
  Z c := iprop(ptw c main_arg2 (Wv c main_arg2) ∗ ptw c main_arg3 (Wv c main_arg3) ∗ ptw c main_v3 (Wv c main_v3) ∗ ptw c main_v4 (Wv c main_v4))
  hentry c := by
    rw [Pipeline.ownSems0_none, held_uc_eq]
    show _ ⊢ |={Set.univ}=> iprop((dat2 Wv c).arrays ((dat2 Wv c).arrAt · 0) ∗ _ ∗ (dat2 Wv c).owesAt () 0 ∗ _ ∗ _)
    rw [arrays2_eq]
    iintro ⟨⟨⟨H0, H1, H2, H3, Hv0, Hv1, Hv2, Hv3, Hv4⟩, Hp, HO⟩, -, -⟩
    ihave H1' := (ptw_halves c main_arg1 (Wv c main_arg1)).1 $$ [H1]
    · iexact H1
    icases H1' with ⟨H1a, H1b⟩
    ihave Hv0' := (ptw_halves c main_v0 (Wv c main_v0)).1 $$ [Hv0]
    · iexact Hv0
    icases Hv0' with ⟨Hv0a, Hv0b⟩
    ihave Hv1' := (ptw_halves c main_v1 (Wv c main_v1)).1 $$ [Hv1]
    · iexact Hv1
    icases Hv1' with ⟨Hv1a, Hv1b⟩
    imodintro
    isplitl [H1a H1b Hv0a Hv0b H0 Hv1a Hv1b Hv2]
    · isplitl [H1a]; · iexact H1a
      isplitl [H1b]; · iexact H1b
      isplitl [Hv0a]; · iexact Hv0a
      isplitl [Hv0b]; · iexact Hv0b
      isplitl [H0]; · iexact H0
      isplitl [Hv1a]; · iexact Hv1a
      isplitl [Hv1b]; · iexact Hv1b
      iexact Hv2
    isplitr; · unfold Pipeline.prefHeld; rw [show (Finset.univ : Finset (Fin 0)) = ∅ from rfl, BI.bigSep_empty]; iempintro
    isplitl [HO]; · iapply (owesAt_intro (dat2 Wv c) 0 rfl rfl); iexact HO
    isplitl [Hp]; · iexact Hp
    isplitl [H2]; · iexact H2
    isplitl [H3]; · iexact H3
    isplitl [Hv3]; · iexact Hv3
    iexact Hv4
  hin c := by
    show _ ⊢ Pipeline.ΦA spec2 c
    unfold Pipeline.ΦA
    iintro ⟨Hp, -, Hr⟩
    isplitl [Hr]; · iexact Hr
    iexact Hp
  hout c := by
    rw [Pipeline.ownSems0_none]
    refine (Phi2_out Wv c (Fin.last cfg2.N) (by rw [Fin.val_last, show cfg2.N = 256 from N_2]; decide)).trans ?_
    unfold Pipeline.ΦA
    iintro ⟨Hr, Hp⟩
    isplitl [Hp]; · iexact Hp
    isplitr; · iempintro
    iexact Hr
  hexit c := by
    show iprop((dat2 Wv c).arrays ((dat2 Wv c).arrAt · cfg2.N) ∗ (dat2 Wv c).owesAt () (Fin.last cfg2.N) ∗ _ ∗ _) ⊢ _
    rw [arrays2_eq, held_uc_eq, Wnext2_v2, Wnext2_of_ne Wv c main_arg0 (by decide),
      Wnext2_of_ne Wv c main_arg1 (by decide),
      Wnext2_of_ne Wv c main_arg2 (by decide),
      Wnext2_of_ne Wv c main_arg3 (by decide),
      Wnext2_of_ne Wv c main_v0 (by decide),
      Wnext2_of_ne Wv c main_v1 (by decide),
      Wnext2_of_ne Wv c main_v3 (by decide),
      Wnext2_of_ne Wv c main_v4 (by decide),
      (dat2 Wv c).arrAt_in 0 rfl, (dat2 Wv c).arrAt_in 1 rfl, (dat2 Wv c).arrAt_in 2 rfl, (dat2 Wv c).arrAt_in 3 rfl,
      (dat2 Wv c).arrAt_in 4 rfl, (dat2 Wv c).arrAt_in 5 rfl, (dat2 Wv c).arrAt_in 6 rfl,
      A2_eq, A2_eq, A2_eq, A2_eq, A2_eq, A2_eq, A2_eq]
    iintro ⟨⟨H1a, H1b, Hv0a, Hv0b, H0, Hv1a, Hv1b, Hv2⟩, HO, HY, ⟨H2, H3, Hv3, Hv4⟩⟩
    ihave H1 := (ptw_halves c main_arg1 (Wv c main_arg1)).2 $$ [H1a H1b]
    · isplitl [H1a]; · iexact H1a
      iexact H1b
    ihave Hv0 := (ptw_halves c main_v0 (Wv c main_v0)).2 $$ [Hv0a Hv0b]
    · isplitl [Hv0a]; · iexact Hv0a
      iexact Hv0b
    ihave Hv1 := (ptw_halves c main_v1 (Wv c main_v1)).2 $$ [Hv1a Hv1b]
    · isplitl [Hv1a]; · iexact Hv1a
      iexact Hv1b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat2 Wv c) _ rfl); iexact HO

end Seg2

end Cert.KernelIdeal.Hand

end
-- ==== Proof.FrameValue.lean ====
/-
  The conditional frame of the idealized kernel program, with the value of its result buffer.

  The program is three kernel regions followed by two host operations: a broadcast of the scalar argument to the
  result's shape, and the elementwise product of the third region's output with that broadcast. Between two items a
  core holds every unscoped buffer whole at a valuation: V0 the launch contents, V1, V2, V3 the same with what region
  0, 1, 2 leaves in its output array, V4 what the two host operations make of V3.

  Given one segment record per region, entered from the thread state before it and left at the one after it, every
  weakly fair execution terminates, and the final memory holds on every core, at EVERY unscoped buffer, what V4
  holds there (`frame_cond_read`). Read at the result buffer and at the four arguments this is the frame with the
  result's value (`frame_cond_value`): no item writes an argument, so V4 there is the launch contents. What V4 holds
  at the result is the product of the third region's output with the broadcast of the launch contents of the scalar
  argument (`V4_main_v4`): the two host operations read one after the other, the scalar argument written by no item.
-/
import proofs.«150832_j3959959847448_2_alg».proof.Proof.Gen.KernelIdeal.Regions
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

variable (m : (ℓ : Loc nD τ sig) → Buf (Elt F) ℓ)

/-- A TensorCore reference whose buffer is not scoped is among the unscoped buffers. -/
theorem mem_unscoped (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by simp [h]⟩

/-- EVERY UNSCOPED BUFFER AT THE END. For any rest states `E` the launch makes on every core at once (`hE0`) and that end
    owing nothing (`hE3`), any contents the regions leave (`outs`) and, per region K, a segment record entered from
    "the unscoped buffers at V_K beside E K" and left at "the unscoped buffers at V_(K+1) beside E (K+1)": every weakly
    fair execution of the program from memory `m` with zero counters terminates, and every property `Q` of the final
    memory holds that follows from "on every core, each unscoped buffer holds what the last valuation V4 holds there".

    The program is the run of its four items, the same list on every core: the three regions' calls and the line of the
    two host operations. The regions enter the pipelines 0, 1, 2, each once. The thread states chain: the launch state
    enters region 0, what region K leaves enters region K+1, what region 2 leaves is what the host line runs from, and
    the host line takes V3 to V4 beside E 3, which owes nothing. At launch the unscoped buffers, whole at their launch
    contents, are the buffers held at V0, on all cores at once; the remainder of what the launch deals makes E 0. At
    the end the buffers held at V4 are read against the final state, one equation per buffer. -/
theorem frame_cond_read {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    {Q : PUnit × MemSt nD τ sig (Elt F) → Prop}
    (hQ : ∀ s : MemSt nD τ sig (Elt F),
      (∀ c : Dev nD, ∀ b ∈ Pipeline.ucRefs τ sig, s.mem ((c.tc : Thread nD τ).1, b) = Gen.V4 m outs c b) → Q (⟨⟩, s)) :
    θ_run defs (onTc (τ := τ) (main (F := F))) ⟨m, fun _ => 0, ρ⟩ Q := by
  refine Pipeline.θ_run_regions_kit (pcfgs (F := F)) adm pdats ι cellOf_inj EP defs₀ 𝒱₀ L lv m ρ main
    [.region R0, .region R1, .region R2, .host (seg3 m outs 𝒱₀ L lv E)]
    (fun c Q => ?hmain) ?hnd O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := ⟨hpre0, fun c => (hpost0 c).trans (hpre1 c), fun c => (hpost1 c).trans (hpre2 c), hpost2,
      fun c => sep_mono .rfl (hE3 c)⟩)
    (hinit := ?hinit)
    (QY := fun c s => ∀ b ∈ Pipeline.ucRefs τ sig, s.mem ((c.tc : Thread nD τ).1, b) = V4 m outs c b)
    (hfin := fun c s' => ?hfin) (hQ := hQ)
  case hmain =>
    -- the program IS the run of the four items
    rw [main_segs adm pdats ι 𝒱₀ L lv (seg3 m outs 𝒱₀ L lv E) R0 R1 R2 rfl c]
  case hnd =>
    -- the pipelines entered, in order
    show ([0, 1, 2] : List (Fin 3)).Nodup
    decide
  case hinit =>
    -- over all cores at once: (buffers ∗ remainder) is (all buffers) ∗ (all remainders), on both sides
    have eL := bigSep_sep' (Finset.univ : Finset (Dev nD))
      (fun c => (unscopedBufs c (fun b => m ((c.tc : Thread nD τ).loc b)) : sProp (MT nD τ sig Ix (Elt F) ℕ U Lvl)))
      (fun c => iprop(unscopedSems0 c ∗ owes (c.tc : Thread nD τ) (O₀ c) ∅ ∗ Pipeline.launchCred O₀ c ∗ prngReg c (ρ c) ∗ G c))
    have eR := bigSep_sep' (Finset.univ : Finset (Dev nD))
      (fun c => (StableHlo.held (c : Thread nD τ) (Pipeline.ucRefs τ sig) (V0 m c) : sProp (MT nD τ sig Ix (Elt F) ℕ U Lvl))) (E 0)
    rw [eL, eR]
    -- the launch's unscoped buffers are the buffers held at V0
    have hH : (bigSep Finset.univ fun c : Dev nD =>
          (unscopedBufs c (fun b => m ((c.tc : Thread nD τ).loc b)) : sProp (MT nD τ sig Ix (Elt F) ℕ U Lvl)))
        ⊢ bigSep Finset.univ fun c : Dev nD =>
          (StableHlo.held (c : Thread nD τ) (Pipeline.ucRefs τ sig) (V0 m c) : sProp (MT nD τ sig Ix (Elt F) ℕ U Lvl)) :=
      bigSep_mono fun c _ => Entails.of_eq
        (Pipeline.unscopedBufs_held (Ix := Ix) (Name := ℕ) (U := U) (Lvl := Lvl) c (V0 m c))
    -- the remainder and the level facts make E 0 under an update, which the held buffers stand beside
    exact (Laws.sep_assoc.1.trans (BIClass.sep_mono hH hE0)).trans fupd_frame_left
  case hfin =>
    exact (pointsTo_read_all (Pipeline.ucRefs τ sig) (fun b => ((c.tc : Thread nD τ).1, b)) (V4 m outs c) s').trans fupd_intro

/-- THE CONDITIONAL FRAME WITH THE RESULT'S VALUE: under the same hypotheses every weakly fair execution terminates, the
    result buffer ends holding what V4 holds there, and every argument array ends as launched — the reading of
    `frame_cond_read` at these five buffers, none of them scoped, the arguments written by no item. -/
theorem frame_cond_value {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c)) :
    θ_run defs (onTc (τ := τ) (main (F := F))) ⟨m, fun _ => 0, ρ⟩ (fun r => ∀ c : Dev nD,
      r.2.mem ((c.tc : Thread nD τ).loc main_v4) = Gen.V4 m outs c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_read m EP ι 𝒱₀ L lv hL ρ outs pdats O₀ G u₀ hu₀ E hE0 hE3 R0 hpre0 hpost0 R1 hpre1 hpost1 R2 hpre2 hpost2
    fun s h c =>
      ⟨h c _ (mem_unscoped main_v4 rfl),
       (h c _ (mem_unscoped main_arg0 rfl)).trans (V4_main_arg0 m outs c),
       (h c _ (mem_unscoped main_arg1 rfl)).trans (V4_main_arg1 m outs c),
       (h c _ (mem_unscoped main_arg2 rfl)).trans (V4_main_arg2 m outs c),
       (h c _ (mem_unscoped main_arg3 rfl)).trans (V4_main_arg3 m outs c)⟩

/-- What the last valuation holds at the result buffer: the product of what region 2 left in its output array with
    the broadcast of the scalar argument's launch contents. V3 at region 2's output is what that region left; V3 at the
    scalar argument is the launch contents, no region changing it; the broadcast and the product are then the two host
    operations, in order. -/
theorem V4_main_v4 (outs : Outs (F := F)) (c : Dev nD) :
    (Gen.V4 m outs c main_v4 : (⟨S4x4096x64, .f32⟩ : BufTy).Contents (Elt F))
      = mulf (outs 3 main_v2 c : (⟨S4x4096x64, .f32⟩ : BufTy).Contents (Elt F))
          (broadcastInDim S4x4096x64 ![] bcast_S_S4x4096x64
            (m ((c : Thread nD τ).loc main_arg3) : (⟨S_, .f32⟩ : BufTy).Contents (Elt F))) := by
  have e2 : V3 m outs c main_v2 = outs 3 main_v2 c := Function.update_self ..
  have e3 : V3 m outs c main_arg3 = m ((c : Thread nD τ).loc main_arg3) :=
    (V3_of m outs c main_arg3 (by decide)).trans <| (V2_of m outs c main_arg3 (by decide)).trans <|
      (V1_of m outs c main_arg3 (by decide)).trans rfl
  dsimp only [Gen.V4, Gen.hostOps3]
  after_results
  rw [e2, e3]

end Cert.KernelIdeal.Hand

end
-- ==== Proof.Assemble.lean ====
/-
  The program as its four items: the three kernel regions, each entered from what the one before left in the unscoped
  buffers, then the two host operations. Between items every core holds each unscoped buffer whole at that boundary's
  contents, its generator register at some state, and owes nothing.
-/
import proofs.«150832_j3959959847448_2_alg».proof.Proof.Region0
import proofs.«150832_j3959959847448_2_alg».proof.Proof.Region1c
import proofs.«150832_j3959959847448_2_alg».proof.Proof.Region2
import proofs.«150832_j3959959847448_2_alg».proof.Proof.FrameValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Assemble

variable (m : (ℓ : Loc nD τ sig) → Buf (Elt F) ℓ) (ρ : Dev nD → PrngReg)

/-- Core `c`'s unscoped buffers at launch, then after each of the three regions. -/
abbrev Wv0 (c : Dev nD) : Valuation τ sig (Elt F) := fun b => m (c, b)
abbrev Wv1 (c : Dev nD) : Valuation τ sig (Elt F) := Wnext0 (Wv0 m) c
abbrev Wv2 (c : Dev nD) : Valuation τ sig (Elt F) := Wnext1 (Wv1 m) c
abbrev Wv3 (c : Dev nD) : Valuation τ sig (Elt F) := Wnext2 (Wv2 m) c

/-- The three pipelines' proof data, each at its region's entry contents. -/
abbrev pd : (p : Fin 3) → (c : Dev nD) → Dat τ (Elt F) Unit ℕ (UR sig nD τ) ℕ (cfgs p) c :=
  pdatsOf (dat0 (Wv0 m)) (dat1 (Wv1 m)) (dat2 (Wv2 m))

/-- What the regions leave in the buffers they may change: the gate matrix, the normalizers, the coupled features. -/
def outs : Gen.Outs (F := F) := fun _ r c =>
  if h : r = main_v0 then h.symm ▸ ((dat0 (Wv0 m) c).arrAt 2 cfg0.N : Buf (Elt F) ((c : Thread nD τ).loc main_v0))
  else if h : r = main_v1 then h.symm ▸ ((dat1 (Wv1 m) c).arrAt 4 cfg1.N : Buf (Elt F) ((c : Thread nD τ).loc main_v1))
  else if h : r = main_v2 then h.symm ▸ ((dat2 (Wv2 m) c).arrAt 7 cfg2.N : Buf (Elt F) ((c : Thread nD τ).loc main_v2))
  else m ((c : Thread nD τ).loc r)

theorem outs_v0 (J : ℕ) (c : Dev nD) : outs m J main_v0 c = (dat0 (Wv0 m) c).arrAt 2 cfg0.N := by
  unfold outs; rw [dif_pos rfl]
theorem outs_v1 (J : ℕ) (c : Dev nD) : outs m J main_v1 c = (dat1 (Wv1 m) c).arrAt 4 cfg1.N := by
  unfold outs; rw [dif_neg (by decide), dif_pos rfl]
theorem outs_v2 (J : ℕ) (c : Dev nD) : outs m J main_v2 c = (dat2 (Wv2 m) c).arrAt 7 cfg2.N := by
  unfold outs; rw [dif_neg (by decide), dif_neg (by decide), dif_pos rfl]

/-- The generated boundary valuations are ours. -/
theorem V1_eq (c : Dev nD) : Gen.V1 m (outs m) c = Wv1 m c := by
  unfold Gen.V1 Wv1 Wnext0; rw [outs_v0]
theorem V2_eq (c : Dev nD) : Gen.V2 m (outs m) c = Wv2 m c := by
  unfold Gen.V2 Wv2 Wnext1; rw [outs_v1, V1_eq]
theorem V3_eq (c : Dev nD) : Gen.V3 m (outs m) c = Wv3 m c := by
  unfold Gen.V3 Wv3 Wnext2; rw [outs_v2, V2_eq]

/-- The launch element of the user algebra. -/
abbrev u0 : UR sig nD τ := initOf (Pipeline.cells cfgs cellOf_inj) (Pipeline.launchToks cfgs cellOf_inj)

theorem hu0 : (ownU (u0) : sProp (MM F)) ⊢ |={Set.univ}=> iprop(BI.own (emb₁ (initOf (Pipeline.cells cfgs cellOf_inj) (Pipeline.launchToks cfgs cellOf_inj))) ∗ bigSep Finset.univ (fun _ : Dev nD => (BI.emp : sProp (MM F)))) := by
  iintro Hu; imodintro
  isplitl [Hu]
  · iapply (show (ownU (initOf (Pipeline.cells cfgs cellOf_inj) (Pipeline.launchToks cfgs cellOf_inj)) : sProp (MM F))
        ⊢ BI.own (emb₁ (initOf (Pipeline.cells cfgs cellOf_inj) (Pipeline.launchToks cfgs cellOf_inj))) from .rfl)
    iexact Hu
  iapply (show (BI.emp : sProp (MM F)) ⊢ bigSep Finset.univ (fun _ : Dev nD => (BI.emp : sProp (MM F))) from by rw [BI.bigSep_emp_const])
  iempintro

/-- At launch every core has its generator register and owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F)))) ∗ levAts LL lvv)
    ⊢ (|={Set.univ}=> bigSep Finset.univ (fun c : Dev nD => RR (F := F) c) : sProp (MM F)) := by
  have hc : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F)))
      ⊢ (RR (F := F) c : sProp (MM F)) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F))))
      ⊢ (bigSep Finset.univ (fun c : Dev nD => RR (F := F) c) : sProp (MM F)) :=
    bigSep_mono fun c _ => hc c
  iintro ⟨H, -⟩
  imodintro
  iapply hmono
  iexact H

set_option backward.isDefEq.respectTransparency.types false in
/-- THE FRAME of the program at any `F`: every weakly fair execution from memory `m` with zero counters terminates and
    leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () VV LL lvv (fun _ _ => rfl) ρ (outs m) (pd m) 0 (fun _ => BI.emp) u0 hu0
    (fun _ c => RR c) (hE0 ρ) (fun c => by iintro ⟨-, HO⟩; iexact HO)
    (reg0 (Wv0 m) (dat1 (Wv1 m)) (dat2 (Wv2 m))) (fun c => .rfl) (fun c => by rw [V1_eq]; exact .rfl)
    (reg1 (Wv1 m) (dat0 (Wv0 m)) (dat2 (Wv2 m))) (fun c => by rw [V1_eq]; exact .rfl) (fun c => by rw [V2_eq]; exact .rfl)
    (reg2 (Wv2 m) (dat0 (Wv0 m)) (dat1 (Wv1 m))) (fun c => by rw [V2_eq]; exact .rfl) (fun c => by rw [V3_eq]; exact .rfl)

set_option backward.isDefEq.respectTransparency.types false in
/-- THE RUN WITH THE RESULT: as `frame`, and the result buffer ends at what the last boundary valuation holds there. -/
theorem run_value : θ_run defs (onTc (τ := τ) (main (F := F))) ⟨m, fun _ => 0, ρ⟩ (fun r => ∀ c : Dev nD,
      r.2.mem ((c.tc : Thread nD τ).loc main_v4) = Gen.V4 m (outs m) c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_value m emb₁ () VV LL lvv (fun _ _ => rfl) ρ (outs m) (pd m) 0 (fun _ => BI.emp) u0 hu0
    (fun _ c => RR c) (hE0 ρ) (fun c => by iintro ⟨-, HO⟩; iexact HO)
    (reg0 (Wv0 m) (dat1 (Wv1 m)) (dat2 (Wv2 m))) (fun c => .rfl) (fun c => by rw [V1_eq]; exact .rfl)
    (reg1 (Wv1 m) (dat0 (Wv0 m)) (dat2 (Wv2 m))) (fun c => by rw [V1_eq]; exact .rfl) (fun c => by rw [V2_eq]; exact .rfl)
    (reg2 (Wv2 m) (dat0 (Wv0 m)) (dat1 (Wv1 m))) (fun c => by rw [V2_eq]; exact .rfl) (fun c => by rw [V3_eq]; exact .rfl)

end Assemble

end Cert.KernelIdeal.Hand

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibMatmulTN.lean ====
/-
  A matrix product whose operands are both contracted on their FIRST axis, read at an index, over the extended reals.

  For the dimension numbers of a K×M by K×N product (contract the left operand's axis 0 with the right operand's
  axis 0, no batch axes: the product of the transpose of the left matrix with the right one), the product accumulated
  into the zero matrix has, at row `p` and column `q`, the entry  Σ_{k < K} lhs(k, p) · rhs(k, q):  the left index
  takes the contraction coordinate as its row and the output's row as its column, the right index takes the contraction
  coordinate as its row and keeps the output's column. Generic in M, K, N and in the operands' formats.
-/
import Idealize.ShloMosaic.PureOps.Ideal.Laws
import Idealize.ShloMosaic.Lib.ValueIdx

noncomputable section

open scoped BigOperators

namespace Cert.LibMatmulTN

open Idealize.ShloMosaic Idealize.ShloMosaic.ValueIdx

/-- `<[0], [0], [1], [1], [0, 1, 1, 1], [], []>`: `K×M` by `K×N`, each operand contracted on its first axis. -/
def dims (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable {M K N : Nat}

/-- The left index's row is the contraction coordinate. -/
theorem tn_lhs_row (j : (⟨2, ![M, N]⟩ : Shape).Idx) (k : (dims M K N).contr.Idx) :
    ((dims M K N).lhsIdx j k 0).val = (k ⟨0, Nat.one_pos⟩).val :=
  (dims M K N).lhsIdx_val_of_single rfl j k

/-- The left index's column is the output's row. -/
theorem tn_lhs_col (j : (⟨2, ![M, N]⟩ : Shape).Idx) (k : (dims M K N).contr.Idx) :
    ((dims M K N).lhsIdx j k 1).val = (j 0).val := by
  unfold DotDims.lhsIdx
  rw [dif_neg (show ¬(1 : Fin (⟨2, ![K, M]⟩ : Shape).rank) ∈ (dims M K N).lhsBatch from List.not_mem_nil),
    dif_pos (show (1 : Fin (⟨2, ![K, M]⟩ : Shape).rank) ∈ (dims M K N).lhsNonContracting from List.mem_singleton_self _)]
  rfl

/-- The right index's row is the contraction coordinate. -/
theorem tn_rhs_row (j : (⟨2, ![M, N]⟩ : Shape).Idx) (k : (dims M K N).contr.Idx) :
    ((dims M K N).rhsIdx j k 0).val = (k ⟨0, Nat.one_pos⟩).val :=
  (dims M K N).rhsIdx_val_of_single rfl j k

/-- The right index keeps the output's column. -/
theorem tn_rhs_col (j : (⟨2, ![M, N]⟩ : Shape).Idx) (k : (dims M K N).contr.Idx) :
    ((dims M K N).rhsIdx j k 1).val = (j 1).val := by
  unfold DotDims.rhsIdx
  rw [dif_neg (show ¬(1 : Fin (⟨2, ![K, N]⟩ : Shape).rank) ∈ (dims M K N).rhsBatch from List.not_mem_nil),
    dif_pos (show (1 : Fin (⟨2, ![K, N]⟩ : Shape).rank) ∈ (dims M K N).rhsNonContracting from List.mem_singleton_self _)]
  rfl

/-- THE PRODUCT AT AN ENTRY: a matrix product contracting both operands' first axes, accumulated into the zero matrix,
    is at `(p, q)` the sum over the contracted axis of the operands' products. The dimension numbers are passed as any
    record equal to `dims M K N` (a printed record with the same six lists is, by `rfl`). -/
theorem matmul_tn_zero_apply {φ₁ φ₂ : FTy} (D : DotDims ⟨2, ![K, M]⟩ ⟨2, ![K, N]⟩ ⟨2, ![M, N]⟩)
    (hD : D = dims M K N) (prec : Option ContractPrecision)
    (lhs : FVec Ideal ⟨2, ![K, M]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 k p) * rhs (ix2 k q) := by
  subst hD
  rw [Ideal.matmul_constant_zero_apply, ← Equiv.sum_comp (contrEquiv1 (dims M K N) K rfl rfl).symm]
  refine Finset.sum_congr rfl fun k _ => ?_
  have hk := contrEquiv1_symm_val (dims M K N) K rfl rfl k
  have el : (dims M K N).lhsIdx (ix2 p q) ((contrEquiv1 (dims M K N) K rfl rfl).symm k) = ix2 k p :=
    funext fun a => Fin.ext (by
      match a with
      | ⟨0, _⟩ => exact (tn_lhs_row _ _).trans hk
      | ⟨1, _⟩ => exact tn_lhs_col _ _)
  have er : (dims M K N).rhsIdx (ix2 p q) ((contrEquiv1 (dims M K N) K rfl rfl).symm k) = ix2 k q :=
    funext fun a => Fin.ext (by
      match a with
      | ⟨0, _⟩ => exact (tn_rhs_row _ _).trans hk
      | ⟨1, _⟩ => exact tn_rhs_col _ _)
  rw [el, er]

end Cert.LibMatmulTN

end
-- ==== Proof.Payloads.lean ====
/-
  The kernels' stored values read at an index, over the extended reals.

  gate kernel     the stored block is the logistic function of the product of one row block of U with the transpose of
                  another: at (p, q) it is sigma (sum_r x0 p r * x1 q r).
  degree kernel   the accumulator starts at zero; one column tile adds half of (the direct block's row sums against the
                  all-ones column plus the transposed block's column sums against it); the stored normalizer is
                  (max acc eps)^(-1/2).
  product kernel  the accumulator starts at zero; one column tile adds half of (the direct block times the scaled
                  right-hand rows plus the transposed block times them); the stored result is the row's normalizer times
                  the accumulator.
-/
import proofs.«150832_j3959959847448_2_alg».proof.Proof.Gen.KernelIdeal.Skeleton
import proofs.«150832_j3959959847448_2_alg».proof.Proof.Spec
import proofs.«150832_j3959959847448_2_alg».proof.Proof.LibMatmulNT
import proofs.«150832_j3959959847448_2_alg».proof.Proof.LibMatmulPlain
import proofs.«150832_j3959959847448_2_alg».proof.Proof.LibMatmulTN
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

section Layout
variable {α : Type}

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The gate block at `(p, q)`: the logistic function of the inner product of row `p` of the first operand with row
    `q` of the second (the product contracts both operands' last axes into the zero accumulator). -/
theorem gate_pay (x0 x1 : Vec Ideal S512x16 .f32) (p q : Fin 512) :
    k0_pay1 (F := Ideal) x0 x1 (ix2 p q) = Ideal.logistic (∑ r : Fin 16, x0 (ix2 p r) * x1 (ix2 q r)) := by
  unfold k0_pay1
  show Ideal.logistic (FloatOps.matmul dot_S512x16_S512x16_S512x512_1_1_0_0_n_n none x0 x1
    (constant (F := Ideal) S512x512 .f32 0x00000000#32) (ix2 p q)) = _
  exact congrArg Ideal.logistic (Cert.LibMatmulNT.matmul_nt_zero_apply _ rfl none x0 x1 p q)

/-- One column tile's contribution to the degree accumulator at row `p`: the accumulator plus half of (the direct
    block's gated row sum against the all-ones column plus the transposed block's gated column sum against it). The first
    product is a plain one, the second contracts the first axes of both operands. -/
theorem deg_step_pay (gd gt : Vec Ideal S512x512 .bf16) (wd wt : Vec Ideal S1x512x512 .f32) (s : Vec Ideal S512x1 .f32)
    (p : Fin 512) :
    k1_pay2 (F := Ideal) gd gt wd wt s (ix2 p (0 : Fin 1))
      = s (ix2 p (0 : Fin 1)) + Cert.Spec.half * ((∑ q : Fin 512, (wd (ix3 (0 : Fin 1) p q) * gd (ix2 p q)) * Cert.Spec.one)
          + (∑ q : Fin 512, (wt (ix3 (0 : Fin 1) q p) * gt (ix2 q p)) * Cert.Spec.one)) := by
  unfold k1_pay2
  simp only [shapeCast_self]
  rw [addf_apply, mulf_apply, addf_apply, broadcast_apply]
  refine congrArg (s (ix2 p (0 : Fin 1)) + ·) (congrArg (Cert.Spec.half * ·) ?_)
  refine congrArg₂ (fun a b : EReal => a + b) ?_ ?_
  · refine (Cert.LibMatmulPlain.matmul_plain_zero_apply _ rfl none _ _ p (0 : Fin 1)).trans ?_
    refine Finset.sum_congr rfl fun q _ => ?_
    show shapeCast S512x512 wd shapeCasts_S1x512x512_S512x512 (ix2 p q) * gd (ix2 p q) * Cert.Spec.one = _
    rw [shapeCast_1ab_ab_apply]
  · refine (Cert.LibMatmulTN.matmul_tn_zero_apply _ rfl none _ _ p (0 : Fin 1)).trans ?_
    refine Finset.sum_congr rfl fun q _ => ?_
    show shapeCast S512x512 wt shapeCasts_S1x512x512_S512x512 (ix2 q p) * gt (ix2 q p) * Cert.Spec.one = _
    rw [shapeCast_1ab_ab_apply]

/-- The stored normalizer at row `p`: `(max acc eps)^(-1/2)`. -/
theorem deg_final_pay (s : Vec Ideal S512x1 .f32) (p : Fin 512) :
    k1_pay3 (F := Ideal) s (ix3 (0 : Fin 1) p (0 : Fin 1)) = Ideal.rsqrt (max (s (ix2 p (0 : Fin 1))) Cert.Spec.eps) := by
  unfold k1_pay3
  refine (shapeCast_ab_1ab_apply _ _ (0 : Fin 1) p (0 : Fin 1)).trans ?_
  rfl

/-- The degree accumulator starts at the zero word. -/
theorem deg_init_pay (p : Fin 512) : k1_pay1 (F := Ideal) (ix2 p (0 : Fin 1)) = Cert.Spec.zero := by
  unfold k1_pay1
  simp only [shapeCast_self]
  rfl

/-- The product accumulator starts at the zero word. -/
theorem mm_init_pay (p : Fin 512) (e : Fin 64) : k2_pay3 (F := Ideal) (ix2 p e) = Cert.Spec.zero := by
  unfold k2_pay3
  simp only [shapeCast_self]
  rfl

/-- The accumulator written back unchanged (a cast to its own shape). -/
theorem mm_keep_pay (v : FVec Ideal S512x64 .f32) : k2_pay1 (F := Ideal) v = v := by
  unfold k2_pay1
  exact shapeCast_self _ _

/-- One column tile's contribution to the product accumulator at `(p, e)`: the accumulator plus half of (the direct
    gated block times the scaled right-hand rows plus the transposed gated block times them); the right-hand rows are
    the column normalizer times the features. -/
theorem mm_step_pay (gd gt : Vec Ideal S512x512 .bf16) (wd wt : Vec Ideal S1x512x512 .f32)
    (dcol : Vec Ideal S1x512x1 .f32) (xb : Vec Ideal S1x512x64 .f32) (s : Vec Ideal S512x64 .f32)
    (p : Fin 512) (e : Fin 64) :
    k2_pay4 (F := Ideal) gd gt wd wt dcol xb s (ix2 p e)
      = s (ix2 p e) + Cert.Spec.half *
          ((∑ q : Fin 512, (wd (ix3 (0 : Fin 1) p q) * gd (ix2 p q))
              * (dcol (ix3 (0 : Fin 1) q (0 : Fin 1)) * xb (ix3 (0 : Fin 1) q e)))
          + (∑ q : Fin 512, (wt (ix3 (0 : Fin 1) q p) * gt (ix2 q p))
              * (dcol (ix3 (0 : Fin 1) q (0 : Fin 1)) * xb (ix3 (0 : Fin 1) q e)))) := by
  unfold k2_pay4
  simp only [shapeCast_self]
  rw [addf_apply, mulf_apply, addf_apply, broadcast_apply]
  refine congrArg (s (ix2 p e) + ·) (congrArg (Cert.Spec.half * ·) ?_)
  have hr : ∀ q : Fin 512,
      broadcastTo S512x64 (shapeCast S512x1 dcol shapeCasts_S1x512x1_S512x1) broadcasts_S512x1_S512x64 (ix2 q e)
        * shapeCast S512x64 xb shapeCasts_S1x512x64_S512x64 (ix2 q e)
      = dcol (ix3 (0 : Fin 1) q (0 : Fin 1)) * xb (ix3 (0 : Fin 1) q e) := fun q => by
    rw [broadcastTo_a1_ab_apply, shapeCast_1ab_ab_apply, shapeCast_1ab_ab_apply]
  refine congrArg₂ (fun a b : EReal => a + b) ?_ ?_
  · refine (Cert.LibMatmulPlain.matmul_plain_zero_apply _ rfl none _ _ p e).trans ?_
    refine Finset.sum_congr rfl fun q _ => ?_
    show shapeCast S512x512 wd shapeCasts_S1x512x512_S512x512 (ix2 p q) * gd (ix2 p q)
      * (broadcastTo S512x64 (shapeCast S512x1 dcol shapeCasts_S1x512x1_S512x1) broadcasts_S512x1_S512x64 (ix2 q e)
        * shapeCast S512x64 xb shapeCasts_S1x512x64_S512x64 (ix2 q e)) = _
    rw [hr, shapeCast_1ab_ab_apply]
  · refine (Cert.LibMatmulTN.matmul_tn_zero_apply _ rfl none _ _ p e).trans ?_
    refine Finset.sum_congr rfl fun q _ => ?_
    show shapeCast S512x512 wt shapeCasts_S1x512x512_S512x512 (ix2 q p) * gt (ix2 q p)
      * (broadcastTo S512x64 (shapeCast S512x1 dcol shapeCasts_S1x512x1_S512x1) broadcasts_S512x1_S512x64 (ix2 q e)
        * shapeCast S512x64 xb shapeCasts_S1x512x64_S512x64 (ix2 q e)) = _
    rw [hr, shapeCast_1ab_ab_apply]

/-- The stored result at `(p, e)`: the row's normalizer times the accumulator. -/
theorem mm_final_pay (drow : Vec Ideal S1x512x1 .f32) (acc : Vec Ideal S512x64 .f32) (p : Fin 512) (e : Fin 64) :
    k2_pay2 (F := Ideal) drow acc (ix3 (0 : Fin 1) p e) = drow (ix3 (0 : Fin 1) p (0 : Fin 1)) * acc (ix2 p e) := by
  unfold k2_pay2
  refine (shapeCast_ab_1ab_apply _ _ (0 : Fin 1) p e).trans ?_
  show broadcastTo S512x64 (shapeCast S512x1 drow shapeCasts_S1x512x1_S512x1) broadcasts_S512x1_S512x64 (ix2 p e)
    * acc (ix2 p e) = _
  rw [broadcastTo_a1_ab_apply, shapeCast_1ab_ab_apply]

end Cert.KernelIdeal.Pay

end
-- ==== Proof.Value0.lean ====
/-
  Region 0 from blocks to the array: after the gate kernel's region the gate matrix's buffer holds, at (a, b), the
  logistic function of the inner product of rows a and b of U.

  The grid has 8 x 8 points; at point t = (bi, bj) the two input windows hold the row tiles bi and bj of U (rows
  bi * 512 + p and bj * 512 + q), and the body stores sigma (sum_r U (bi * 512 + p) r * U (bj * 512 + q) r) at (p, q) of
  the tile that the write-back puts at (bi * 512 + p, bj * 512 + q) of the matrix. The 64 tiles cover the matrix.
-/
import proofs.«150832_j3959959847448_2_alg».proof.Proof.Region0
import proofs.«150832_j3959959847448_2_alg».proof.Proof.Payloads
import proofs.«150832_j3959959847448_2_alg».proof.Proof.Spec

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The gate matrix as one function of U: at `(a, b)` the logistic function of the inner product of rows `a` and `b`. -/
def gateG (Uv : S4096x16.Idx → EReal) : S4096x4096.Idx → EReal := fun i =>
  Cert.Spec.gateK (fun a r => Uv (ix2 a r)) ⟨(i 0).val, (i 0).isLt⟩ ⟨(i 1).val, (i 1).isLt⟩

/-- The gate tile at any index of its shape, the coordinates read off the index. -/
theorem gate_pay_at (x0 x1 : Vec Ideal S512x16 .f32) (y : S512x512.Idx) :
    k0_pay1 (F := Ideal) x0 x1 y
      = Ideal.logistic (∑ r : Fin 16, x0 (ix2 (⟨(y 0).val, (y 0).isLt⟩ : Fin 512) r) * x1 (ix2 (⟨(y 1).val, (y 1).isLt⟩ : Fin 512) r)) := by
  obtain ⟨p, q, rfl⟩ : ∃ (p q : Fin 512), y = ix2 p q := ⟨y 0, y 1, eq_ix2 y⟩
  exact Pay.gate_pay x0 x1 p q

/-- The printed index maps, decided over the grid: window 0 follows the output's row tile, window 1 its column tile, both
    at column tile 0 of U; the output's tile indices are below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile of the matrix is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

variable (Wv : Dev nD → Valuation τ sig (Elt Ideal))

/-- U as the region finds it. -/
abbrev Uat (c : Dev nD) : S4096x16.Idx → EReal := Hand.Vat Wv c main_arg2

/-- Window 0 holds, at `(p, r)` of its block at point `t`, row `index * 512 + p` of U at `r`. -/
theorem blk0_apply (c : Dev nD) (t : Fin cfg0.N) (p : Fin 512) (r : Fin 16) (k : S4096x16.Idx)
    (hk0 : (k 0).val = win0_0.index t (0 : Fin 2) * 512 + p.val) (hk1 : (k 1).val = r.val) :
    (Hand.iblk0 Wv c 0 t : Vec Ideal S512x16 .f32) (ix2 p r) = Uat Wv c k := by
  obtain ⟨e0, e1, e2, e3, e4, e5⟩ := idx_facts t
  unfold Hand.iblk0
  rw [View.read_apply]
  show Uat Wv c (((cfg0.win 0).blk t).view.emb (ix2 p r)) = Uat Wv c k
  refine congrArg (Uat Wv c) (funext fun a => Fin.ext ?_)
  match a with
  | ⟨0, _⟩ => show win0_0.index t (0 : Fin 2) * 512 + 1 * p.val = (k 0).val; omega
  | ⟨1, _⟩ => show win0_0.index t (1 : Fin 2) * 16 + 1 * r.val = (k 1).val; omega

/-- Window 1 likewise, at its own tile. -/
theorem blk1_apply (c : Dev nD) (t : Fin cfg0.N) (p : Fin 512) (r : Fin 16) (k : S4096x16.Idx)
    (hk0 : (k 0).val = win0_1.index t (0 : Fin 2) * 512 + p.val) (hk1 : (k 1).val = r.val) :
    (Hand.iblk0 Wv c 1 t : Vec Ideal S512x16 .f32) (ix2 p r) = Uat Wv c k := by
  obtain ⟨e0, e1, e2, e3, e4, e5⟩ := idx_facts t
  unfold Hand.iblk0
  rw [View.read_apply]
  show Uat Wv c (((cfg0.win 1).blk t).view.emb (ix2 p r)) = Uat Wv c k
  refine congrArg (Uat Wv c) (funext fun a => Fin.ext ?_)
  match a with
  | ⟨0, _⟩ => show win0_1.index t (0 : Fin 2) * 512 + 1 * p.val = (k 0).val; omega
  | ⟨1, _⟩ => show win0_1.index t (1 : Fin 2) * 16 + 1 * r.val = (k 1).val; omega

/-- WHAT POINT `t` WRITES BACK is tile `t` of the gate matrix of U as the region finds it. -/
theorem flushed_eq (c : Dev nD) (t : Fin cfg0.N) :
    (Hand.dat0 Wv c).flushed 2 t = ((cfg0.win 2).blk t).view.read (Elt Ideal) (gateG (Uat Wv c)) := by
  show (cfg0.win 2).cut (grid0.coords t) ((Hand.dat0 Wv c).after 2 t) = _
  rw [Hand.after0_2, Hand.gateOut_eq]
  obtain ⟨e0, e1, e2, e3, e4, e5⟩ := idx_facts t
  funext j
  rw [View.read_apply]
  show k0_pay1 (F := Ideal) (Hand.iblk0 Wv c 0 t) (Hand.iblk0 Wv c 1 t) j
    = gateG (Uat Wv c) (((cfg0.win 2).blk t).view.emb j)
  refine (gate_pay_at _ _ j).trans ?_
  unfold gateG Cert.Spec.gateK Cert.Spec.logit
  refine congrArg Ideal.logistic (Finset.sum_congr rfl fun r _ => ?_)
  refine congrArg₂ (fun a b : EReal => a * b) (blk0_apply Wv c t _ r _ ?_ rfl) (blk1_apply Wv c t _ r _ ?_ rfl)
  · show win0_2.index t (0 : Fin 2) * 512 + 1 * (j 0).val = win0_0.index t (0 : Fin 2) * 512 + (j 0).val; omega
  · show win0_2.index t (1 : Fin 2) * 512 + 1 * (j 1).val = win0_1.index t (0 : Fin 2) * 512 + (j 1).val; omega

/-- An index of the matrix is in point `t`'s tile iff each coordinate is in the tile's range on its axis. -/
theorem mem_blk (t : Fin cfg0.N) (i : S4096x4096.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- THE TILES COVER THE MATRIX: index `(a, b)` is in the tile of the point whose tile indices are `(a / 512, b / 512)`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- THE GATE MATRIX AFTER THE REGION: the gate matrix of U as the region finds it. -/
theorem gate_array_fn (c : Dev nD) : (Hand.dat0 Wv c).arrAt 2 cfg0.N = gateG (Uat Wv c) :=
  (Hand.dat0 Wv c).arrAt_eq_of_cover 2 (gateG (Uat Wv c)) (fun t _ => flushed_eq Wv c t) covered

/-- The same index by index: at `(a, b)` the logistic function of the inner product of rows `a` and `b` of U. -/
theorem gate_array (c : Dev nD) (a b : Fin 4096) :
    ((Hand.dat0 Wv c).arrAt 2 cfg0.N : S4096x4096.Idx → EReal) (ix2 a b)
      = Cert.Spec.gateK (fun a r => (Hand.Vat Wv c main_arg2 : S4096x16.Idx → EReal) (ix2 a r)) a b := by
  rw [gate_array_fn]
  rfl

end Cert.KernelIdeal.Val

end
-- ==== Proof.Blocks1.lean ====
/-
  Region 1, the degree kernel: what each input window's block holds, as entries of its array, and where the output
  window's blocks sit.

  The grid has 4 x 8 x 8 points; point t = (b * 8 + bi) * 8 + bj has batch b, row tile bi, column tile bj. Window 0
  holds tile (b, bi, bj) of W and window 1 tile (b, bj, bi); window 2 holds tile (bi, bj) of the gate matrix and window 3
  tile (bj, bi); the output window's block is rows bi * 512 ... bi * 512 + 511 of batch b of the normalizer, written back
  at the last column tile.
-/
import proofs.«150832_j3959959847448_2_alg».proof.Proof.Region1a
import proofs.«150832_j3959959847448_2_alg».proof.Proof.Spec
import Idealize.ShloMosaic.Lib.ValueIdx
import Idealize.ShloMosaic.Lib.Pipeline.Value

set_option maxRecDepth 16384

noncomputable section

namespace Cert.KernelIdeal.Blk1

open Idealize.ShloMosaic Idealize.ShloMosaic.TcCoe Idealize.SL.Sem Idealize.ShloMosaic.ValueIdx
open Idealize.ShloMosaic.Pipeline (Dat)
open Cert.KernelIdeal Cert.KernelIdeal.Gen
open Cert.Spec (col)

variable {F : FTy → Type} [FloatOps F]

/-- The printed index maps in closed form, decided over the grid: the point's batch is `t / 64`, its row tile
    `t / 8 % 8`, its column tile `t % 8`. -/
theorem idx_facts1 : ∀ t : Fin cfg1.N,
    (win1_0.index t (0 : Fin 3) = t.val / 64 ∧ win1_0.index t (1 : Fin 3) = t.val / 8 % 8 ∧ win1_0.index t (2 : Fin 3) = t.val % 8)
    ∧ (win1_1.index t (0 : Fin 3) = t.val / 64 ∧ win1_1.index t (1 : Fin 3) = t.val % 8 ∧ win1_1.index t (2 : Fin 3) = t.val / 8 % 8)
    ∧ (win1_2.index t (0 : Fin 2) = t.val / 8 % 8 ∧ win1_2.index t (1 : Fin 2) = t.val % 8)
    ∧ (win1_3.index t (0 : Fin 2) = t.val % 8 ∧ win1_3.index t (1 : Fin 2) = t.val / 8 % 8)
    ∧ (win1_4.index t (0 : Fin 3) = t.val / 64 ∧ win1_4.index t (1 : Fin 3) = t.val / 8 % 8 ∧ win1_4.index t (2 : Fin 3) = 0) :=
  (by decide +kernel : ∀ t : Fin grid1.N, _)

/-- Every point is some `(b, bi, bj)`. -/
theorem pt1 (t : Fin cfg1.N) : ∃ (b : Fin 4) (bi bj : Fin 8), t.val = (b.val * 8 + bi.val) * 8 + bj.val := by
  have hN : t.val < 256 := lt_of_lt_of_eq t.isLt N_1
  exact ⟨⟨t.val / 64, by omega⟩, ⟨t.val / 8 % 8, by omega⟩, ⟨t.val % 8, by omega⟩, by show t.val = (t.val / 64 * 8 + t.val / 8 % 8) * 8 + t.val % 8; omega⟩

section Reads

variable (Wv : Dev nD → Valuation τ sig (Elt F)) (c : Dev nD) (t : Fin cfg1.N) (b : Fin 4) (bi bj : Fin 8)
  (ht : t.val = (b.val * 8 + bi.val) * 8 + bj.val)
include ht

/-- Window 0: the direct tile of W. -/
theorem blk1_0 (p q : Fin 512) :
    (Hand.iblk1 Wv c 0 t : Vec F S1x512x512 .f32) (ix3 (0 : Fin 1) p q)
      = (Hand.Vat Wv c main_arg1 : S4x4096x4096.Idx → Elt F .f32) (ix3 b (col bi p) (col bj q)) := by
  obtain ⟨⟨e0, e1, e2⟩, -, -, -, -⟩ := idx_facts1 t
  unfold Hand.iblk1
  rw [View.read_apply]
  show (Hand.Vat Wv c main_arg1 : S4x4096x4096.Idx → Elt F .f32) (((cfg1.win 0).blk t).view.emb (ix3 (0 : Fin 1) p q)) = _
  refine congrArg _ (funext fun a => Fin.ext ?_)
  match a with
  | ⟨0, _⟩ => show win1_0.index t (0 : Fin 3) * 1 + 1 * 0 = b.val; omega
  | ⟨1, _⟩ => show win1_0.index t (1 : Fin 3) * 512 + 1 * p.val = bi.val * 512 + p.val; omega
  | ⟨2, _⟩ => show win1_0.index t (2 : Fin 3) * 512 + 1 * q.val = bj.val * 512 + q.val; omega

end Reads

section Reads2

variable (Wv : Dev nD → Valuation τ sig (Elt F)) (c : Dev nD) (t : Fin cfg1.N) (b : Fin 4) (bi bj : Fin 8)
  (ht : t.val = (b.val * 8 + bi.val) * 8 + bj.val)
include ht

/-- Window 1: the tile of W whose transpose the kernel uses, `(b, bj, bi)`. -/
theorem blk1_1 (p q : Fin 512) :
    (Hand.iblk1 Wv c 1 t : Vec F S1x512x512 .f32) (ix3 (0 : Fin 1) p q)
      = (Hand.Vat Wv c main_arg1 : S4x4096x4096.Idx → Elt F .f32) (ix3 b (col bj p) (col bi q)) := by
  obtain ⟨-, ⟨e0, e1, e2⟩, -, -, -⟩ := idx_facts1 t
  unfold Hand.iblk1
  rw [View.read_apply]
  show (Hand.Vat Wv c main_arg1 : S4x4096x4096.Idx → Elt F .f32) (((cfg1.win 1).blk t).view.emb (ix3 (0 : Fin 1) p q)) = _
  refine congrArg _ (funext fun a => Fin.ext ?_)
  match a with
  | ⟨0, _⟩ => show win1_1.index t (0 : Fin 3) * 1 + 1 * 0 = b.val; omega
  | ⟨1, _⟩ => show win1_1.index t (1 : Fin 3) * 512 + 1 * p.val = bj.val * 512 + p.val; omega
  | ⟨2, _⟩ => show win1_1.index t (2 : Fin 3) * 512 + 1 * q.val = bi.val * 512 + q.val; omega

/-- Window 2: tile `(bi, bj)` of the gate matrix. -/
theorem blk1_2 (p q : Fin 512) :
    (Hand.iblk1 Wv c 2 t : Vec F S512x512 .bf16) (ix2 p q)
      = (Hand.Vat Wv c main_v0 : S4096x4096.Idx → Elt F .bf16) (ix2 (col bi p) (col bj q)) := by
  obtain ⟨-, -, ⟨e0, e1⟩, -, -⟩ := idx_facts1 t
  unfold Hand.iblk1
  rw [View.read_apply]
  show (Hand.Vat Wv c main_v0 : S4096x4096.Idx → Elt F .bf16) (((cfg1.win 2).blk t).view.emb (ix2 p q)) = _
  refine congrArg _ (funext fun a => Fin.ext ?_)
  match a with
  | ⟨0, _⟩ => show win1_2.index t (0 : Fin 2) * 512 + 1 * p.val = bi.val * 512 + p.val; omega
  | ⟨1, _⟩ => show win1_2.index t (1 : Fin 2) * 512 + 1 * q.val = bj.val * 512 + q.val; omega

/-- Window 3: tile `(bj, bi)` of the gate matrix. -/
theorem blk1_3 (p q : Fin 512) :
    (Hand.iblk1 Wv c 3 t : Vec F S512x512 .bf16) (ix2 p q)
      = (Hand.Vat Wv c main_v0 : S4096x4096.Idx → Elt F .bf16) (ix2 (col bj p) (col bi q)) := by
  obtain ⟨-, -, -, ⟨e0, e1⟩, -⟩ := idx_facts1 t
  unfold Hand.iblk1
  rw [View.read_apply]
  show (Hand.Vat Wv c main_v0 : S4096x4096.Idx → Elt F .bf16) (((cfg1.win 3).blk t).view.emb (ix2 p q)) = _
  refine congrArg _ (funext fun a => Fin.ext ?_)
  match a with
  | ⟨0, _⟩ => show win1_3.index t (0 : Fin 2) * 512 + 1 * p.val = bj.val * 512 + p.val; omega
  | ⟨1, _⟩ => show win1_3.index t (1 : Fin 2) * 512 + 1 * q.val = bi.val * 512 + q.val; omega

/-- The output window's block index at the point: `(b, bi, 0)`. -/
theorem out1_at : win1_4.index t = ![b.val, bi.val, 0] := by
  obtain ⟨-, -, -, -, ⟨e0, e1, e2⟩⟩ := idx_facts1 t
  funext a
  match a with
  | ⟨0, _⟩ => show win1_4.index t (0 : Fin 3) = b.val; omega
  | ⟨1, _⟩ => show win1_4.index t (1 : Fin 3) = bi.val; omega
  | ⟨2, _⟩ => show win1_4.index t (2 : Fin 3) = 0; omega

end Reads2

/-- An index of the normalizer array is in point `t`'s block iff each coordinate is in the block's range on its axis. -/
theorem mem_blk1_4 (t : Fin cfg1.N) (i : S4x4096x1.Idx) :
    i ∈ ((cfg1.win 4).blk t).view.set
      ↔ ∀ a : Fin 3, win1_4.index t a * S1x512x1.size a ≤ (i a).val ∧ (i a).val < win1_4.index t a * S1x512x1.size a + S1x512x1.size a := by
  show i ∈ ((View.whole main_v1).slice (win1_4.rect t)).set ↔ _
  rw [View.set_slice_whole, Rect.mem_set_unit]
  exact Iff.rfl

/-- Every block `(b, bi)` of the normalizer array is written back by the point at that row's last column tile. -/
theorem out1_idx (b : Fin 4) (bi : Fin 8) :
    ∃ t : Fin cfg1.N, t.val = (b.val * 8 + bi.val) * 8 + 7 ∧ (cfg1.win 4).flush t = true ∧ win1_4.index t = ![b.val, bi.val, 0] := by
  have hlt : (b.val * 8 + bi.val) * 8 + 7 < cfg1.N := by
    show _ < grid1.N
    rw [N_1]; omega
  refine ⟨⟨(b.val * 8 + bi.val) * 8 + 7, hlt⟩, rfl, (flush1_4 _).mpr (by show ((b.val * 8 + bi.val) * 8 + 7) % 8 = 7; omega), ?_⟩
  exact out1_at (t := ⟨(b.val * 8 + bi.val) * 8 + 7, hlt⟩) b bi (7 : Fin 8) rfl

/-- THE OUTPUT'S BLOCKS COVER THE NORMALIZER ARRAY: index `(b, n, 0)` is in the block written back at the last column tile
    of row tile `n / 512` of batch `b`. -/
theorem covered1_4 (i : S4x4096x1.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1 := (i 2).isLt
  obtain ⟨t, -, hf, hx⟩ := out1_idx ⟨(i 0).val, hi0⟩ ⟨(i 1).val / 512, by omega⟩
  have q0 : win1_4.index t (0 : Fin 3) = (i 0).val := congrFun hx 0
  have q1 : win1_4.index t (1 : Fin 3) = (i 1).val / 512 := congrFun hx 1
  have q2 : win1_4.index t (2 : Fin 3) = 0 := congrFun hx 2
  refine ⟨t, hf, ?_⟩
  rw [mem_blk1_4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 1 ≤ (i 2).val ∧ (i 2).val < win1_4.index t (2 : Fin 3) * 1 + 1
    omega

end Cert.KernelIdeal.Blk1

end
-- ==== Proof.Spec2.lean ====
/-
  The kernel's three stages over GENERIC intermediate arrays: a gate matrix G (what the first region leaves) and a
  normalizer array D (what the second leaves). With G the gate of U and D the normalizer of W and G they are the
  functions of Spec.lean.
-/
import proofs.«150832_j3959959847448_2_alg».proof.Proof.Spec

noncomputable section

namespace Cert.Spec

open Idealize.ShloMosaic

abbrev G2 : Type := Fin 4096 → Fin 4096 → EReal
abbrev D2 : Type := Fin 4 → Fin 4096 → EReal

/-- One column tile's share of row `i` against a vector `v`, over a gate matrix `G`. -/
def tileG (W : W3) (G : G2) (v : Fin 4096 → EReal) (b : Fin 4) (i : Fin 4096) (bj : Fin 8) : EReal :=
  half * ((∑ k : Fin 512, (W b i (col bj k) * G i (col bj k)) * v (col bj k))
        + (∑ k : Fin 512, (W b (col bj k) i * G (col bj k) i) * v (col bj k)))

/-- The degree accumulated over the eight column tiles from zero, and the normalizer, over a gate matrix `G`. -/
def degG (W : W3) (G : G2) (b : Fin 4) (i : Fin 4096) : EReal := zero + ∑ bj : Fin 8, tileG W G (fun _ => one) b i bj
def dG (W : W3) (G : G2) (b : Fin 4) (i : Fin 4096) : EReal := Ideal.rsqrt (max (degG W G b i) eps)

/-- The coupled features before the final scale, over a gate matrix `G` and a normalizer array `D`. -/
def mixG (x : X3) (W : W3) (G : G2) (D : D2) (b : Fin 4) (i : Fin 4096) (c : Fin 64) : EReal :=
  D b i * (zero + ∑ bj : Fin 8, tileG W G (fun j => D b j * x b j c) b i bj)

theorem tile_eq_tileG (W : W3) (U : U2) (v : Fin 4096 → EReal) (b : Fin 4) (i : Fin 4096) (bj : Fin 8) :
    tile W U v b i bj = tileG W (gateK U) v b i bj := rfl
theorem degK_eq_degG (W : W3) (U : U2) (b : Fin 4) (i : Fin 4096) : degK W U b i = degG W (gateK U) b i := rfl
theorem dK_eq_dG (W : W3) (U : U2) (b : Fin 4) (i : Fin 4096) : dK W U b i = dG W (gateK U) b i := rfl
theorem outK_eq_mixG (x : X3) (W : W3) (U : U2) (s : EReal) (b : Fin 4) (i : Fin 4096) (c : Fin 64) :
    outK x W U s b i c = mixG x W (gateK U) (dK W U) b i c * s := rfl

end Cert.Spec

end
-- ==== Proof.Value1.lean ====
/-
  Region 1 from blocks to the array: after the degree kernel's region the normalizer's buffer holds, at (b, i, 0),
  (max (deg b i) eps)^(-1/2), where deg b i is zero plus the sum over the eight column tiles bj of
  half * (sum_k (W b i j * G i j) * 1 + sum_k (W b j i * G j i) * 1), j = bj * 512 + k, W and the gate matrix G as the
  region finds them.

  The grid has 4 x 8 x 8 points; point t = (b * 8 + bi) * 8 + bj has batch b, row tile bi, column tile bj. At a point
  the body adds to row p of its accumulator the share of column tile bj of row i = bi * 512 + p: the four input blocks
  are the tiles (b, bi, bj) and (b, bj, bi) of W and (bi, bj) and (bj, bi) of G. The accumulator starts from zero at
  column tile 0, so by recursion along the eight points of a row tile it holds, after column tile bj, zero plus the
  shares of the tiles up to bj: after the last one, the degree. That point stores the normalizer of the accumulator
  into rows bi * 512 ... bi * 512 + 511 of batch b, and the 32 blocks so written back cover the array.
-/
import proofs.«150832_j3959959847448_2_alg».proof.Proof.Region1a
import proofs.«150832_j3959959847448_2_alg».proof.Proof.Blocks1
import proofs.«150832_j3959959847448_2_alg».proof.Proof.Payloads
import proofs.«150832_j3959959847448_2_alg».proof.Proof.Spec2

set_option maxRecDepth 16384

noncomputable section

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blk1

variable (Wv : Dev nD → Valuation τ sig (Elt Ideal))

/-! ## The accumulator at an index -/

/-- W and the gate matrix as the region finds them, as curried functions. -/
abbrev Wf (c : Dev nD) : Cert.Spec.W3 := fun b i j => (Hand.Vat Wv c main_arg1 : S4x4096x4096.Idx → EReal) (ix3 b i j)
abbrev Gf (c : Dev nD) : Cert.Spec.G2 := fun i j => (Hand.Vat Wv c main_v0 : S4096x4096.Idx → EReal) (ix2 i j)

/-- One point's step of the accumulator at row `p`: what was there plus the column tile's share of the row. -/
theorem step_at (c : Dev nD) (t : Fin cfg1.N) (b : Fin 4) (bi bj : Fin 8) (ht : t.val = (b.val * 8 + bi.val) * 8 + bj.val)
    (s : Vec Ideal S512x1 .f32) (p : Fin 512) :
    Hand.degStep (Hand.iblk1 Wv c 0 t) (Hand.iblk1 Wv c 1 t) (Hand.iblk1 Wv c 2 t) (Hand.iblk1 Wv c 3 t) s (ix2 p (0 : Fin 1))
      = s (ix2 p (0 : Fin 1)) + Cert.Spec.tileG (Wf Wv c) (Gf Wv c) (fun _ => Cert.Spec.one) b (Cert.Spec.col bi p) bj := by
  unfold Hand.degStep
  refine (Pay.deg_step_pay _ _ _ _ s p).trans ?_
  unfold Cert.Spec.tileG
  refine congrArg (s (ix2 p (0 : Fin 1)) + ·) (congrArg (Cert.Spec.half * ·) ?_)
  refine congrArg₂ (fun a b : EReal => a + b) (Finset.sum_congr rfl fun q _ => ?_) (Finset.sum_congr rfl fun q _ => ?_)
  · rw [blk1_0 Wv c t b bi bj ht p q, blk1_2 Wv c t b bi bj ht p q]
  · rw [blk1_1 Wv c t b bi bj ht q p, blk1_3 Wv c t b bi bj ht q p]

/-- Column tile `k`'s share of row `i` of batch `b` against the all-ones vector, for any natural `k` (nothing past the
    eighth tile). -/
def tileN (c : Dev nD) (b : Fin 4) (i : Fin 4096) (k : ℕ) : EReal :=
  if h : k < 8 then Cert.Spec.tileG (Wf Wv c) (Gf Wv c) (fun _ => Cert.Spec.one) b i ⟨k, h⟩ else 0

/-- THE ACCUMULATOR ALONG A ROW TILE: after the point with column tile `bj` of row tile `bi` of batch `b`, row `p` of
    the accumulator is zero plus the shares of the column tiles up to `bj`. -/
theorem acc_at (c : Dev nD) (b : Fin 4) (bi : Fin 8) (p : Fin 512) :
    ∀ (bj : ℕ) (hbj : bj < 8) (n : ℕ) (hn : n < cfg1.N), n = (b.val * 8 + bi.val) * 8 + bj →
      Hand.acc1 Wv c n hn (ix2 p (0 : Fin 1))
        = Cert.Spec.zero + ∑ k ∈ Finset.range (bj + 1), tileN Wv c b (Cert.Spec.col bi p) k
  | 0, _, n, hn, e => by
    have h8 : (⟨n, hn⟩ : Fin cfg1.N).val % 8 = 0 := by show n % 8 = 0; omega
    refine (congrFun (Hand.acc1_first Wv c ⟨n, hn⟩ h8) _).trans ?_
    refine (step_at Wv c ⟨n, hn⟩ b bi ⟨0, by decide⟩ e _ p).trans ?_
    rw [Pay.deg_init_pay, Finset.sum_range_one, tileN, dif_pos (by decide)]
  | bj + 1, hbj, n, hn, e => by
    have h8 : (⟨n, hn⟩ : Fin cfg1.N).val % 8 ≠ 0 := by show n % 8 ≠ 0; omega
    refine (congrFun (Hand.acc1_step Wv c ⟨n, hn⟩ h8) _).trans ?_
    refine (step_at Wv c ⟨n, hn⟩ b bi ⟨bj + 1, hbj⟩ e _ p).trans ?_
    show Hand.acc1 Wv c (n - 1) _ (ix2 p (0 : Fin 1)) + _ = _
    rw [acc_at c b bi p bj (by omega) (n - 1) _ (by omega), Finset.sum_range_succ _ (bj + 1), add_assoc]
    refine congrArg (Cert.Spec.zero + ·) (congrArg (_ + ·) ?_)
    rw [tileN, dif_pos hbj]

/-- At the last column tile the accumulator holds the degree. -/
theorem acc_last (c : Dev nD) (b : Fin 4) (bi : Fin 8) (p : Fin 512) (n : ℕ) (hn : n < cfg1.N)
    (e : n = (b.val * 8 + bi.val) * 8 + 7) :
    Hand.acc1 Wv c n hn (ix2 p (0 : Fin 1)) = Cert.Spec.degG (Wf Wv c) (Gf Wv c) b (Cert.Spec.col bi p) := by
  rw [acc_at Wv c b bi p 7 (by decide) n hn e]
  unfold Cert.Spec.degG
  show Cert.Spec.zero + ∑ k ∈ Finset.range 8, tileN Wv c b (Cert.Spec.col bi p) k = _
  refine congrArg (Cert.Spec.zero + ·) ?_
  rw [← Fin.sum_univ_eq_sum_range (fun k => tileN Wv c b (Cert.Spec.col bi p) k) 8]
  refine Finset.sum_congr rfl fun k _ => ?_
  rw [tileN, dif_pos k.isLt]

/-! ## What is written back, and the array -/

/-- The normalizer array as one function of W and the gate matrix as the region finds them. -/
def dArr (c : Dev nD) : S4x4096x1.Idx → EReal := fun i =>
  Cert.Spec.dG (Wf Wv c) (Gf Wv c) ⟨(i 0).val, (i 0).isLt⟩ ⟨(i 1).val, (i 1).isLt⟩

/-- The stored block at any index of its shape, the row read off the index. -/
theorem final_at (s : Vec Ideal S512x1 .f32) (y : S1x512x1.Idx) :
    k1_pay3 (F := Ideal) s y
      = Ideal.rsqrt (max (s (ix2 (⟨(y 1).val, (y 1).isLt⟩ : Fin 512) (0 : Fin 1))) Cert.Spec.eps) := by
  obtain ⟨a, p, z, rfl⟩ : ∃ (a : Fin 1) (p : Fin 512) (z : Fin 1), y = ix3 a p z := ⟨y 0, y 1, y 2, eq_ix3 y⟩
  obtain rfl : a = 0 := Subsingleton.elim _ _
  obtain rfl : z = 0 := Subsingleton.elim _ _
  exact Pay.deg_final_pay s p

/-- WHAT A POINT AT THE LAST COLUMN TILE WRITES BACK is its block of the normalizer array. -/
theorem flushed_eq (c : Dev nD) (t : Fin cfg1.N) (ht : t.val % 8 = 7) :
    (Hand.dat1 Wv c).flushed 4 t = ((cfg1.win 4).blk t).view.read (Elt Ideal) (dArr Wv c) := by
  show (cfg1.win 4).cut (grid1.coords t) ((Hand.dat1 Wv c).after 4 t) = _
  rw [Hand.after1_4]
  obtain ⟨-, -, -, -, ⟨e0, e1, e2⟩⟩ := idx_facts1 t
  have hN : t.val < 256 := t.isLt.trans_eq N_1
  funext j
  rw [View.read_apply]
  show k1_pay3 (F := Ideal) (Hand.acc1 Wv c t.val t.isLt) j = dArr Wv c (((cfg1.win 4).blk t).view.emb j)
  refine (final_at _ j).trans ?_
  rw [acc_last Wv c ⟨t.val / 64, by omega⟩ ⟨t.val / 8 % 8, by omega⟩ ⟨(j 1).val, (j 1).isLt⟩ t.val t.isLt
    (by show t.val = (t.val / 64 * 8 + t.val / 8 % 8) * 8 + 7; omega)]
  unfold dArr Cert.Spec.dG
  refine congrArg (fun d => Ideal.rsqrt (max d Cert.Spec.eps)) ?_
  have hj0 : (j 0).val < 1 := (j 0).isLt
  refine congrArg₂ (Cert.Spec.degG (Wf Wv c) (Gf Wv c)) (Fin.ext ?_) (Fin.ext ?_)
  · show t.val / 64 = win1_4.index t (0 : Fin 3) * 1 + 1 * (j 0).val
    omega
  · show t.val / 8 % 8 * 512 + (j 1).val = win1_4.index t (1 : Fin 3) * 512 + 1 * (j 1).val
    omega

/-- THE NORMALIZER ARRAY AFTER THE REGION: every block written back is its block of the one function, and the blocks
    written back cover the array. -/
theorem deg_array_fn (c : Dev nD) : (Hand.dat1 Wv c).arrAt 4 cfg1.N = dArr Wv c :=
  (Hand.dat1 Wv c).arrAt_eq_of_cover 4 (dArr Wv c) (fun t ht => flushed_eq Wv c t ((flush1_4 t).mp ht)) covered1_4

/-- The same index by index. -/
theorem deg_array (c : Dev nD) (b : Fin 4) (i : Fin 4096) :
    ((Hand.dat1 Wv c).arrAt 4 cfg1.N : S4x4096x1.Idx → EReal) (ix3 b i (0 : Fin 1))
      = Cert.Spec.dG (fun b i j => (Hand.Vat Wv c main_arg1 : S4x4096x4096.Idx → EReal) (ix3 b i j))
          (fun i j => (Hand.Vat Wv c main_v0 : S4096x4096.Idx → EReal) (ix2 i j)) b i := by
  rw [deg_array_fn]
  rfl

end Cert.KernelIdeal.Val1

end
-- ==== Proof.Blocks2.lean ====
/-
  Region 2, the product kernel: what each input window's block holds, as entries of its array, and where the output
  window's blocks sit.

  The grid has 4 x 8 x 8 points; point t = (b * 8 + bi) * 8 + bj has batch b, row tile bi, column tile bj. Windows 0 and 1
  hold tiles (b, bi, bj) and (b, bj, bi) of W; windows 2 and 3 tiles (bi, bj) and (bj, bi) of the gate matrix; window 4
  the features of column tile bj of batch b; windows 5 and 6 the normalizers of row tile bi and of column tile bj of
  batch b; the output window's block is rows bi * 512 ... bi * 512 + 511 of batch b of the result, written back at the
  last column tile.
-/
import proofs.«150832_j3959959847448_2_alg».proof.Proof.Region2a
import proofs.«150832_j3959959847448_2_alg».proof.Proof.Spec
import Idealize.ShloMosaic.Lib.ValueIdx
import Idealize.ShloMosaic.Lib.Pipeline.Value

set_option maxRecDepth 16384

noncomputable section

namespace Cert.KernelIdeal.Blk2

open Idealize.ShloMosaic Idealize.ShloMosaic.TcCoe Idealize.SL.Sem Idealize.ShloMosaic.ValueIdx
open Idealize.ShloMosaic.Pipeline (Dat)
open Cert.KernelIdeal Cert.KernelIdeal.Gen
open Cert.Spec (col)

variable {F : FTy → Type} [FloatOps F]

/-- The printed index maps in closed form, decided over the grid: the point's batch is `t / 64`, its row tile
    `t / 8 % 8`, its column tile `t % 8`. -/
theorem idx_facts2 : ∀ t : Fin cfg2.N,
    (win2_0.index t (0 : Fin 3) = t.val / 64 ∧ win2_0.index t (1 : Fin 3) = t.val / 8 % 8 ∧ win2_0.index t (2 : Fin 3) = t.val % 8)
    ∧ (win2_1.index t (0 : Fin 3) = t.val / 64 ∧ win2_1.index t (1 : Fin 3) = t.val % 8 ∧ win2_1.index t (2 : Fin 3) = t.val / 8 % 8)
    ∧ (win2_2.index t (0 : Fin 2) = t.val / 8 % 8 ∧ win2_2.index t (1 : Fin 2) = t.val % 8)
    ∧ (win2_3.index t (0 : Fin 2) = t.val % 8 ∧ win2_3.index t (1 : Fin 2) = t.val / 8 % 8)
    ∧ (win2_4.index t (0 : Fin 3) = t.val / 64 ∧ win2_4.index t (1 : Fin 3) = t.val % 8 ∧ win2_4.index t (2 : Fin 3) = 0)
    ∧ (win2_5.index t (0 : Fin 3) = t.val / 64 ∧ win2_5.index t (1 : Fin 3) = t.val / 8 % 8 ∧ win2_5.index t (2 : Fin 3) = 0)
    ∧ (win2_6.index t (0 : Fin 3) = t.val / 64 ∧ win2_6.index t (1 : Fin 3) = t.val % 8 ∧ win2_6.index t (2 : Fin 3) = 0)
    ∧ (win2_7.index t (0 : Fin 3) = t.val / 64 ∧ win2_7.index t (1 : Fin 3) = t.val / 8 % 8 ∧ win2_7.index t (2 : Fin 3) = 0) :=
  (by decide +kernel : ∀ t : Fin grid2.N, _)

/-- Every point is some `(b, bi, bj)`. -/
theorem pt2 (t : Fin cfg2.N) : ∃ (b : Fin 4) (bi bj : Fin 8), t.val = (b.val * 8 + bi.val) * 8 + bj.val := by
  have hN : t.val < 256 := lt_of_lt_of_eq t.isLt N_2
  exact ⟨⟨t.val / 64, by omega⟩, ⟨t.val / 8 % 8, by omega⟩, ⟨t.val % 8, by omega⟩, by show t.val = (t.val / 64 * 8 + t.val / 8 % 8) * 8 + t.val % 8; omega⟩

section Reads

variable (Wv : Dev nD → Valuation τ sig (Elt F)) (c : Dev nD) (t : Fin cfg2.N) (b : Fin 4) (bi bj : Fin 8)
  (ht : t.val = (b.val * 8 + bi.val) * 8 + bj.val)
include ht

/-- Window 0: the direct tile of W. -/
theorem blk2_0 (p q : Fin 512) :
    (Hand.iblk2 Wv c 0 t : Vec F S1x512x512 .f32) (ix3 (0 : Fin 1) p q)
      = (Hand.Vat Wv c main_arg1 : S4x4096x4096.Idx → Elt F .f32) (ix3 b (col bi p) (col bj q)) := by
  obtain ⟨⟨e0, e1, e2⟩, -, -, -, -, -, -, -⟩ := idx_facts2 t
  unfold Hand.iblk2
  rw [View.read_apply]
  show (Hand.Vat Wv c main_arg1 : S4x4096x4096.Idx → Elt F .f32) (((cfg2.win 0).blk t).view.emb (ix3 (0 : Fin 1) p q)) = _
  refine congrArg _ (funext fun a => Fin.ext ?_)
  match a with
  | ⟨0, _⟩ => show win2_0.index t (0 : Fin 3) * 1 + 1 * 0 = b.val; omega
  | ⟨1, _⟩ => show win2_0.index t (1 : Fin 3) * 512 + 1 * p.val = bi.val * 512 + p.val; omega
  | ⟨2, _⟩ => show win2_0.index t (2 : Fin 3) * 512 + 1 * q.val = bj.val * 512 + q.val; omega

/-- Window 1: the tile of W whose transpose the kernel uses, `(b, bj, bi)`. -/
theorem blk2_1 (p q : Fin 512) :
    (Hand.iblk2 Wv c 1 t : Vec F S1x512x512 .f32) (ix3 (0 : Fin 1) p q)
      = (Hand.Vat Wv c main_arg1 : S4x4096x4096.Idx → Elt F .f32) (ix3 b (col bj p) (col bi q)) := by
  obtain ⟨-, ⟨e0, e1, e2⟩, -, -, -, -, -, -⟩ := idx_facts2 t
  unfold Hand.iblk2
  rw [View.read_apply]
  show (Hand.Vat Wv c main_arg1 : S4x4096x4096.Idx → Elt F .f32) (((cfg2.win 1).blk t).view.emb (ix3 (0 : Fin 1) p q)) = _
  refine congrArg _ (funext fun a => Fin.ext ?_)
  match a with
  | ⟨0, _⟩ => show win2_1.index t (0 : Fin 3) * 1 + 1 * 0 = b.val; omega
  | ⟨1, _⟩ => show win2_1.index t (1 : Fin 3) * 512 + 1 * p.val = bj.val * 512 + p.val; omega
  | ⟨2, _⟩ => show win2_1.index t (2 : Fin 3) * 512 + 1 * q.val = bi.val * 512 + q.val; omega

/-- Window 2: tile `(bi, bj)` of the gate matrix. -/
theorem blk2_2 (p q : Fin 512) :
    (Hand.iblk2 Wv c 2 t : Vec F S512x512 .bf16) (ix2 p q)
      = (Hand.Vat Wv c main_v0 : S4096x4096.Idx → Elt F .bf16) (ix2 (col bi p) (col bj q)) := by
  obtain ⟨-, -, ⟨e0, e1⟩, -, -, -, -, -⟩ := idx_facts2 t
  unfold Hand.iblk2
  rw [View.read_apply]
  show (Hand.Vat Wv c main_v0 : S4096x4096.Idx → Elt F .bf16) (((cfg2.win 2).blk t).view.emb (ix2 p q)) = _
  refine congrArg _ (funext fun a => Fin.ext ?_)
  match a with
  | ⟨0, _⟩ => show win2_2.index t (0 : Fin 2) * 512 + 1 * p.val = bi.val * 512 + p.val; omega
  | ⟨1, _⟩ => show win2_2.index t (1 : Fin 2) * 512 + 1 * q.val = bj.val * 512 + q.val; omega

/-- Window 3: tile `(bj, bi)` of the gate matrix. -/
theorem blk2_3 (p q : Fin 512) :
    (Hand.iblk2 Wv c 3 t : Vec F S512x512 .bf16) (ix2 p q)
      = (Hand.Vat Wv c main_v0 : S4096x4096.Idx → Elt F .bf16) (ix2 (col bj p) (col bi q)) := by
  obtain ⟨-, -, -, ⟨e0, e1⟩, -, -, -, -⟩ := idx_facts2 t
  unfold Hand.iblk2
  rw [View.read_apply]
  show (Hand.Vat Wv c main_v0 : S4096x4096.Idx → Elt F .bf16) (((cfg2.win 3).blk t).view.emb (ix2 p q)) = _
  refine congrArg _ (funext fun a => Fin.ext ?_)
  match a with
  | ⟨0, _⟩ => show win2_3.index t (0 : Fin 2) * 512 + 1 * p.val = bj.val * 512 + p.val; omega
  | ⟨1, _⟩ => show win2_3.index t (1 : Fin 2) * 512 + 1 * q.val = bi.val * 512 + q.val; omega

/-- Window 4: the features of column tile `bj` of batch `b`. -/
theorem blk2_4 (q : Fin 512) (e : Fin 64) :
    (Hand.iblk2 Wv c 4 t : Vec F S1x512x64 .f32) (ix3 (0 : Fin 1) q e)
      = (Hand.Vat Wv c main_arg0 : S4x4096x64.Idx → Elt F .f32) (ix3 b (col bj q) e) := by
  obtain ⟨-, -, -, -, ⟨e0, e1, e2⟩, -, -, -⟩ := idx_facts2 t
  unfold Hand.iblk2
  rw [View.read_apply]
  show (Hand.Vat Wv c main_arg0 : S4x4096x64.Idx → Elt F .f32) (((cfg2.win 4).blk t).view.emb (ix3 (0 : Fin 1) q e)) = _
  refine congrArg _ (funext fun a => Fin.ext ?_)
  match a with
  | ⟨0, _⟩ => show win2_4.index t (0 : Fin 3) * 1 + 1 * 0 = b.val; omega
  | ⟨1, _⟩ => show win2_4.index t (1 : Fin 3) * 512 + 1 * q.val = bj.val * 512 + q.val; omega
  | ⟨2, _⟩ => show win2_4.index t (2 : Fin 3) * 64 + 1 * e.val = e.val; omega

/-- Window 5: the normalizers of row tile `bi` of batch `b`. -/
theorem blk2_5 (p : Fin 512) :
    (Hand.iblk2 Wv c 5 t : Vec F S1x512x1 .f32) (ix3 (0 : Fin 1) p (0 : Fin 1))
      = (Hand.Vat Wv c main_v1 : S4x4096x1.Idx → Elt F .f32) (ix3 b (col bi p) (0 : Fin 1)) := by
  obtain ⟨-, -, -, -, -, ⟨e0, e1, e2⟩, -, -⟩ := idx_facts2 t
  unfold Hand.iblk2
  rw [View.read_apply]
  show (Hand.Vat Wv c main_v1 : S4x4096x1.Idx → Elt F .f32) (((cfg2.win 5).blk t).view.emb (ix3 (0 : Fin 1) p (0 : Fin 1))) = _
  refine congrArg _ (funext fun a => Fin.ext ?_)
  match a with
  | ⟨0, _⟩ => show win2_5.index t (0 : Fin 3) * 1 + 1 * 0 = b.val; omega
  | ⟨1, _⟩ => show win2_5.index t (1 : Fin 3) * 512 + 1 * p.val = bi.val * 512 + p.val; omega
  | ⟨2, _⟩ => show win2_5.index t (2 : Fin 3) * 1 + 1 * 0 = 0; omega

/-- Window 6: the normalizers of column tile `bj` of batch `b`. -/
theorem blk2_6 (q : Fin 512) :
    (Hand.iblk2 Wv c 6 t : Vec F S1x512x1 .f32) (ix3 (0 : Fin 1) q (0 : Fin 1))
      = (Hand.Vat Wv c main_v1 : S4x4096x1.Idx → Elt F .f32) (ix3 b (col bj q) (0 : Fin 1)) := by
  obtain ⟨-, -, -, -, -, -, ⟨e0, e1, e2⟩, -⟩ := idx_facts2 t
  unfold Hand.iblk2
  rw [View.read_apply]
  show (Hand.Vat Wv c main_v1 : S4x4096x1.Idx → Elt F .f32) (((cfg2.win 6).blk t).view.emb (ix3 (0 : Fin 1) q (0 : Fin 1))) = _
  refine congrArg _ (funext fun a => Fin.ext ?_)
  match a with
  | ⟨0, _⟩ => show win2_6.index t (0 : Fin 3) * 1 + 1 * 0 = b.val; omega
  | ⟨1, _⟩ => show win2_6.index t (1 : Fin 3) * 512 + 1 * q.val = bj.val * 512 + q.val; omega
  | ⟨2, _⟩ => show win2_6.index t (2 : Fin 3) * 1 + 1 * 0 = 0; omega

/-- The output window's block index at the point: `(b, bi, 0)`. -/
theorem out2_at : win2_7.index t = ![b.val, bi.val, 0] := by
  obtain ⟨-, -, -, -, -, -, -, ⟨e0, e1, e2⟩⟩ := idx_facts2 t
  funext a
  match a with
  | ⟨0, _⟩ => show win2_7.index t (0 : Fin 3) = b.val; omega
  | ⟨1, _⟩ => show win2_7.index t (1 : Fin 3) = bi.val; omega
  | ⟨2, _⟩ => show win2_7.index t (2 : Fin 3) = 0; omega

end Reads

/-- An index of the result array is in point `t`'s block iff each coordinate is in the block's range on its axis. -/
theorem mem_blk2_7 (t : Fin cfg2.N) (i : S4x4096x64.Idx) :
    i ∈ ((cfg2.win 7).blk t).view.set
      ↔ ∀ a : Fin 3, win2_7.index t a * S1x512x64.size a ≤ (i a).val ∧ (i a).val < win2_7.index t a * S1x512x64.size a + S1x512x64.size a := by
  show i ∈ ((View.whole main_v2).slice (win2_7.rect t)).set ↔ _
  rw [View.set_slice_whole, Rect.mem_set_unit]
  exact Iff.rfl

/-- Every block `(b, bi)` of the result array is written back by the point at that row's last column tile. -/
theorem out2_idx (b : Fin 4) (bi : Fin 8) :
    ∃ t : Fin cfg2.N, t.val = (b.val * 8 + bi.val) * 8 + 7 ∧ (cfg2.win 7).flush t = true ∧ win2_7.index t = ![b.val, bi.val, 0] := by
  have hlt : (b.val * 8 + bi.val) * 8 + 7 < cfg2.N := by
    show _ < grid2.N
    rw [N_2]; omega
  refine ⟨⟨(b.val * 8 + bi.val) * 8 + 7, hlt⟩, rfl, (flush2_7 _).mpr (by show ((b.val * 8 + bi.val) * 8 + 7) % 8 = 7; omega), ?_⟩
  exact out2_at (t := ⟨(b.val * 8 + bi.val) * 8 + 7, hlt⟩) b bi (7 : Fin 8) rfl

/-- THE OUTPUT'S BLOCKS COVER THE RESULT ARRAY: index `(b, n, e)` is in the block written back at the last column tile of
    row tile `n / 512` of batch `b`. -/
theorem covered2_7 (i : S4x4096x64.Idx) :
    ∃ t : Fin cfg2.N, (cfg2.win 7).flush t = true ∧ i ∈ ((cfg2.win 7).blk t).view.set := by
  have hi0 : (i 0).val < 4 := (i 0).isLt
  have hi1 : (i 1).val < 4096 := (i 1).isLt
  have hi2 : (i 2).val < 64 := (i 2).isLt
  obtain ⟨t, -, hf, hx⟩ := out2_idx ⟨(i 0).val, hi0⟩ ⟨(i 1).val / 512, by omega⟩
  have q0 : win2_7.index t (0 : Fin 3) = (i 0).val := congrFun hx 0
  have q1 : win2_7.index t (1 : Fin 3) = (i 1).val / 512 := congrFun hx 1
  have q2 : win2_7.index t (2 : Fin 3) = 0 := congrFun hx 2
  refine ⟨t, hf, ?_⟩
  rw [mem_blk2_7]
  intro a
  match a with
  | ⟨0, _⟩ =>
    show win2_7.index t (0 : Fin 3) * 1 ≤ (i 0).val ∧ (i 0).val < win2_7.index t (0 : Fin 3) * 1 + 1
    omega
  | ⟨1, _⟩ =>
    show win2_7.index t (1 : Fin 3) * 512 ≤ (i 1).val ∧ (i 1).val < win2_7.index t (1 : Fin 3) * 512 + 512
    omega
  | ⟨2, _⟩ =>
    show win2_7.index t (2 : Fin 3) * 64 ≤ (i 2).val ∧ (i 2).val < win2_7.index t (2 : Fin 3) * 64 + 64
    omega

end Cert.KernelIdeal.Blk2

end
-- ==== Proof.Value2.lean ====
/-
  Region 2 from blocks to the array: after the coupling kernel's region the output buffer holds, at (b, i, e), the row's
  normalizer times the sum over the eight column tiles of the tile's share of row i against the scaled features,
  accumulated from zero.

  The grid has 4 x 8 x 8 points, t = (b * 8 + bi) * 8 + bj (batch, row tile, column tile). Along the eight points of one
  row tile the accumulator gains, at (p, e), the share of column tile bj for the node i = bi * 512 + p: after the point
  with column tile bj it is  zero + sum_{j <= bj} share j.  At bj = 7 the output block (b, bi) receives the normalizer of
  node i times the accumulator. The 32 output blocks cover the array.
-/
import proofs.«150832_j3959959847448_2_alg».proof.Proof.Region2a
import proofs.«150832_j3959959847448_2_alg».proof.Proof.Blocks2
import proofs.«150832_j3959959847448_2_alg».proof.Proof.Payloads
import proofs.«150832_j3959959847448_2_alg».proof.Proof.Spec2

set_option maxRecDepth 16384

noncomputable section

namespace Cert.KernelIdeal.Val2

open Idealize.ShloMosaic Idealize.ShloMosaic.TcCoe Idealize.SL.Sem Idealize.ShloMosaic.ValueIdx
open Idealize.ShloMosaic.Pipeline (Dat)
open Cert.KernelIdeal Cert.KernelIdeal.Gen
open Cert.Spec (col half zero tileG mixG X3 W3 G2 D2)

/-! ## One point's share at an index -/

/-- ONE POINT. With the six input blocks of the point (batch b, row tile bi, column tile bj) read off arrays x W G D —
    the direct W block at rows of tile bi and columns of tile bj, the transposed-source one at rows of bj and columns of
    bi, the gate tiles likewise, the features and the normalizer at the nodes of tile bj —, the accumulator after the
    point is, at (p, e), what it was plus the tile's share of row  bi * 512 + p  against  D b j * x b j e. -/
theorem step_at (x : X3) (W : W3) (G : G2) (D : D2)
    (x0 x1 : Vec Ideal S1x512x512 .f32) (x2 x3 : Vec Ideal S512x512 .bf16) (x4 : Vec Ideal S1x512x64 .f32)
    (x6 : Vec Ideal S1x512x1 .f32) (b : Fin 4) (bi bj : Fin 8)
    (h0 : ∀ p q : Fin 512, x0 (ix3 (0 : Fin 1) p q) = W b (col bi p) (col bj q))
    (h1 : ∀ p q : Fin 512, x1 (ix3 (0 : Fin 1) p q) = W b (col bj p) (col bi q))
    (h2 : ∀ p q : Fin 512, x2 (ix2 p q) = G (col bi p) (col bj q))
    (h3 : ∀ p q : Fin 512, x3 (ix2 p q) = G (col bj p) (col bi q))
    (h4 : ∀ (q : Fin 512) (e : Fin 64), x4 (ix3 (0 : Fin 1) q e) = x b (col bj q) e)
    (h6 : ∀ q : Fin 512, x6 (ix3 (0 : Fin 1) q (0 : Fin 1)) = D b (col bj q))
    (s : Vec Ideal S512x64 .f32) (p : Fin 512) (e : Fin 64) :
    Hand.mmStep (F := Ideal) x0 x1 x2 x3 x4 x6 s (ix2 p e)
      = s (ix2 p e) + tileG W G (fun j => D b j * x b j e) b (col bi p) bj := by
  unfold Hand.mmStep
  rw [Pay.mm_keep_pay]
  refine (Pay.mm_step_pay x2 x3 x0 x1 x6 x4 s p e).trans ?_
  unfold tileG
  refine congrArg (s (ix2 p e) + ·) (congrArg (half * ·) ?_)
  refine congrArg₂ (fun a b : EReal => a + b) (Finset.sum_congr rfl fun q _ => ?_) (Finset.sum_congr rfl fun q _ => ?_)
  · rw [h0, h2, h6, h4]
  · rw [h1, h3, h6, h4]

/-! ## The arrays as the region finds them -/

section Arrays
variable (Wv : Dev nD → Valuation τ sig (Elt Ideal))

/-- The features, W, the gate matrix and the normalizer as the region finds them, as curried functions. -/
abbrev xA (c : Dev nD) : X3 := fun b j e => (Hand.Vat Wv c main_arg0 : S4x4096x64.Idx → EReal) (ix3 b j e)
abbrev WA (c : Dev nD) : W3 := fun b i j => (Hand.Vat Wv c main_arg1 : S4x4096x4096.Idx → EReal) (ix3 b i j)
abbrev GA (c : Dev nD) : G2 := fun i j => (Hand.Vat Wv c main_v0 : S4096x4096.Idx → EReal) (ix2 i j)
abbrev DA (c : Dev nD) : D2 := fun b j => (Hand.Vat Wv c main_v1 : S4x4096x1.Idx → EReal) (ix3 b j (0 : Fin 1))

/-- The seven input blocks of point t are the blocks of batch b, row tile bi, column tile bj of those arrays. -/
def ReadsAt (c : Dev nD) (t : Fin cfg2.N) (b : Fin 4) (bi bj : Fin 8) : Prop :=
  (∀ p q : Fin 512, (Hand.iblk2 Wv c 0 t : Vec Ideal S1x512x512 .f32) (ix3 (0 : Fin 1) p q) = WA Wv c b (col bi p) (col bj q))
  ∧ (∀ p q : Fin 512, (Hand.iblk2 Wv c 1 t : Vec Ideal S1x512x512 .f32) (ix3 (0 : Fin 1) p q) = WA Wv c b (col bj p) (col bi q))
  ∧ (∀ p q : Fin 512, (Hand.iblk2 Wv c 2 t : Vec Ideal S512x512 .bf16) (ix2 p q) = GA Wv c (col bi p) (col bj q))
  ∧ (∀ p q : Fin 512, (Hand.iblk2 Wv c 3 t : Vec Ideal S512x512 .bf16) (ix2 p q) = GA Wv c (col bj p) (col bi q))
  ∧ (∀ (q : Fin 512) (e : Fin 64), (Hand.iblk2 Wv c 4 t : Vec Ideal S1x512x64 .f32) (ix3 (0 : Fin 1) q e) = xA Wv c b (col bj q) e)
  ∧ (∀ p : Fin 512, (Hand.iblk2 Wv c 5 t : Vec Ideal S1x512x1 .f32) (ix3 (0 : Fin 1) p (0 : Fin 1)) = DA Wv c b (col bi p))
  ∧ (∀ q : Fin 512, (Hand.iblk2 Wv c 6 t : Vec Ideal S1x512x1 .f32) (ix3 (0 : Fin 1) q (0 : Fin 1)) = DA Wv c b (col bj q))

/-- Column tile j's share of row i of batch b at channel e, as a function of a natural number (zero from 8 on). -/
def shareN (c : Dev nD) (b : Fin 4) (i : Fin 4096) (e : Fin 64) (j : ℕ) : EReal :=
  if h : j < 8 then tileG (WA Wv c) (GA Wv c) (fun k => DA Wv c b k * xA Wv c b k e) b i ⟨j, h⟩ else 0

theorem shareN_lt (c : Dev nD) (b : Fin 4) (i : Fin 4096) (e : Fin 64) (j : ℕ) (h : j < 8) :
    shareN Wv c b i e j = tileG (WA Wv c) (GA Wv c) (fun k => DA Wv c b k * xA Wv c b k e) b i ⟨j, h⟩ := dif_pos h

/-- The accumulation at a later point of a row, in successor form. -/
theorem acc_succ (c : Dev nD) (n : ℕ) (hn : n + 1 < cfg2.N) (hmod : (n + 1) % 8 ≠ 0) :
    Hand.acc2 (F := Ideal) Wv c (n + 1) hn
      = Hand.mmStep (Hand.iblk2 Wv c 0 ⟨n + 1, hn⟩) (Hand.iblk2 Wv c 1 ⟨n + 1, hn⟩) (Hand.iblk2 Wv c 2 ⟨n + 1, hn⟩)
          (Hand.iblk2 Wv c 3 ⟨n + 1, hn⟩) (Hand.iblk2 Wv c 4 ⟨n + 1, hn⟩) (Hand.iblk2 Wv c 6 ⟨n + 1, hn⟩)
          (Hand.acc2 Wv c n (Nat.lt_of_succ_lt hn)) :=
  Hand.acc2_step Wv c ⟨n + 1, hn⟩ hmod

/-- THE ACCUMULATOR AT AN INDEX along the eight points of one row tile, which start at a position n0 ≡ 0 (mod 8): after
    the point with column tile k it holds, at (p, e), zero plus the shares of the column tiles up to k of the node
    bi * 512 + p. By induction on k: the first point resets, every later one adds its share. -/
theorem acc_run (c : Dev nD) (b : Fin 4) (bi : Fin 8) (n0 : ℕ) (hn0 : n0 % 8 = 0)
    (H : ∀ (t : Fin cfg2.N) (j : Fin 8), t.val = n0 + j.val → ReadsAt Wv c t b bi j) (p : Fin 512) (e : Fin 64) :
    ∀ (k : ℕ) (hk : k < 8) (h : n0 + k < cfg2.N),
      Hand.acc2 (F := Ideal) Wv c (n0 + k) h (ix2 p e)
        = zero + ∑ j ∈ Finset.range (k + 1), shareN Wv c b (col bi p) e j := by
  intro k
  induction k with
  | zero =>
    intro hk h
    obtain ⟨r0, r1, r2, r3, r4, r5, r6⟩ := H ⟨n0 + 0, h⟩ ⟨0, hk⟩ rfl
    refine (congrFun (Hand.acc2_first Wv c ⟨n0 + 0, h⟩ (by show (n0 + 0) % 8 = 0; omega)) (ix2 p e)).trans ?_
    refine (step_at (xA Wv c) (WA Wv c) (GA Wv c) (DA Wv c) _ _ _ _ _ _ b bi ⟨0, hk⟩ r0 r1 r2 r3 r4 r6 _ p e).trans ?_
    rw [Pay.mm_init_pay, Finset.sum_range_one, shareN_lt Wv c b (col bi p) e 0 hk]
  | succ k ih =>
    intro hk h
    have hk' : k < 8 := by omega
    have hn : n0 + k + 1 < cfg2.N := h
    have h' : n0 + k < cfg2.N := Nat.lt_of_succ_lt hn
    obtain ⟨r0, r1, r2, r3, r4, r5, r6⟩ := H ⟨n0 + k + 1, hn⟩ ⟨k + 1, hk⟩ (by show n0 + k + 1 = n0 + (k + 1); omega)
    refine (congrFun (acc_succ Wv c (n0 + k) hn (by omega)) (ix2 p e)).trans ?_
    refine (step_at (xA Wv c) (WA Wv c) (GA Wv c) (DA Wv c) _ _ _ _ _ _ b bi ⟨k + 1, hk⟩ r0 r1 r2 r3 r4 r6 _ p e).trans ?_
    rw [ih hk' h', Finset.sum_range_succ _ (k + 1), ← add_assoc, shareN_lt Wv c b (col bi p) e (k + 1) hk]

end Arrays

/-! ## From the flushed blocks to the array -/

section Array
variable (Wv : Dev nD → Valuation τ sig (Elt Ideal))

/-- The coupled features before the final scale as one function of the output's index. -/
def mixArr (c : Dev nD) : S4x4096x64.Idx → EReal := fun i =>
  mixG (xA Wv c) (WA Wv c) (GA Wv c) (DA Wv c) ⟨(i 0).val, (i 0).isLt⟩ ⟨(i 1).val, (i 1).isLt⟩ ⟨(i 2).val, (i 2).isLt⟩

/-- EVERY POINT'S INPUT BLOCKS are the blocks of its batch, row tile and column tile: what the rest of this section
    assumes of the windows' index maps. -/
def AllReads (c : Dev nD) : Prop :=
  ∀ (t : Fin cfg2.N) (b : Fin 4) (bi bj : Fin 8), t.val = (b.val * 8 + bi.val) * 8 + bj.val → ReadsAt Wv c t b bi bj

/-- The output window's printed index map, decided over the grid: batch, row tile, channel tile 0. -/
theorem out_idx : ∀ t : Fin cfg2.N,
    win2_7.index t (0 : Fin 3) = t.val / 64 ∧ win2_7.index t (1 : Fin 3) = t.val / 8 % 8 ∧ win2_7.index t (2 : Fin 3) = 0 :=
  (by decide +kernel : ∀ t : Fin grid2.N, _)

/-- The eight shares as the sum over the column tiles. -/
theorem sum_shares (c : Dev nD) (b : Fin 4) (i : Fin 4096) (e : Fin 64) :
    ∑ j ∈ Finset.range 8, shareN Wv c b i e j
      = ∑ bj : Fin 8, tileG (WA Wv c) (GA Wv c) (fun k => DA Wv c b k * xA Wv c b k e) b i bj := by
  rw [← Fin.sum_univ_eq_sum_range]
  exact Finset.sum_congr rfl fun j _ => shareN_lt Wv c b i e j.val j.isLt

/-- The accumulation does not depend on how its position is spelt. -/
theorem acc_congr (c : Dev nD) {n m : ℕ} (h : n = m) (hn : n < cfg2.N) (hm : m < cfg2.N) :
    Hand.acc2 (F := Ideal) Wv c n hn = Hand.acc2 Wv c m hm := by
  subst h; rfl

/-- Where element (0, p, e) of the output block of point t sits in the array: batch t / 64, node (t / 8 % 8) * 512 + p,
    channel e. -/
theorem emb_out (t : Fin cfg2.N) (hb : t.val / 64 < 4) (hbi : t.val / 8 % 8 < 8) (p : Fin 512) (e : Fin 64) :
    ((cfg2.win 7).blk t).view.emb (ix3 (0 : Fin 1) p e) = ix3 (⟨t.val / 64, hb⟩ : Fin 4) (col ⟨t.val / 8 % 8, hbi⟩ p) e := by
  obtain ⟨e0, e1, e2⟩ := out_idx t
  refine funext fun a => Fin.ext ?_
  match a with
  | ⟨0, _⟩ => show win2_7.index t (0 : Fin 3) * 1 + 1 * (0 : ℕ) = t.val / 64; omega
  | ⟨1, _⟩ => show win2_7.index t (1 : Fin 3) * 512 + 1 * p.val = t.val / 8 % 8 * 512 + p.val; omega
  | ⟨2, _⟩ => show win2_7.index t (2 : Fin 3) * 64 + 1 * e.val = e.val; omega

/-- WHAT A FLUSHING POINT WRITES BACK is its block of the array function. -/
theorem flushed_eq (c : Dev nD) (HR : AllReads Wv c) (t : Fin cfg2.N) (hfl : (cfg2.win 7).flush t = true) :
    (Hand.dat2 Wv c).flushed 7 t = ((cfg2.win 7).blk t).view.read (Elt Ideal) (mixArr Wv c) := by
  have h7 : t.val % 8 = 7 := (flush2_7 t).mp hfl
  have ht : t.val < 256 := lt_of_lt_of_eq t.isLt N_2
  have hb : t.val / 64 < 4 := by omega
  have hbi : t.val / 8 % 8 < 8 := by omega
  have htn : t.val = ((⟨t.val / 64, hb⟩ : Fin 4).val * 8 + (⟨t.val / 8 % 8, hbi⟩ : Fin 8).val) * 8 + (7 : Fin 8).val := by
    show t.val = (t.val / 64 * 8 + t.val / 8 % 8) * 8 + 7; omega
  show (cfg2.win 7).cut (grid2.coords t) ((Hand.dat2 Wv c).after 7 t) = _
  rw [Hand.after2_7]
  funext j
  rw [View.read_apply]
  obtain ⟨j0, p, e, rfl⟩ : ∃ (j0 : Fin 1) (p : Fin 512) (e : Fin 64), j = ix3 j0 p e := ⟨j 0, j 1, j 2, eq_ix3 j⟩
  obtain rfl : j0 = 0 := Subsingleton.elim _ _
  show k2_pay2 (F := Ideal) (Hand.iblk2 Wv c 5 t) (Hand.acc2 Wv c t.val t.isLt) (ix3 (0 : Fin 1) p e)
    = mixArr Wv c (((cfg2.win 7).blk t).view.emb (ix3 (0 : Fin 1) p e))
  rw [emb_out t hb hbi p e]
  refine (Pay.mm_final_pay _ _ p e).trans ?_
  obtain ⟨r0, r1, r2, r3, r4, r5, r6⟩ := HR t ⟨t.val / 64, hb⟩ ⟨t.val / 8 % 8, hbi⟩ 7 htn
  have hacc := acc_run Wv c ⟨t.val / 64, hb⟩ ⟨t.val / 8 % 8, hbi⟩ (t.val - 7) (by omega)
    (fun t' j ht' => HR t' ⟨t.val / 64, hb⟩ ⟨t.val / 8 % 8, hbi⟩ j (by
      show t'.val = (t.val / 64 * 8 + t.val / 8 % 8) * 8 + j.val; omega)) p e 7 (by omega)
    (by have := t.isLt; omega)
  rw [r5 p, acc_congr Wv c (show t.val = t.val - 7 + 7 by omega) t.isLt (by have := t.isLt; omega), hacc, sum_shares]
  rfl

/-- An index of the array is in point t's block iff each coordinate is in the block's range on its axis. -/
theorem mem_blk (t : Fin cfg2.N) (i : S4x4096x64.Idx) :
    i ∈ ((cfg2.win 7).blk t).view.set
      ↔ ∀ a : Fin 3, win2_7.index t a * S1x512x64.size a ≤ (i a).val ∧ (i a).val < win2_7.index t a * S1x512x64.size a + S1x512x64.size a := by
  show i ∈ ((View.whole main_v2).slice (win2_7.rect t)).set ↔ _
  rw [View.set_slice_whole, Rect.mem_set_unit]
  exact Iff.rfl

/-- THE BLOCKS COVER THE ARRAY: (b, i, e) is in the block of the last point of batch b and row tile i / 512. -/
theorem covered (i : S4x4096x64.Idx) :
    ∃ t : Fin cfg2.N, (cfg2.win 7).flush t = true ∧ i ∈ ((cfg2.win 7).blk t).view.set := by
  have hi0 : (i 0).val < 4 := (i 0).isLt
  have hi1 : (i 1).val < 4096 := (i 1).isLt
  have hi2 : (i 2).val < 64 := (i 2).isLt
  have hlt : ((i 0).val * 8 + (i 1).val / 512) * 8 + 7 < cfg2.N := lt_of_lt_of_eq (by omega) N_2.symm
  obtain ⟨e0, e1, e2⟩ := out_idx ⟨((i 0).val * 8 + (i 1).val / 512) * 8 + 7, hlt⟩
  refine ⟨⟨((i 0).val * 8 + (i 1).val / 512) * 8 + 7, hlt⟩, (flush2_7 _).mpr (by show (((i 0).val * 8 + (i 1).val / 512) * 8 + 7) % 8 = 7; omega), ?_⟩
  rw [mem_blk]
  intro a
  match a with
  | ⟨0, _⟩ =>
    show win2_7.index ⟨((i 0).val * 8 + (i 1).val / 512) * 8 + 7, hlt⟩ (0 : Fin 3) * 1 ≤ (i 0).val
      ∧ (i 0).val < win2_7.index ⟨((i 0).val * 8 + (i 1).val / 512) * 8 + 7, hlt⟩ (0 : Fin 3) * 1 + 1
    rw [e0]; show (((i 0).val * 8 + (i 1).val / 512) * 8 + 7) / 64 * 1 ≤ _ ∧ _ < (((i 0).val * 8 + (i 1).val / 512) * 8 + 7) / 64 * 1 + 1; omega
  | ⟨1, _⟩ =>
    show win2_7.index ⟨((i 0).val * 8 + (i 1).val / 512) * 8 + 7, hlt⟩ (1 : Fin 3) * 512 ≤ (i 1).val
      ∧ (i 1).val < win2_7.index ⟨((i 0).val * 8 + (i 1).val / 512) * 8 + 7, hlt⟩ (1 : Fin 3) * 512 + 512
    rw [e1]; show (((i 0).val * 8 + (i 1).val / 512) * 8 + 7) / 8 % 8 * 512 ≤ _ ∧ _ < (((i 0).val * 8 + (i 1).val / 512) * 8 + 7) / 8 % 8 * 512 + 512; omega
  | ⟨2, _⟩ =>
    show win2_7.index ⟨((i 0).val * 8 + (i 1).val / 512) * 8 + 7, hlt⟩ (2 : Fin 3) * 64 ≤ (i 2).val
      ∧ (i 2).val < win2_7.index ⟨((i 0).val * 8 + (i 1).val / 512) * 8 + 7, hlt⟩ (2 : Fin 3) * 64 + 64
    rw [e2]; omega

/-- THE OUTPUT ARRAY AFTER THE REGION, as a function. -/
theorem mix_array_fn (c : Dev nD) (HR : AllReads Wv c) : (Hand.dat2 Wv c).arrAt 7 cfg2.N = mixArr Wv c :=
  (Hand.dat2 Wv c).arrAt_eq_of_cover 7 (mixArr Wv c) (fun t hfl => flushed_eq Wv c HR t hfl) covered

/-- The same index by index. -/
theorem mix_array_of (c : Dev nD) (HR : AllReads Wv c) (b : Fin 4) (i : Fin 4096) (e : Fin 64) :
    ((Hand.dat2 Wv c).arrAt 7 cfg2.N : S4x4096x64.Idx → EReal) (ix3 b i e)
      = mixG (xA Wv c) (WA Wv c) (GA Wv c) (DA Wv c) b i e := by
  rw [mix_array_fn Wv c HR]
  rfl

end Array

/-! ## The windows' blocks, and the array -/

section Final
variable (Wv : Dev nD → Valuation τ sig (Elt Ideal))

/-- Every point's input blocks are the blocks of its batch, row tile and column tile. -/
theorem allReads (c : Dev nD) : AllReads Wv c := fun t b bi bj ht =>
  ⟨Blk2.blk2_0 Wv c t b bi bj ht, Blk2.blk2_1 Wv c t b bi bj ht, Blk2.blk2_2 Wv c t b bi bj ht, Blk2.blk2_3 Wv c t b bi bj ht,
    Blk2.blk2_4 Wv c t b bi bj ht, Blk2.blk2_5 Wv c t b bi bj ht, Blk2.blk2_6 Wv c t b bi bj ht⟩

/-- THE COUPLED FEATURES AFTER THE REGION: at (b, i, e) the output buffer holds the normalizer of node i times the sum,
    from zero, of the eight column tiles' shares of row i against the scaled features — over the features, W, the gate
    matrix and the normalizer array as the region finds them. -/
theorem mix_array (c : Dev nD) (b : Fin 4) (i : Fin 4096) (e : Fin 64) :
    ((Hand.dat2 Wv c).arrAt 7 cfg2.N : S4x4096x64.Idx → EReal) (ix3 b i e)
      = Cert.Spec.mixG (fun b j e => (Hand.Vat Wv c main_arg0 : S4x4096x64.Idx → EReal) (ix3 b j e))
          (fun b i j => (Hand.Vat Wv c main_arg1 : S4x4096x4096.Idx → EReal) (ix3 b i j))
          (fun i j => (Hand.Vat Wv c main_v0 : S4096x4096.Idx → EReal) (ix2 i j))
          (fun b j => (Hand.Vat Wv c main_v1 : S4x4096x1.Idx → EReal) (ix3 b j (0 : Fin 1))) b i e :=
  mix_array_of Wv c (allReads Wv c) b i e

end Final

end Cert.KernelIdeal.Val2

end
-- ==== Proof.Bridge.lean ====
/-
  What the kernel program's result buffer holds at the end, as a function of the launch contents of the four arguments.
  Region by region: the gate matrix is the logistic of U Uᵀ; the normalizers are max(deg, eps)^(-1/2) of W and that gate;
  the coupled features are the tiled, accumulated product of the gated, symmetrized W with the normalized x, scaled by the
  row's normalizer; the last host operation multiplies by the scalar argument. No region writes an argument, so each
  region finds the arguments as launched.
-/
import proofs.«150832_j3959959847448_2_alg».proof.Proof.Assemble
import proofs.«150832_j3959959847448_2_alg».proof.Proof.Value0
import proofs.«150832_j3959959847448_2_alg».proof.Proof.Value1
import proofs.«150832_j3959959847448_2_alg».proof.Proof.Value2
import proofs.«150832_j3959959847448_2_alg».proof.Proof.Spec2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Bridge

open Idealize.ShloMosaic.ValueIdx (ix0 ix2 ix3 eq_ix3)

variable (m : (ℓ : Loc nD τ sig) → Buf (Elt Ideal) ℓ)

/-- The four argument arrays of core `c` at launch, as curried functions of their coordinates. -/
abbrev xsK (c : Dev nD) : Cert.Spec.X3 := fun b j e => (m ((c : Thread nD τ).loc main_arg0) : S4x4096x64.Idx → EReal) (ix3 b j e)
abbrev WsK (c : Dev nD) : Cert.Spec.W3 := fun b i j => (m ((c : Thread nD τ).loc main_arg1) : S4x4096x4096.Idx → EReal) (ix3 b i j)
abbrev UsK (c : Dev nD) : Cert.Spec.U2 := fun i r => (m ((c : Thread nD τ).loc main_arg2) : S4096x16.Idx → EReal) (ix2 i r)
abbrev sK (c : Dev nD) : EReal := (m ((c : Thread nD τ).loc main_arg3) : S_.Idx → EReal) ix0

/-- No region writes an argument: at every boundary an argument's buffer holds its launch contents. -/
theorem Wv1_keep (c : Dev nD) (r : Ref sig .tc) (h0 : r ≠ main_v0) : Vat (Wv1 m) c r = m ((c : Thread nD τ).loc r) :=
  Wnext0_of_ne (Wv0 m) c r h0
theorem Wv2_keep (c : Dev nD) (r : Ref sig .tc) (h0 : r ≠ main_v0) (h1 : r ≠ main_v1) : Vat (Wv2 m) c r = m ((c : Thread nD τ).loc r) :=
  (Wnext1_of_ne (Wv1 m) c r h1).trans (Wv1_keep m c r h0)

/-- After the first region the gate matrix holds the gate of U. -/
theorem Wv1_gate (c : Dev nD) (a b : Fin 4096) :
    (Vat (Wv1 m) c main_v0 : S4096x4096.Idx → EReal) (ix2 a b) = Cert.Spec.gateK (UsK m c) a b := by
  have h : Vat (Wv1 m) c main_v0 = (dat0 (Wv0 m) c).arrAt 2 cfg0.N := Wnext0_v0 (Wv0 m) c
  rw [h]; exact Cert.KernelIdeal.Val.gate_array (Wv0 m) c a b
theorem Wv2_gate (c : Dev nD) (a b : Fin 4096) :
    (Vat (Wv2 m) c main_v0 : S4096x4096.Idx → EReal) (ix2 a b) = Cert.Spec.gateK (UsK m c) a b := by
  have h : Vat (Wv2 m) c main_v0 = Vat (Wv1 m) c main_v0 := Wnext1_of_ne (Wv1 m) c main_v0 (by decide)
  rw [h]; exact Wv1_gate m c a b

/-- After the second region the normalizer array holds `max(deg, eps)^(-1/2)` of W and the gate of U. -/
theorem Wv2_norm (c : Dev nD) (b : Fin 4) (i : Fin 4096) :
    (Vat (Wv2 m) c main_v1 : S4x4096x1.Idx → EReal) (ix3 b i 0) = Cert.Spec.dK (WsK m c) (UsK m c) b i := by
  have h : Vat (Wv2 m) c main_v1 = (dat1 (Wv1 m) c).arrAt 4 cfg1.N := Wnext1_v1 (Wv1 m) c
  rw [h, Cert.KernelIdeal.Val1.deg_array (Wv1 m) c b i, Cert.Spec.dK_eq_dG]
  refine congrArg₂ (fun W G => Cert.Spec.dG W G b i) ?_ ?_
  · funext b' i' j'; rw [Wv1_keep m c main_arg1 (by decide)]
  · funext i' j'; exact Wv1_gate m c i' j'

/-- After the third region the feature array holds the coupled features before the final scale. -/
theorem Wv3_mix (c : Dev nD) (b : Fin 4) (i : Fin 4096) (e : Fin 64) :
    ((dat2 (Wv2 m) c).arrAt 7 cfg2.N : S4x4096x64.Idx → EReal) (ix3 b i e)
      = Cert.Spec.mixG (xsK m c) (WsK m c) (Cert.Spec.gateK (UsK m c)) (Cert.Spec.dK (WsK m c) (UsK m c)) b i e := by
  rw [Cert.KernelIdeal.Val2.mix_array (Wv2 m) c b i e]
  have hx : (fun b j e => (Vat (Wv2 m) c main_arg0 : S4x4096x64.Idx → EReal) (ix3 b j e)) = xsK m c := by
    funext b' j' e'; rw [Wv2_keep m c main_arg0 (by decide) (by decide)]
  have hW : (fun b i j => (Vat (Wv2 m) c main_arg1 : S4x4096x4096.Idx → EReal) (ix3 b i j)) = WsK m c := by
    funext b' i' j'; rw [Wv2_keep m c main_arg1 (by decide) (by decide)]
  have hG : (fun i j => (Vat (Wv2 m) c main_v0 : S4096x4096.Idx → EReal) (ix2 i j)) = Cert.Spec.gateK (UsK m c) := by
    funext i' j'; exact Wv2_gate m c i' j'
  have hD : (fun b j => (Vat (Wv2 m) c main_v1 : S4x4096x1.Idx → EReal) (ix3 b j 0)) = Cert.Spec.dK (WsK m c) (UsK m c) := by
    funext b' j'; exact Wv2_norm m c b' j'
  rw [hx, hW, hG, hD]

/-- THE KERNEL'S RESULT at an index: the last host operation scales the coupled features by the scalar argument. -/
theorem result_value (c : Dev nD) (b : Fin 4) (i : Fin 4096) (e : Fin 64) :
    (Gen.V4 m (outs m) c main_v4 : S4x4096x64.Idx → EReal) (ix3 b i e)
      = Cert.Spec.outK (xsK m c) (WsK m c) (UsK m c) (sK m c) b i e := by
  rw [V4_main_v4 m (outs m) c, outs_v2, Cert.Spec.outK_eq_mixG, ← Wv3_mix m c b i e]
  show FloatOps.mulf _ _ = _
  rw [Ideal.mulf_def]
  refine congrArg₂ (· * ·) rfl ?_
  exact Idealize.ShloMosaic.broadcastInDim_apply _ bcast_S_S4x4096x64 _ (ix3 b i e) ix0 (fun a => a.elim0)

end Bridge

end Cert.KernelIdeal.Hand

end
-- ==== Proof.BFrameBase.lean ====
/-
  What the three regions' frame modules share: the resource algebra, the state that rides beside the unscoped buffers
  between the items of the program (the generator register at some state, the core owing nothing), and the family of
  the three pipelines' proof data as a literal match on the pipeline's number.
-/
import proofs.«150832_j3959959847448_2_alg».proof.Proof.Gen.Kernel.Launch
import proofs.«150832_j3959959847448_2_alg».proof.Proof.Gen.Kernel.Skeleton
import proofs.«150832_j3959959847448_2_alg».proof.Proof.Gen.Kernel.Points
import proofs.«150832_j3959959847448_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The resource algebra every region's proof data lives in. -/
abbrev MM (F : FTy → Type) : Type _ := MT nD τ sig Unit (Elt F) ℕ (UR sig nD τ) ℕ

abbrev VV : Variants := Variants.none
/-- No core owes another anything: no level is assigned. -/
abbrev LL : GSem nD τ sig → Finset Unit := fun _ => ∅
abbrev lvv : GSem nD τ sig → Unit → ℕ := fun _ _ => 0

/-- What rides beside the unscoped buffers through every item: the generator register at some state and the core's
    `owes`, at nothing. -/
abbrev RR (c : Dev nD) : sProp (MM F) :=
  iprop((∃ r, prngReg c r) ∗ ∃ W, owes (c : Thread nD τ) (0 : CellTallies nD τ sig Unit) W)

/-- One pipeline's proof data on every core. -/
abbrev DatOf (F : FTy → Type) [FloatOps F] (cfg : Pipeline.Cfg sig Λ₀) : Type _ :=
  (c : Dev nD) → Dat τ (Elt F) Unit ℕ (UR sig nD τ) ℕ cfg c

/-- The three pipelines' proof data as one family: a literal match, so that at a numeral it reduces to the
    pipeline's own. -/
def pdatsOf (d0 : DatOf F cfg0) (d1 : DatOf F cfg1) (d2 : DatOf F cfg2) :
    (p : Fin 3) → (c : Dev nD) → Dat τ (Elt F) Unit ℕ (UR sig nD τ) ℕ (cfgs p) c
  | ⟨0, _⟩ => d0
  | ⟨1, _⟩ => d1
  | ⟨2, _⟩ => d2

/-- A region's segment record over that family. -/
abbrev RegOf (d0 : DatOf F cfg0) (d1 : DatOf F cfg1) (d2 : DatOf F cfg2) (p : Fin 3) : Type _ :=
  Pipeline.RegionSeg (pcfgs (F := F)) adm (pdatsOf d0 d1 d2) () defs₀ VV LL lvv p

end Cert.Kernel.Hand

end
-- ==== Proof.BFrameChain.lean ====
/-
  The unscoped buffers of a core one by one, and the core's `owes` at nothing as a pipeline point's.
-/
import proofs.«150832_j3959959847448_2_alg».proof.Proof.BFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- One whole buffer of core `c` held outright at contents `f`. -/
abbrev ptw (c : Dev nD) (b : Ref sig .tc) (f : Buf (Elt F) ((c : Thread nD τ).loc b)) : sProp (MM F) :=
  ((c : Thread nD τ).loc b) ↦{fullShare} f

/-- The program has nine unscoped buffers: its four arguments, the three regions' results and the two host results. -/
theorem held_uc_eq (c : Dev nD) (W : Valuation τ sig (Elt F)) :
    (StableHlo.held (c : Thread nD τ) (Pipeline.ucRefs τ sig) W : sProp (MM F))
      = iprop(ptw c main_arg0 (W main_arg0) ∗ ptw c main_arg1 (W main_arg1) ∗ ptw c main_arg2 (W main_arg2) ∗ ptw c main_arg3 (W main_arg3)
          ∗ ptw c main_v0 (W main_v0) ∗ ptw c main_v1 (W main_v1) ∗ ptw c main_v2 (W main_v2) ∗ ptw c main_v3 (W main_v3) ∗ ptw c main_v4 (W main_v4)) := by
  unfold StableHlo.held
  rw [bigSep_eq_bigSepL_of_eq [Proc.devRef .tc main_arg0, Proc.devRef .tc main_arg1, Proc.devRef .tc main_arg2, Proc.devRef .tc main_arg3,
    Proc.devRef .tc main_v0, Proc.devRef .tc main_v1, Proc.devRef .tc main_v2, Proc.devRef .tc main_v3, Proc.devRef .tc main_v4] (by decide) (by decide)]
  rfl

/-- The core's `owes` at nothing is a pipeline point's, for proof data that owes nothing there and bounds its recorded
    pairs by nothing; and back. -/
theorem owesAt_intro {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp (MM F)) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ (UR sig nD τ) ℕ cfg c) (t : Fin (cfg.N + 1))
    (h0 : dat.owed t = 0) :
    (dat.owesAt () t : sProp (MM F)) ⊢ iprop(∃ W, owes (c : Thread nD τ) (0 : CellTallies nD τ sig Unit) W) := by
  unfold Pipeline.Dat.owesAt Pipeline.owesWithin; rw [h0]
  iintro ⟨%W, -, HO⟩; iexists W; iexact HO

/-- A whole buffer held outright is held at the two halves of the full share, and back. -/
theorem ptw_halves (c : Dev nD) (b : Ref sig .tc) (f : Buf (Elt F) ((c : Thread nD τ).loc b)) :
    (ptw c b f : sProp (MM F)) ⊣⊢ iprop((((c : Thread nD τ).loc b) ↦{fullShare.left} f) ∗ (((c : Thread nD τ).loc b) ↦{fullShare.right} f)) :=
  pointsTo_share (PosShare.mem_left_op_right fullShare)

end Cert.Kernel.Hand

end
-- ==== Proof.BBody0.lean ====
/-
  The gate kernel's body on whole staging buffers: it loads its two 512x16 operand blocks, and stores ONE 512x512 tile
  through the whole zero-offset rectangle, so the tile it leaves is the store's payload at the operands.
-/
import proofs.«150832_j3959959847448_2_alg».proof.Proof.BFrameBase
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The zero offsets of a rank-2 access, as the constant function. -/
theorem zeros2 : (![0, 0] : Fin 2 → ℕ) = fun _ => 0 := by funext a; fin_cases a <;> rfl

/-- The whole 512x16 rectangle the gate kernel loads its operands through. -/
abbrev rOp : Rect S512x16 := Rect.unit (s := S512x16) ![0, 0] S512x16.size inb_S512x16_S512x16_0_0
/-- The whole 512x512 rectangle it stores its tile through. -/
abbrev rTile : Rect S512x512 := Rect.unit (s := S512x512) ![0, 0] S512x512.size inb_S512x512_S512x512_0_0

/-- The tile's staging buffer after the body, from the two operand blocks: its one store as a piece. -/
def gateOut (x0 x1 : Vec F S512x16 .f32) : Vec F S512x512 .bf16 :=
  View.canon [⟨rTile, k0_pay1 (View.ld x0 rOp) (View.ld x1 rOp)⟩]

/-- The store is through the whole rectangle and so are the loads: the tile is the payload at the operand blocks. -/
theorem gateOut_eq (x0 x1 : Vec F S512x16 .f32) : gateOut x0 x1 = k0_pay1 x0 x1 := by
  unfold gateOut
  rw [View.canon_unit_zero (S := S512x512) zeros2]
  simp only [View.ld_unit_zero (S := S512x16) zeros2]

/-- The one store covers the buffer. -/
theorem coverGate (p0 : Vec F S512x512 .bf16) (y : S512x512.Idx) :
    ∃ pc ∈ ([⟨rTile, p0⟩] : List (View.Piece (Elt F) S512x512 .bf16)), y ∈ pc.1.set :=
  ⟨_, List.mem_singleton_self _, View.mem_set_unit_zero (S := S512x512) zeros2 inb_S512x512_S512x512_0_0 y⟩

set_option maxHeartbeats 1000000 in
/-- The gate kernel's body on whole staging memrefs, the operands' at read contents and the tile's at anything, runs to
    the continuation holding the operands' as they were and the tile's at `gateOut` of them. -/
theorem sound_gate (c : Dev nD) (E : Set ℕ) (i : grid0.Coords) (arg2 : Memref sig .tc .vmem S512x16 .f32) (harg2 : arg2.IsWhole)
    (arg3 : Memref sig .tc .vmem S512x16 .f32) (harg3 : arg3.IsWhole) (arg4 : Memref sig .tc .vmem S512x512 .bf16) (harg4 : arg4.IsWhole)
    (x0 x1 : Vec F S512x16 .f32) (K : PUnit → sProp (MM F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
              ∗ owns (c : Thread nD τ) arg4 fullShare (gateOut x0 x1)) -∗ K ⟨⟩))
      ⊢ wp frame (wpE (defs₀ (F := F)) Variants.none c none) E (cc0__gate_kernel i arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverGate _)

end Cert.Kernel.Hand

end
-- ==== Proof.BRegion0.lean ====
/-
  Region 0, the gate kernel, as a segment of the program. Its grid has 8 x 8 points (bi, bj); windows 0 and 1 read the
  row tiles bi and bj of the one array U (so both sit on the same buffer and each holds half of its share), window 2
  writes tile (bi, bj) of the gate matrix. After the body at a point the two input windows hold their blocks and the
  output window holds the body's payload of those two blocks.
-/
import proofs.«150832_j3959959847448_2_alg».proof.Proof.BFrameChain
import proofs.«150832_j3959959847448_2_alg».proof.Proof.BBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region0

-- what each core's buffers hold when the region is entered
variable (Wv : Dev nD → Valuation τ sig (Elt F))

/-- The same read at a TensorCore reference. -/
abbrev Vat (c : Dev nD) (b : Ref sig .tc) : Buf (Elt F) ((c : Thread nD τ).loc b) := Wv c b

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vat Wv c (Pipeline.arrRef spec0 w))

/-- The proof data: arrays as found; inputs left in place, the output at the gate payload; the two windows on U hold the
    two halves of its share; nothing owed; the invariant is the scoped rest and the generator register, untouched. -/
def dat0 (c : Dev nD) : Dat τ (Elt F) Unit ℕ (UR sig nD τ) ℕ cfg0 c where
  A w := Vat Wv c (Pipeline.arrRef spec0 w)
  after w t := match w with
    | ⟨0, _⟩ => iblk0 Wv c 0 t
    | ⟨1, _⟩ => iblk0 Wv c 1 t
    | ⟨2, _⟩ => gateOut (iblk0 Wv c 0 t) (iblk0 Wv c 1 t)
  Φ _ := Pipeline.ΦA spec0 c
  q w := match w with
    | ⟨0, _⟩ => fullShare.left
    | ⟨1, _⟩ => fullShare.right
    | ⟨2, _⟩ => fullShare
  owed _ := 0

theorem A0_eq (c : Dev nD) (w : Fin cfg0.W) : (dat0 Wv c).A w = Vat Wv c (Pipeline.arrRef spec0 w) := by dsimp only [dat0]
theorem after0_0 (c : Dev nD) (t : Fin cfg0.N) : (dat0 Wv c).after 0 t = iblk0 Wv c 0 t := by dsimp only [dat0]
theorem after0_1 (c : Dev nD) (t : Fin cfg0.N) : (dat0 Wv c).after 1 t = iblk0 Wv c 1 t := by dsimp only [dat0]
theorem after0_2 (c : Dev nD) (t : Fin cfg0.N) : (dat0 Wv c).after 2 t = gateOut (iblk0 Wv c 0 t) (iblk0 Wv c 1 t) := by dsimp only [dat0]

/-- An input window the body leaves in place holds its block at every point, refetched there or not: when it is not
    refetched its block index has not moved. -/
theorem before0_0 (c : Dev nD) (t : Fin cfg0.N) (d) : (dat0 Wv c).before 0 t d = iblk0 Wv c 0 t := by
  have h := (dat0 Wv c).before_in_eq_fetched 0 rfl (fun _ => rfl) (fun _ _ _ => rfl)
    (fun t => by rw [after0_0]; unfold Dat.blockOf iblk0; rw [A0_eq]; try rfl) t d
  rw [h]; unfold Dat.fetched Dat.blockOf iblk0; rw [A0_eq]; try rfl
theorem before0_1 (c : Dev nD) (t : Fin cfg0.N) (d) : (dat0 Wv c).before 1 t d = iblk0 Wv c 1 t := by
  have h := (dat0 Wv c).before_in_eq_fetched 1 rfl (fun _ => rfl) (fun _ _ _ => rfl)
    (fun t => by rw [after0_1]; unfold Dat.blockOf iblk0; rw [A0_eq]; try rfl) t d
  rw [h]; unfold Dat.fetched Dat.blockOf iblk0; rw [A0_eq]; try rfl

/-- The body at any point: the two input buffers hold their blocks, so the gate kernel's run applies; the invariant and
    the core's `owes` pass through unread. -/
theorem sound_body0 (c : Dev nD) (t : Fin cfg0.N) :
    iprop((dat0 Wv c).Φ t.castSucc ∗ (dat0 Wv c).owesAt () t.castSucc
        ∗ (∃ d, owns (c : Thread nD τ) (st0_0 t) fullShare ((dat0 Wv c).before 0 t d))
        ∗ (∃ d, owns (c : Thread nD τ) (st0_1 t) fullShare ((dat0 Wv c).before 1 t d))
        ∗ (∃ d, owns (c : Thread nD τ) (st0_2 t) fullShare ((dat0 Wv c).before 2 t d)))
      ⊢ wp frame (wpE (defs₀ (F := F)) Variants.none c none) Set.univ (bodyAt0 t) (fun _ =>
        iprop((dat0 Wv c).Φ t.succ ∗ (dat0 Wv c).owesAt () t.succ
          ∗ owns (c : Thread nD τ) (st0_0 t) fullShare ((dat0 Wv c).after 0 t)
          ∗ owns (c : Thread nD τ) (st0_1 t) fullShare ((dat0 Wv c).after 1 t)
          ∗ owns (c : Thread nD τ) (st0_2 t) fullShare ((dat0 Wv c).after 2 t))) := by
  unfold bodyAt0
  simp only [before0_0, before0_1]
  rw [show (dat0 Wv c).Φ t.succ = (dat0 Wv c).Φ t.castSucc from rfl,
    show (dat0 Wv c).owesAt () t.succ = (dat0 Wv c).owesAt () t.castSucc from rfl,
    after0_0, after0_1, after0_2]
  iintro ⟨HΦ, Ho, ⟨%d0, H0⟩, ⟨%d1, H1⟩, ⟨%d2, H2⟩⟩
  iapply (sound_gate c Set.univ _ _ _ _ _ _ _ (iblk0 Wv c 0 t) (iblk0 Wv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) Wv c) (defs₀ (F := F)) Variants.none () Set.univ := fun t => by
  rw [bigSep_W0, bigSep_W0]
  exact sound_body0 Wv c t

end Region0

section Seg0

variable (Wv : Dev nD → Valuation τ sig (Elt F)) (d1 : DatOf F cfg1) (d2 : DatOf F cfg2)

/-- What core `c`'s buffers hold when the region is left: the gate matrix's buffer at what the write-backs leave, every
    other buffer as entered. -/
def Wnext0 (c : Dev nD) : Valuation τ sig (Elt F) :=
  Function.update (Wv c) (Proc.devRef .tc main_v0) ((dat0 Wv c).arrAt 2 cfg0.N)

theorem Wnext0_v0 (c : Dev nD) : Wnext0 Wv c main_v0 = (dat0 Wv c).arrAt 2 cfg0.N := Function.update_self ..
theorem Wnext0_of_ne (c : Dev nD) (b : Ref sig .tc) (h : b ≠ main_v0) : Wnext0 Wv c b = Wv c b :=
  Function.update_of_ne (StableHlo.devRef_ne_of_ne h) ..

/-- The pipeline's arrays window by window: U's buffer at its two halves, the gate matrix's outright. -/
theorem arrays0_eq (c : Dev nD) (Fa : (w : Fin cfg0.W) → Buf (Elt F) ((cfg0.win w).arr.view.loc (c : Thread nD τ))) :
    ((dat0 Wv c).arrays Fa : sProp (MM F))
      = iprop((((c : Thread nD τ).loc main_arg2) ↦{fullShare.left} Fa 0) ∗ (((c : Thread nD τ).loc main_arg2) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

set_option backward.isDefEq.respectTransparency.types false in
/-- Region 0 over the thread state "every unscoped buffer at its contents, the generator register at some state, nothing
    owed": U's buffer is split in two halves for the two windows on it at entry and joined again at exit, where the gate
    matrix's buffer comes back at what the write-backs left. -/
def reg0 : RegOf (dat0 Wv) d1 d2 0 where
  win := winFacts₀0
  block_pos := block_pos0
  stage_whole := stage_whole0
  K := PEmpty
  osem k := k.elim
  ho := Pipeline.OwnSemFacts.none _
  hbody c := (body_obligation0 Wv c).loose
  hwaits := Pipeline.hwaits_of_owed_zero _ _ _ _ LL lvv 0 fun _ _ => rfl
  pre c := iprop(StableHlo.held (c : Thread nD τ) (Pipeline.ucRefs τ sig) (Wv c) ∗ RR c)
  post c := iprop(StableHlo.held (c : Thread nD τ) (Pipeline.ucRefs τ sig) (Wnext0 Wv c) ∗ RR c)
  X c := iprop(∃ r, prngReg c r)
  Y c := iprop(∃ r, prngReg c r)
  Z c := iprop(ptw c main_arg0 (Wv c main_arg0) ∗ ptw c main_arg1 (Wv c main_arg1) ∗ ptw c main_arg3 (Wv c main_arg3)
    ∗ ptw c main_v1 (Wv c main_v1) ∗ ptw c main_v2 (Wv c main_v2) ∗ ptw c main_v3 (Wv c main_v3) ∗ ptw c main_v4 (Wv c main_v4))
  hentry c := by
    rw [Pipeline.ownSems0_none, held_uc_eq]
    show _ ⊢ |={Set.univ}=> iprop((dat0 Wv c).arrays ((dat0 Wv c).arrAt · 0) ∗ _ ∗ (dat0 Wv c).owesAt () 0 ∗ _ ∗ _)
    rw [arrays0_eq]
    iintro ⟨⟨⟨H0, H1, H2, H3, Hv0, Hv1, Hv2, Hv3, Hv4⟩, Hp, HO⟩, -, -⟩
    ihave H2' := (ptw_halves c main_arg2 (Wv c main_arg2)).1 $$ [H2]
    · iexact H2
    icases H2' with ⟨H2a, H2b⟩
    imodintro
    isplitl [H2a H2b Hv0]
    · isplitl [H2a]; · iexact H2a
      isplitl [H2b]; · iexact H2b
      iexact Hv0
    isplitr; · unfold Pipeline.prefHeld; rw [show (Finset.univ : Finset (Fin 0)) = ∅ from rfl, BI.bigSep_empty]; iempintro
    isplitl [HO]; · iapply (owesAt_intro (dat0 Wv c) 0 rfl rfl); iexact HO
    isplitl [Hp]; · iexact Hp
    isplitl [H0]; · iexact H0
    isplitl [H1]; · iexact H1
    isplitl [H3]; · iexact H3
    isplitl [Hv1]; · iexact Hv1
    isplitl [Hv2]; · iexact Hv2
    isplitl [Hv3]; · iexact Hv3
    iexact Hv4
  hin c := by
    show _ ⊢ Pipeline.ΦA spec0 c
    unfold Pipeline.ΦA
    iintro ⟨Hp, -, Hr⟩
    isplitl [Hr]; · iexact Hr
    iexact Hp
  hout c := by
    rw [Pipeline.ownSems0_none]
    show Pipeline.ΦA spec0 c ⊢ _
    unfold Pipeline.ΦA
    iintro ⟨Hr, Hp⟩
    isplitl [Hp]; · iexact Hp
    isplitr; · iempintro
    iexact Hr
  hexit c := by
    show iprop((dat0 Wv c).arrays ((dat0 Wv c).arrAt · cfg0.N) ∗ (dat0 Wv c).owesAt () (Fin.last cfg0.N) ∗ _ ∗ _) ⊢ _
    rw [arrays0_eq, held_uc_eq, Wnext0_v0, Wnext0_of_ne Wv c main_arg0 (by decide), Wnext0_of_ne Wv c main_arg1 (by decide),
      Wnext0_of_ne Wv c main_arg2 (by decide), Wnext0_of_ne Wv c main_arg3 (by decide), Wnext0_of_ne Wv c main_v1 (by decide),
      Wnext0_of_ne Wv c main_v2 (by decide), Wnext0_of_ne Wv c main_v3 (by decide), Wnext0_of_ne Wv c main_v4 (by decide),
      (dat0 Wv c).arrAt_in 0 rfl, (dat0 Wv c).arrAt_in 1 rfl, A0_eq, A0_eq]
    iintro ⟨⟨H2a, H2b, Hv0⟩, HO, HY, ⟨H0, H1, H3, Hv1, Hv2, Hv3, Hv4⟩⟩
    ihave H2 := (ptw_halves c main_arg2 (Wv c main_arg2)).2 $$ [H2a H2b]
    · isplitl [H2a]; · iexact H2a
      iexact H2b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat0 Wv c) _ rfl); iexact HO

end Seg0

end Cert.Kernel.Hand

end
-- ==== Proof.BBody1A.lean ====
/-
  The degree kernel's body on whole staging buffers. The grid's last coordinate walks the eight column tiles of a row
  block: at the first the accumulator is zeroed, at every one the tile's share is added to it, at the last the normalizer
  is stored into the output window. This module: the two branch conditions decided over the grid, the accumulator's step
  as a function of the four blocks, and the run at a point that is neither first nor last.
-/
import proofs.«150832_j3959959847448_2_alg».proof.Proof.BBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The branch conditions -/

/-- The condition of the first `scf.if` (the zeroing), from the grid coordinates: the program's chain of scalar
    operations on the last coordinate. -/
abbrev cond1_0 (i : grid1.Coords) : Prop :=
  (Scalar.cmpi .ne (Scalar.extui (Scalar.cmpi .eq (BitVec.ofNat 32 (i 2).val) 0#32)) 0#32) = 1#1
/-- It holds at the points ≡ 0 (mod 8): the first column tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the second `scf.if` (the normalizer's store). -/
abbrev cond1_1 (i : grid1.Coords) : Prop := k1_cond2 i = 1#1
/-- It holds at the points ≡ 7 (mod 8): the last column tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The accesses and the accumulator's step -/

/-- The zero offsets of a rank-3 access, as the constant function. -/
theorem zeros3 : (![0, 0, 0] : Fin 3 → ℕ) = fun _ => 0 := by funext a; fin_cases a <;> rfl

/-- The whole rectangles of the W blocks, the accumulator and the output window. -/
abbrev rW : Rect S1x512x512 := Rect.unit (s := S1x512x512) ![0, 0, 0] S1x512x512.size inb_S1x512x512_S1x512x512_0_0_0
abbrev rAcc : Rect S512x1 := Rect.unit (s := S512x1) ![0, 0] S512x1.size inb_S512x1_S512x1_0_0
abbrev rDeg : Rect S1x512x1 := Rect.unit (s := S1x512x1) ![0, 0, 0] S1x512x1.size inb_S1x512x1_S1x512x1_0_0_0

/-- The accumulator after a point's store: the accumulator before it plus the tile's share, from the direct and the
    transposed W blocks `x0 x1` and the two gate tiles `x2 x3`. -/
def degStep (x0 x1 : Vec F S1x512x512 .f32) (x2 x3 : Vec F S512x512 .bf16) (s : Vec F S512x1 .f32) : Vec F S512x1 .f32 :=
  k1_pay2 x2 x3 x0 x1 s

/-- One whole-rectangle store covers the accumulator, whatever was stored before it. -/
theorem coverAcc (p0 : Vec F S512x1 .f32) (L : List (View.Piece (Elt F) S512x1 .f32)) (y : S512x1.Idx) :
    ∃ pc ∈ ((⟨rAcc, p0⟩ : View.Piece (Elt F) S512x1 .f32) :: L), y ∈ pc.1.set :=
  ⟨_, List.mem_cons_self, View.mem_set_unit_zero (S := S512x1) zeros2 inb_S512x1_S512x1_0_0 y⟩

/-- What the accumulator reads after the point's store through the whole rectangle, the payload's operands loaded
    through the whole rectangles: the step at the blocks. -/
theorem read_acc_step {κ : Kind} {sp : Space} (v : View sig κ sp S512x1 .f32) (f : v.ty.Contents (Elt F))
    (x0 x1 : Vec F S1x512x512 .f32) (x2 x3 : Vec F S512x512 .bf16) (s : Vec F S512x1 .f32)
    (L : List (View.Piece (Elt F) S512x1 .f32)) :
    v.read (Elt F) (v.writes (Elt F) f
        ((⟨rAcc, k1_pay2 (View.ld x2 rTile) (View.ld x3 rTile) (View.ld x0 rW) (View.ld x1 rW) (View.ld s rAcc)⟩ : View.Piece (Elt F) S512x1 .f32) :: L))
      = degStep x0 x1 x2 x3 s := by
  rw [View.read_writes_eq_canon _ _ _ (coverAcc _ L), View.canon_cons_unit_zero (S := S512x1) zeros2]
  simp only [View.ld_unit_zero (S := S512x512) zeros2, View.ld_unit_zero (S := S1x512x512) zeros3,
    View.ld_unit_zero (S := S512x1) zeros2]
  rfl

/-! ## The run at a middle point -/

set_option maxHeartbeats 1000000 in
/-- At a point that is neither the first nor the last column tile the body adds the tile's share to the accumulator
    and touches nothing else: the output window's buffer is handed back at the contents it came with. -/
theorem sound_deg_middle (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : ¬cond1_0 i) (hc1 : ¬cond1_1 i)
    (x0 x1 : Vec F S1x512x512 .f32) (x2 x3 : Vec F S512x512 .bf16) (xi : Vec F S1x512x1 .f32) (s : Vec F S512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi ∗ owns (c : Thread nD τ) arg8 fullShare s
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare xi
              ∗ owns (c : Thread nD τ) arg8 fullShare (degStep x0 x1 x2 x3 s)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  subst hf0; subst hf1; subst hf2; subst hf3; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  exact read_acc_step _ _ _ _ _ _ _ _

end Cert.Kernel.Hand

end
-- ==== Proof.BBody1B.lean ====
/-
  The degree kernel's run at the first column tile of a row block: the accumulator is zeroed, and the zero is what
  the accumulating load reads back.
-/
import proofs.«150832_j3959959847448_2_alg».proof.Proof.BBody1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 1000000 in
/-- At the first column tile the body zeroes the accumulator, whatever it held, and adds the tile's share to the zero;
    the output window's buffer is handed back at the contents it came with. -/
theorem sound_deg_first (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : cond1_0 i) (hc1 : ¬cond1_1 i)
    (x0 x1 : Vec F S1x512x512 .f32) (x2 x3 : Vec F S512x512 .bf16) (xi : Vec F S1x512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi ∗ (∃ s, owns (c : Thread nD τ) arg8 fullShare s)
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare xi
              ∗ owns (c : Thread nD τ) arg8 fullShare (degStep x0 x1 x2 x3 k1_pay1)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f7, %hf7, H7⟩, ⟨%s8, %f8, -, H8⟩, Hk⟩
  subst hf0; subst hf1; subst hf2; subst hf3; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  have hv : sound_deg_first.sl.v24 c arg8 = View.ld (k1_pay1 (F := F)) rAcc := by
    unfold sound_deg_first.sl.v24 sound_deg_first.sl.H8_1
    rw [View.readCov_unit_zero (S := S512x1) _ zeros2, View.ld_unit_zero (S := S512x1) zeros2]
  rw [hv]
  exact read_acc_step _ _ _ _ _ _ _ _

end Cert.Kernel.Hand

end
-- ==== Proof.BBody1C.lean ====
/-
  The degree kernel's run at the last column tile of a row block: after the tile's share is added, the accumulator is
  read back and its normalizer is stored into the output window.
-/
import proofs.«150832_j3959959847448_2_alg».proof.Proof.BBody1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- One whole-rectangle store covers the output window's buffer. -/
theorem coverDeg (p0 : Vec F S1x512x1 .f32) (y : S1x512x1.Idx) :
    ∃ pc ∈ ([⟨rDeg, p0⟩] : List (View.Piece (Elt F) S1x512x1 .f32)), y ∈ pc.1.set :=
  ⟨_, List.mem_singleton_self _, View.mem_set_unit_zero (S := S1x512x1) zeros3 inb_S1x512x1_S1x512x1_0_0_0 y⟩

/-- The step's payload at operands loaded through the whole rectangles is the step at the blocks. -/
theorem pay2_ld (x0 x1 : Vec F S1x512x512 .f32) (x2 x3 : Vec F S512x512 .bf16) (s : Vec F S512x1 .f32) :
    k1_pay2 (View.ld x2 rTile) (View.ld x3 rTile) (View.ld x0 rW) (View.ld x1 rW) (View.ld s rAcc) = degStep x0 x1 x2 x3 s := by
  simp only [View.ld_unit_zero (S := S512x512) zeros2, View.ld_unit_zero (S := S1x512x512) zeros3,
    View.ld_unit_zero (S := S512x1) zeros2]
  rfl

set_option maxHeartbeats 1000000 in
/-- At the last column tile the body adds the tile's share to the accumulator, reads the sum back and stores its
    normalizer into the output window's buffer, whatever that held. -/
theorem sound_deg_last (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x1 .f32) (harg7 : arg7.IsWhole) (arg8 : Memref sig .tc .vmem S512x1 .f32) (harg8 : arg8.IsWhole)
    (hc0 : ¬cond1_0 i) (hc1 : cond1_1 i)
    (x0 x1 : Vec F S1x512x512 .f32) (x2 x3 : Vec F S512x512 .bf16) (s : Vec F S512x1 .f32)
    (K : PUnit → sProp (MM F)) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1
              ∗ owns (c : Thread nD τ) arg5 fullShare x2 ∗ owns (c : Thread nD τ) arg6 fullShare x3
              ∗ owns (c : Thread nD τ) arg7 fullShare (k1_pay3 (degStep x0 x1 x2 x3 s))
              ∗ owns (c : Thread nD τ) arg8 fullShare (degStep x0 x1 x2 x3 s)) -∗ K ⟨⟩))
      ⊢ wp frame (wpE (defs₀ (F := F)) Variants.none c none) E
          (cc1__degree_kernel i arg3 harg3 arg4 harg4 arg5 harg5 arg6 harg6 arg7 harg7 arg8 harg8) K := by
  simp only [cc1__degree_kernel_eq_skeleton]; unfold cc1__degree_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0; subst hf1; subst hf2; subst hf3; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have hv : sound_deg_last.sl.v32 c arg3 arg4 arg5 arg6 arg8 f0 f1 f2 f3 f8
      = degStep (arg3.view.read (Elt F) f0) (arg4.view.read (Elt F) f1) (arg5.view.read (Elt F) f2) (arg6.view.read (Elt F) f3)
          (arg8.view.read (Elt F) f8) := by
    unfold sound_deg_last.sl.v32 sound_deg_last.sl.H8_1
    rw [View.readCov_unit_zero (S := S512x1) _ zeros2]
    exact pay2_ld _ _ _ _ _
  isplitl [H7]
  · iexists _; isplitr
    swap; · iexact H7
    ipureintro
    rw [hv, View.read_writes_eq_canon _ _ _ (coverDeg _), View.canon_unit_zero (S := S1x512x1) zeros3]
  iexists _; isplitr
  swap; · iexact H8
  ipureintro
  unfold sound_deg_last.sl.H8_1
  exact read_acc_step _ _ _ _ _ _ _ _

end Cert.Kernel.Hand

end
-- ==== Proof.BRegion1a.lean ====
/-
  Region 1, the degree kernel, as a segment of the program: its proof data. The grid has 4 x 8 x 8 points (b, bi, bj);
  windows 0 and 1 read tiles (b, bi, bj) and (b, bj, bi) of the one array W, windows 2 and 3 read tiles (bi, bj) and
  (bj, bi) of the gate matrix (so each pair sits on one buffer and each window holds half of its share), window 4
  writes rows bi of batch b of the normalizer, at the last column tile only. Between points the kernel carries an
  accumulator in a scratch buffer: zeroed at the first column tile, the tile's share added at every one.
-/
import proofs.«150832_j3959959847448_2_alg».proof.Proof.BRegion0
import proofs.«150832_j3959959847448_2_alg».proof.Proof.BBody1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region1

-- what each core's buffers hold when the region is entered
variable (Wv : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vat Wv c (Pipeline.arrRef spec1 w))

/-! ## The accumulation -/

/-- The accumulator after the body at position `n`: at a first column tile (every eighth point) the step from zero,
    elsewhere the step from what the point before left. -/
def acc1 (c : Dev nD) : (n : ℕ) → n < cfg1.N → Vec F S512x1 .f32
  | 0, hn => degStep (iblk1 Wv c 0 ⟨0, hn⟩) (iblk1 Wv c 1 ⟨0, hn⟩) (iblk1 Wv c 2 ⟨0, hn⟩) (iblk1 Wv c 3 ⟨0, hn⟩) k1_pay1
  | n + 1, hn =>
    if (n + 1) % 8 = 0 then degStep (iblk1 Wv c 0 ⟨n + 1, hn⟩) (iblk1 Wv c 1 ⟨n + 1, hn⟩) (iblk1 Wv c 2 ⟨n + 1, hn⟩) (iblk1 Wv c 3 ⟨n + 1, hn⟩) k1_pay1
    else degStep (iblk1 Wv c 0 ⟨n + 1, hn⟩) (iblk1 Wv c 1 ⟨n + 1, hn⟩) (iblk1 Wv c 2 ⟨n + 1, hn⟩) (iblk1 Wv c 3 ⟨n + 1, hn⟩) (acc1 c n (Nat.lt_of_succ_lt hn))

/-- At a first column tile: the step from zero. -/
theorem acc1_first (c : Dev nD) (t : Fin cfg1.N) (h : t.val % 8 = 0) :
    acc1 Wv c t.val t.isLt = degStep (iblk1 Wv c 0 t) (iblk1 Wv c 1 t) (iblk1 Wv c 2 t) (iblk1 Wv c 3 t) k1_pay1 := by
  obtain ⟨n, hn⟩ := t
  cases n with
  | zero => rfl
  | succ n => exact if_pos h

/-- Elsewhere: the step from what the point before left. -/
theorem acc1_step (c : Dev nD) (t : Fin cfg1.N) (h : t.val % 8 ≠ 0) :
    acc1 Wv c t.val t.isLt = degStep (iblk1 Wv c 0 t) (iblk1 Wv c 1 t) (iblk1 Wv c 2 t) (iblk1 Wv c 3 t)
      (acc1 Wv c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant that carries the accumulator -/

/-- The kernel's scratch accumulator as a memref. -/
abbrev scM1 : Memref sig .tc .vmem S512x1 .f32 := Memref.whole cc1_scratch0

/-- A whole buffer of core `c` at some contents. -/
abbrev anyBuf (c : Dev nD) (b : Ref sig .tc) : sProp (MM F) :=
  iprop(∃ f : Buf (Elt F) ((c : Thread nD τ).loc b), ((c : Thread nD τ).loc b) ↦{fullShare} f)

/-- The core's scoped buffers that are neither a staging buffer of this call nor its accumulator (the other two calls'
    staging buffers and the third call's scratch), each at some contents. -/
def others1 (c : Dev nD) : sProp (MM F) :=
  iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc2_stg0_0 ∗ anyBuf c cc2_stg0_1 ∗ anyBuf c cc2_stg1_0 ∗ anyBuf c cc2_stg1_1 ∗ anyBuf c cc2_stg2_0 ∗ anyBuf c cc2_stg2_1 ∗ anyBuf c cc2_stg3_0 ∗ anyBuf c cc2_stg3_1 ∗ anyBuf c cc2_stg4_0 ∗ anyBuf c cc2_stg4_1 ∗ anyBuf c cc2_stg5_0 ∗ anyBuf c cc2_stg5_1 ∗ anyBuf c cc2_stg6_0 ∗ anyBuf c cc2_stg6_1 ∗ anyBuf c cc2_stg7_0 ∗ anyBuf c cc2_stg7_1 ∗ anyBuf c cc2_scratch0)

/-- The invariant before position `n`: before the first point the scoped rest at anything and the generator register
    at some state; afterwards the same with the accumulator at what the point before left in it. -/
def PhiS1 (c : Dev nD) : (n : ℕ) → n ≤ cfg1.N → sProp (MM F)
  | 0, _ => Pipeline.ΦA spec1 c
  | n + 1, hn => iprop(owns (c : Thread nD τ) scM1 fullShare (acc1 Wv c n hn) ∗ others1 c ∗ (∃ r, prngReg c r))

theorem PhiS1_zero (c : Dev nD) (n : ℕ) (h : n ≤ cfg1.N) (hz : n = 0) : PhiS1 Wv c n h = Pipeline.ΦA spec1 c := by
  subst hz; rfl

theorem PhiS1_succ (c : Dev nD) (n : ℕ) (hn : n < cfg1.N) :
    PhiS1 Wv c (n + 1) hn = iprop(owns (c : Thread nD τ) scM1 fullShare (acc1 Wv c n hn) ∗ others1 c ∗ (∃ r, prngReg c r)) := rfl

theorem PhiS1_pos (c : Dev nD) (n : ℕ) (h : n ≤ cfg1.N) (hz : n ≠ 0) :
    PhiS1 Wv c n h = iprop(owns (c : Thread nD τ) scM1 fullShare (acc1 Wv c (n - 1) (by omega)) ∗ others1 c ∗ (∃ r, prngReg c r)) := by
  cases n with
  | zero => exact absurd rfl hz
  | succ n => rfl

/-! ## The proof data -/

/-- The proof data: arrays as found; the four inputs left in place, the output window at the normalizer of the
    accumulator (what the last column tile stores; elsewhere the window is idle and this is not consulted); each pair of
    windows on one array holds the two halves of its share; nothing owed; the invariant carries the accumulator. -/
def dat1 (c : Dev nD) : Dat τ (Elt F) Unit ℕ (UR sig nD τ) ℕ cfg1 c where
  A w := Vat Wv c (Pipeline.arrRef spec1 w)
  after w t := match w with
    | ⟨0, _⟩ => iblk1 Wv c 0 t
    | ⟨1, _⟩ => iblk1 Wv c 1 t
    | ⟨2, _⟩ => iblk1 Wv c 2 t
    | ⟨3, _⟩ => iblk1 Wv c 3 t
    | ⟨4, _⟩ => k1_pay3 (acc1 Wv c t.val t.isLt)
  Φ t := PhiS1 Wv c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A1_eq (c : Dev nD) (w : Fin cfg1.W) : (dat1 Wv c).A w = Vat Wv c (Pipeline.arrRef spec1 w) := by dsimp only [dat1]
theorem after1_0 (c : Dev nD) (t : Fin cfg1.N) : (dat1 Wv c).after 0 t = iblk1 Wv c 0 t := by dsimp only [dat1]
theorem after1_1 (c : Dev nD) (t : Fin cfg1.N) : (dat1 Wv c).after 1 t = iblk1 Wv c 1 t := by dsimp only [dat1]
theorem after1_2 (c : Dev nD) (t : Fin cfg1.N) : (dat1 Wv c).after 2 t = iblk1 Wv c 2 t := by dsimp only [dat1]
theorem after1_3 (c : Dev nD) (t : Fin cfg1.N) : (dat1 Wv c).after 3 t = iblk1 Wv c 3 t := by dsimp only [dat1]
theorem after1_4 (c : Dev nD) (t : Fin cfg1.N) : (dat1 Wv c).after 4 t = k1_pay3 (acc1 Wv c t.val t.isLt) := by dsimp only [dat1]

/-- The invariant at a point's start, restated at the point's position. -/
theorem Phi1_castSucc (c : Dev nD) (t : Fin cfg1.N) :
    (dat1 Wv c).Φ t.castSucc = PhiS1 Wv c t.val (Nat.le_of_lt t.isLt) := by
  dsimp only [dat1]; simp only [Fin.coe_castSucc]

/-- An input window the body leaves in place holds its block at every point. -/
theorem before1_0 (c : Dev nD) (t : Fin cfg1.N) (d) : (dat1 Wv c).before 0 t d = iblk1 Wv c 0 t := by
  have h := (dat1 Wv c).before_in_eq_fetched 0 rfl (fun _ => rfl) (fun _ _ _ => rfl)
    (fun t => by rw [after1_0]; unfold Dat.blockOf iblk1; rw [A1_eq]; try rfl) t d
  rw [h]; unfold Dat.fetched Dat.blockOf iblk1; rw [A1_eq]; try rfl
theorem before1_1 (c : Dev nD) (t : Fin cfg1.N) (d) : (dat1 Wv c).before 1 t d = iblk1 Wv c 1 t := by
  have h := (dat1 Wv c).before_in_eq_fetched 1 rfl (fun _ => rfl) (fun _ _ _ => rfl)
    (fun t => by rw [after1_1]; unfold Dat.blockOf iblk1; rw [A1_eq]; try rfl) t d
  rw [h]; unfold Dat.fetched Dat.blockOf iblk1; rw [A1_eq]; try rfl
theorem before1_2 (c : Dev nD) (t : Fin cfg1.N) (d) : (dat1 Wv c).before 2 t d = iblk1 Wv c 2 t := by
  have h := (dat1 Wv c).before_in_eq_fetched 2 rfl (fun _ => rfl) (fun _ _ _ => rfl)
    (fun t => by rw [after1_2]; unfold Dat.blockOf iblk1; rw [A1_eq]; try rfl) t d
  rw [h]; unfold Dat.fetched Dat.blockOf iblk1; rw [A1_eq]; try rfl
theorem before1_3 (c : Dev nD) (t : Fin cfg1.N) (d) : (dat1 Wv c).before 3 t d = iblk1 Wv c 3 t := by
  have h := (dat1 Wv c).before_in_eq_fetched 3 rfl (fun _ => rfl) (fun _ _ _ => rfl)
    (fun t => by rw [after1_3]; unfold Dat.blockOf iblk1; rw [A1_eq]; try rfl) t d
  rw [h]; unfold Dat.fetched Dat.blockOf iblk1; rw [A1_eq]; try rfl

end Region1

end Cert.Kernel.Hand

end
-- ==== Proof.BRegion1b.lean ====
/-
  Region 1, the degree kernel: the body obligation. At a point the kernel's run is the one its column tile selects
  (first, middle, last); the invariant hands it the accumulator at what the point before left and takes it back at the
  point's own; the output window is idle, handed back untouched, at every column tile but the last.
-/
import proofs.«150832_j3959959847448_2_alg».proof.Proof.BRegion1a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region1

variable (Wv : Dev nD → Valuation τ sig (Elt F))

/-! ## Where the output window is idle -/

/-- Off the last column tile the configuration calls the output window idle; -/
theorem idleAt1_4 (i : grid1.Coords) (h : ¬cond1_1 i) : cfg1.idle 4 i = true := by
  show (!(k1_cond2 i == 1#1)) = true
  rw [Bool.not_eq_true', beq_eq_false_iff_ne]; exact h
/-- at it, live; -/
theorem liveAt1_4 (i : grid1.Coords) (h : cond1_1 i) : cfg1.idle 4 i = false := by
  show (!(k1_cond2 i == 1#1)) = false
  rw [Bool.not_eq_false', beq_iff_eq]; exact h
/-- and the window is written back at the last column tile only. -/
theorem noFlush1_4 (t : Fin cfg1.N) (h : t.val % 8 ≠ 7) : (cfg1.win 4).flush t = false :=
  Bool.eq_false_iff.mpr fun hf => h ((flush1_4 t).mp hf)

/-! ## The scoped rest with the accumulator split out -/

theorem owns_scM1 (c : Dev nD) (d : Vec F S512x1 .f32) :
    (owns (c : Thread nD τ) scM1 fullShare d : sProp (MM F)) = (((c : Thread nD τ).loc cc1_scratch0) ↦{fullShare} d) :=
  owns_whole _ _ _ _

/-- The class's invariant is the accumulator at some contents, the other scoped buffers and the generator register; -/
theorem PhiA1_open (c : Dev nD) :
    (Pipeline.ΦA spec1 c : sProp (MM F)) ⊢ iprop((∃ d, owns (c : Thread nD τ) scM1 fullShare d) ∗ others1 c ∗ (∃ r, prngReg c r)) := by
  unfold Pipeline.ΦA others1; rw [scopedRest1_eq]; simp only [owns_scM1]
  iintro ⟨⟨A0, A1, A2, A3, A4, A5, ⟨%fs, HS⟩, A6, A7, A8, A9, A10, A11, A12, A13, A14, A15, A16, A17, A18, A19, A20, A21, A22⟩, Hg⟩
  isplitl [HS]; · iexists fs; iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  iexact Hg

/-- and back. -/
theorem PhiA1_close (c : Dev nD) :
    iprop((∃ d, owns (c : Thread nD τ) scM1 fullShare d) ∗ others1 c ∗ (∃ r, prngReg c r)) ⊢ (Pipeline.ΦA spec1 c : sProp (MM F)) := by
  unfold Pipeline.ΦA others1; rw [scopedRest1_eq]; simp only [owns_scM1]
  iintro ⟨⟨%fs, HS⟩, ⟨A0, A1, A2, A3, A4, A5, A6, A7, A8, A9, A10, A11, A12, A13, A14, A15, A16, A17, A18, A19, A20, A21, A22⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS]; · iexists fs; iexact HS
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  iexact Hg

/-! ## What the body leaves in each window's buffer -/

theorem leaves1_0 (c : Dev nD) (t : Fin cfg1.N) :
    (dat1 Wv c).leavesExact 0 t = owns (c : Thread nD τ) (st1_0 t) fullShare (iblk1 Wv c 0 t) := by
  unfold Dat.leavesExact; rw [show cfg1.idle 0 (cfg1.grid.coords t) = false from rfl, after1_0]
theorem leaves1_1 (c : Dev nD) (t : Fin cfg1.N) :
    (dat1 Wv c).leavesExact 1 t = owns (c : Thread nD τ) (st1_1 t) fullShare (iblk1 Wv c 1 t) := by
  unfold Dat.leavesExact; rw [show cfg1.idle 1 (cfg1.grid.coords t) = false from rfl, after1_1]
theorem leaves1_2 (c : Dev nD) (t : Fin cfg1.N) :
    (dat1 Wv c).leavesExact 2 t = owns (c : Thread nD τ) (st1_2 t) fullShare (iblk1 Wv c 2 t) := by
  unfold Dat.leavesExact; rw [show cfg1.idle 2 (cfg1.grid.coords t) = false from rfl, after1_2]
theorem leaves1_3 (c : Dev nD) (t : Fin cfg1.N) :
    (dat1 Wv c).leavesExact 3 t = owns (c : Thread nD τ) (st1_3 t) fullShare (iblk1 Wv c 3 t) := by
  unfold Dat.leavesExact; rw [show cfg1.idle 3 (cfg1.grid.coords t) = false from rfl, after1_3]

/-! ## The body at a point -/

set_option maxHeartbeats 1000000 in
/-- The body at any point: the four input buffers hold their blocks; the point's column tile selects the run; the
    accumulator comes from the invariant (at anything before the very first point and at a first column tile, else at
    what the point before left) and goes back to it at the point's own contents; the core owes nothing throughout. -/
theorem sound_body1 (c : Dev nD) (t : Fin cfg1.N) :
    iprop((dat1 Wv c).Φ t.castSucc ∗ (dat1 Wv c).owesAt () t.castSucc
        ∗ (∃ d, owns (c : Thread nD τ) (st1_0 t) fullShare ((dat1 Wv c).before 0 t d))
        ∗ (∃ d, owns (c : Thread nD τ) (st1_1 t) fullShare ((dat1 Wv c).before 1 t d))
        ∗ (∃ d, owns (c : Thread nD τ) (st1_2 t) fullShare ((dat1 Wv c).before 2 t d))
        ∗ (∃ d, owns (c : Thread nD τ) (st1_3 t) fullShare ((dat1 Wv c).before 3 t d))
        ∗ (∃ d, owns (c : Thread nD τ) (st1_4 t) fullShare ((dat1 Wv c).before 4 t d)))
      ⊢ wp frame (wpE (defs₀ (F := F)) Variants.none c none) Set.univ (bodyAt1 t) (fun _ =>
        iprop((dat1 Wv c).Φ t.succ ∗ (dat1 Wv c).owesAt () t.succ
          ∗ (dat1 Wv c).leavesExact 0 t ∗ (dat1 Wv c).leavesExact 1 t ∗ (dat1 Wv c).leavesExact 2 t
          ∗ (dat1 Wv c).leavesExact 3 t ∗ (dat1 Wv c).leavesExact 4 t)) := by
  unfold bodyAt1
  simp only [before1_0, before1_1, before1_2, before1_3]
  rw [show (dat1 Wv c).owesAt () t.succ = (dat1 Wv c).owesAt () t.castSucc from rfl,
    show (dat1 Wv c).Φ t.succ = PhiS1 Wv c (t.val + 1) t.isLt from rfl, PhiS1_succ,
    leaves1_0, leaves1_1, leaves1_2, leaves1_3, Phi1_castSucc]
  have hN : t.val < 256 := lt_of_lt_of_eq t.isLt (show cfg1.N = 256 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 Wv c) 4 t (idleAt1_4 _ hc1) (noFlush1_4 t (by omega)), acc1_first Wv c t h0]
    by_cases hz : t.val = 0
    · rw [PhiS1_zero Wv c _ _ hz]
      iintro ⟨HΦ, Ho, ⟨%d0, H0⟩, ⟨%d1, H1⟩, ⟨%d2, H2⟩, ⟨%d3, H3⟩, ⟨%d4, H4⟩⟩
      ihave HΦ' := (PhiA1_open c) $$ [HΦ]
      · iexact HΦ
      icases HΦ' with ⟨HS, Hoth, Hg⟩
      iapply (sound_deg_first c Set.univ _ _ _ _ _ _ _ _ _ _ _ _ _ hc0 hc1 (iblk1 Wv c 0 t) (iblk1 Wv c 1 t) (iblk1 Wv c 2 t) (iblk1 Wv c 3 t) ((dat1 Wv c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4
    · rw [PhiS1_pos Wv c _ _ hz]
      iintro ⟨⟨HS, Hoth, Hg⟩, Ho, ⟨%d0, H0⟩, ⟨%d1, H1⟩, ⟨%d2, H2⟩, ⟨%d3, H3⟩, ⟨%d4, H4⟩⟩
      iapply (sound_deg_first c Set.univ _ _ _ _ _ _ _ _ _ _ _ _ _ hc0 hc1 (iblk1 Wv c 0 t) (iblk1 Wv c 1 t) (iblk1 Wv c 2 t) (iblk1 Wv c 3 t) ((dat1 Wv c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4
  · have hc0 : ¬cond1_0 (grid1.coords t) := fun h => h0 ((hcond1_0 t).mp h)
    have hz : t.val ≠ 0 := fun h => h0 (by rw [h])
    rw [PhiS1_pos Wv c _ _ hz, acc1_step Wv c t h0]
    by_cases h1 : t.val % 8 = 7
    · have hc1 : cond1_1 (grid1.coords t) := (hcond1_1 t).mpr h1
      rw [show (dat1 Wv c).leavesExact 4 t = owns (c : Thread nD τ) (st1_4 t) fullShare ((dat1 Wv c).after 4 t) from by
        unfold Dat.leavesExact; rw [liveAt1_4 _ hc1], after1_4, acc1_step Wv c t h0]
      iintro ⟨⟨HS, Hoth, Hg⟩, Ho, ⟨%d0, H0⟩, ⟨%d1, H1⟩, ⟨%d2, H2⟩, ⟨%d3, H3⟩, ⟨%d4, H4⟩⟩
      iapply (sound_deg_last c Set.univ _ _ _ _ _ _ _ _ _ _ _ _ _ hc0 hc1 (iblk1 Wv c 0 t) (iblk1 Wv c 1 t) (iblk1 Wv c 2 t) (iblk1 Wv c 3 t) (acc1 Wv c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 Wv c) 4 t (idleAt1_4 _ hc1) (noFlush1_4 t h1)]
      iintro ⟨⟨HS, Hoth, Hg⟩, Ho, ⟨%d0, H0⟩, ⟨%d1, H1⟩, ⟨%d2, H2⟩, ⟨%d3, H3⟩, ⟨%d4, H4⟩⟩
      iapply (sound_deg_middle c Set.univ _ _ _ _ _ _ _ _ _ _ _ _ _ hc0 hc1 (iblk1 Wv c 0 t) (iblk1 Wv c 1 t) (iblk1 Wv c 2 t) (iblk1 Wv c 3 t) ((dat1 Wv c).before 4 t d4) (acc1 Wv c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) Wv c) (defs₀ (F := F)) Variants.none () Set.univ := fun t => by
  rw [bigSep_W1, bigSep_W1]
  exact sound_body1 Wv c t

end Region1

end Cert.Kernel.Hand

end
-- ==== Proof.BRegion1c.lean ====
/-
  Region 1, the degree kernel, as a segment record over the thread state "every unscoped buffer at its contents, the
  generator register at some state, nothing owed": at entry the buffers of W and of the gate matrix are each split in two
  halves for the two windows on them, at exit they are joined again and the normalizer's buffer comes back at what the
  write-backs left.
-/
import proofs.«150832_j3959959847448_2_alg».proof.Proof.BRegion1b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Seg1

variable (Wv : Dev nD → Valuation τ sig (Elt F)) (d0 : DatOf F cfg0) (d2 : DatOf F cfg2)

/-- What core `c`'s buffers hold when the region is left: the normalizer's buffer at what the write-backs leave, every
    other buffer as entered. -/
def Wnext1 (c : Dev nD) : Valuation τ sig (Elt F) :=
  Function.update (Wv c) (Proc.devRef .tc main_v1) ((dat1 Wv c).arrAt 4 cfg1.N)

theorem Wnext1_v1 (c : Dev nD) : Wnext1 Wv c main_v1 = (dat1 Wv c).arrAt 4 cfg1.N := Function.update_self ..
theorem Wnext1_of_ne (c : Dev nD) (b : Ref sig .tc) (h : b ≠ main_v1) : Wnext1 Wv c b = Wv c b :=
  Function.update_of_ne (StableHlo.devRef_ne_of_ne h) ..

/-- The pipeline's arrays window by window: W's buffer and the gate matrix's at their two halves, the normalizer's
    outright. -/
theorem arrays1_eq (c : Dev nD) (Fa : (w : Fin cfg1.W) → Buf (Elt F) ((cfg1.win w).arr.view.loc (c : Thread nD τ))) :
    ((dat1 Wv c).arrays Fa : sProp (MM F))
      = iprop((((c : Thread nD τ).loc main_arg1) ↦{fullShare.left} Fa 0) ∗ (((c : Thread nD τ).loc main_arg1) ↦{fullShare.right} Fa 1)
          ∗ (((c : Thread nD τ).loc main_v0) ↦{fullShare.left} Fa 2) ∗ (((c : Thread nD τ).loc main_v0) ↦{fullShare.right} Fa 3)
          ∗ (((c : Thread nD τ).loc main_v1) ↦{fullShare} Fa 4)) := by
  unfold Dat.arrays
  rw [bigSep_W1, (arr_whole1 0).set_eq_univ, (arr_whole1 2).set_eq_univ, (arr_whole1 4).set_eq_univ]
  rfl

/-- After the last point the invariant gives the class's back: the accumulator's contents are forgotten. -/
theorem Phi1_last (c : Dev nD) : (dat1 Wv c).Φ (Fin.last cfg1.N) ⊢ (Pipeline.ΦA spec1 c : sProp (MM F)) := by
  rw [show (dat1 Wv c).Φ (Fin.last cfg1.N) = PhiS1 Wv c (Fin.last cfg1.N).val (Nat.le_of_lt_succ (Fin.last cfg1.N).isLt) from rfl,
    PhiS1_pos Wv c _ _ (by rw [Fin.val_last]; have : cfg1.N = 256 := N_1; omega)]
  iintro ⟨HS, Hoth, Hg⟩
  iapply (PhiA1_close c)
  isplitl [HS]; · iexists _; iexact HS
  isplitl [Hoth]; · iexact Hoth
  iexact Hg

set_option backward.isDefEq.respectTransparency.types false in
/-- Region 1 as a segment. -/
def reg1 : RegOf d0 (dat1 Wv) d2 1 where
  win := winFacts₀1
  block_pos := block_pos1
  stage_whole := stage_whole1
  K := PEmpty
  osem k := k.elim
  ho := Pipeline.OwnSemFacts.none _
  hbody c := (body_obligation1 Wv c).loose
  hwaits := Pipeline.hwaits_of_owed_zero _ _ _ _ LL lvv 1 fun _ _ => rfl
  pre c := iprop(StableHlo.held (c : Thread nD τ) (Pipeline.ucRefs τ sig) (Wv c) ∗ RR c)
  post c := iprop(StableHlo.held (c : Thread nD τ) (Pipeline.ucRefs τ sig) (Wnext1 Wv c) ∗ RR c)
  X c := iprop(∃ r, prngReg c r)
  Y c := iprop(∃ r, prngReg c r)
  Z c := iprop(ptw c main_arg0 (Wv c main_arg0) ∗ ptw c main_arg2 (Wv c main_arg2) ∗ ptw c main_arg3 (Wv c main_arg3)
    ∗ ptw c main_v2 (Wv c main_v2) ∗ ptw c main_v3 (Wv c main_v3) ∗ ptw c main_v4 (Wv c main_v4))
  hentry c := by
    rw [Pipeline.ownSems0_none, held_uc_eq]
    show _ ⊢ |={Set.univ}=> iprop((dat1 Wv c).arrays ((dat1 Wv c).arrAt · 0) ∗ _ ∗ (dat1 Wv c).owesAt () 0 ∗ _ ∗ _)
    rw [arrays1_eq]
    iintro ⟨⟨⟨H0, H1, H2, H3, Hv0, Hv1, Hv2, Hv3, Hv4⟩, Hp, HO⟩, -, -⟩
    ihave H1' := (ptw_halves c main_arg1 (Wv c main_arg1)).1 $$ [H1]
    · iexact H1
    icases H1' with ⟨H1a, H1b⟩
    ihave Hv0' := (ptw_halves c main_v0 (Wv c main_v0)).1 $$ [Hv0]
    · iexact Hv0
    icases Hv0' with ⟨Hv0a, Hv0b⟩
    imodintro
    isplitl [H1a H1b Hv0a Hv0b Hv1]
    · isplitl [H1a]; · iexact H1a
      isplitl [H1b]; · iexact H1b
      isplitl [Hv0a]; · iexact Hv0a
      isplitl [Hv0b]; · iexact Hv0b
      iexact Hv1
    isplitr; · unfold Pipeline.prefHeld; rw [show (Finset.univ : Finset (Fin 0)) = ∅ from rfl, BI.bigSep_empty]; iempintro
    isplitl [HO]; · iapply (owesAt_intro (dat1 Wv c) 0 rfl rfl); iexact HO
    isplitl [Hp]; · iexact Hp
    isplitl [H0]; · iexact H0
    isplitl [H2]; · iexact H2
    isplitl [H3]; · iexact H3
    isplitl [Hv2]; · iexact Hv2
    isplitl [Hv3]; · iexact Hv3
    iexact Hv4
  hin c := by
    show _ ⊢ Pipeline.ΦA spec1 c
    unfold Pipeline.ΦA
    iintro ⟨Hp, -, Hr⟩
    isplitl [Hr]; · iexact Hr
    iexact Hp
  hout c := by
    rw [Pipeline.ownSems0_none]
    refine (Phi1_last Wv c).trans ?_
    unfold Pipeline.ΦA
    iintro ⟨Hr, Hp⟩
    isplitl [Hp]; · iexact Hp
    isplitr; · iempintro
    iexact Hr
  hexit c := by
    show iprop((dat1 Wv c).arrays ((dat1 Wv c).arrAt · cfg1.N) ∗ (dat1 Wv c).owesAt () (Fin.last cfg1.N) ∗ _ ∗ _) ⊢ _
    rw [arrays1_eq, held_uc_eq, Wnext1_v1, Wnext1_of_ne Wv c main_arg0 (by decide), Wnext1_of_ne Wv c main_arg1 (by decide), Wnext1_of_ne Wv c main_arg2 (by decide), Wnext1_of_ne Wv c main_arg3 (by decide), Wnext1_of_ne Wv c main_v0 (by decide), Wnext1_of_ne Wv c main_v2 (by decide), Wnext1_of_ne Wv c main_v3 (by decide), Wnext1_of_ne Wv c main_v4 (by decide),
      (dat1 Wv c).arrAt_in 0 rfl, (dat1 Wv c).arrAt_in 1 rfl, (dat1 Wv c).arrAt_in 2 rfl, (dat1 Wv c).arrAt_in 3 rfl,
      A1_eq, A1_eq, A1_eq, A1_eq]
    iintro ⟨⟨H1a, H1b, Hv0a, Hv0b, Hv1⟩, HO, HY, ⟨H0, H2, H3, Hv2, Hv3, Hv4⟩⟩
    ihave H1 := (ptw_halves c main_arg1 (Wv c main_arg1)).2 $$ [H1a H1b]
    · isplitl [H1a]; · iexact H1a
      iexact H1b
    ihave Hv0 := (ptw_halves c main_v0 (Wv c main_v0)).2 $$ [Hv0a Hv0b]
    · isplitl [Hv0a]; · iexact Hv0a
      iexact Hv0b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat1 Wv c) _ rfl); iexact HO

end Seg1

end Cert.Kernel.Hand

end
-- ==== Proof.BBody2.lean ====
/-
  The coupling kernel's body on whole staging memrefs, one run per control case.

  At a grid point the kernel (a) zeroes the accumulator when the column-tile coordinate is the first, (b) adds to the
  accumulator the point's share  1/2 * (direct block product + transposed block product)  against the scaled x block,
  (c) at the last column-tile coordinate scales the accumulator by the row tile's normalizer into the output window.
  The three runs below are the three control cases that occur on the grid: first column tile, a middle one, the last.
-/
import proofs.«150832_j3959959847448_2_alg».proof.Proof.BFrameBase
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The body's branch conditions -/

/-- The first conditional: the column-tile coordinate is zero (the accumulator is reset). -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the column-tile coordinate is the last (the output window is written). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## What a point leaves in the accumulator -/

/-- The accumulator after a point: what it held plus the point's share, from the direct and transposed W blocks
    `x0 x1`, the gate tiles `x2 x3`, the x block `x4` and the column tile's normalizer block `x6`. -/
def mmStep (x0 x1 : Vec F S1x512x512 .f32) (x2 x3 : Vec F S512x512 .bf16) (x4 : Vec F S1x512x64 .f32)
    (x6 : Vec F S1x512x1 .f32) (s : Vec F S512x64 .f32) : Vec F S512x64 .f32 :=
  k2_pay1 (k2_pay4 x2 x3 x0 x1 x6 x4 s)

/-- The zero offsets of the whole-buffer rectangles, in the two spellings the body uses. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the view's contents. -/
theorem readAt_unit_zero {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-shape rectangle at zero offsets, LAST, reads back as its payload. -/
theorem read_writes_unit_zero {sp : Space} {S : Shape} {e : EltTy} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## A middle column tile: the accumulator gains the point's share, the output window is untouched -/

set_option maxHeartbeats 1000000 in
/-- A middle column tile (neither conditional taken): the inputs and the output window are handed back as they were,
    the accumulator at what it held plus the point's share. -/
theorem sound_kernel2_mid (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond2_0 i) (hc1 : ¬cond2_1 i)
    (x0 x1 : Vec F S1x512x512 .f32) (x2 x3 : Vec F S512x512 .bf16) (x4 : Vec F S1x512x64 .f32) (x5 x6 : Vec F S1x512x1 .f32)
    (xi : Vec F S1x512x64 .f32) (s : Vec F S512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi ∗ owns (c : Thread nD τ) arg11 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare xi
            ∗ owns (c : Thread nD τ) arg11 fullShare (mmStep x0 x1 x2 x3 x4 x6 s)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fi, %hfi, HI⟩, ⟨%fs, %hfs, HS⟩, Hk⟩
  subst hf0 hf1 hf2 hf3 hf4 hf5 hf6 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists fi; isplitr; · ipureintro; rfl
    iexact HI
  iexists _; isplitr
  swap; · iexact HS
  ipureintro
  refine (read_writes_unit_zero (S := S512x64) _ _ hz2 _ _ _).trans ?_
  rw [readAt_unit_zero (S := S512x512) arg5.view f2 hz2, readAt_unit_zero (S := S512x512) arg6.view f3 hz2,
    readAt_unit_zero (S := S1x512x512) arg3.view f0 hz3, readAt_unit_zero (S := S1x512x512) arg4.view f1 hz3,
    readAt_unit_zero (S := S1x512x1) arg9.view f6 hz3, readAt_unit_zero (S := S1x512x64) arg7.view f4 hz3,
    readAt_unit_zero (S := S512x64) arg11.view fs hz2]
  rfl

/-! ## The first column tile: the accumulator is reset, then gains the point's share -/

set_option maxHeartbeats 1000000 in
/-- The first column tile (the reset taken, the output store not): whatever the accumulator held, it is zeroed and
    then gains the point's share; the output window is handed back as it was. -/
theorem sound_kernel2_first (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : cond2_0 i) (hc1 : ¬cond2_1 i)
    (x0 x1 : Vec F S1x512x512 .f32) (x2 x3 : Vec F S512x512 .bf16) (x4 : Vec F S1x512x64 .f32) (x5 x6 : Vec F S1x512x1 .f32)
    (xi : Vec F S1x512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi ∗ (∃ s, owns (c : Thread nD τ) arg11 fullShare s)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare xi
            ∗ owns (c : Thread nD τ) arg11 fullShare (mmStep x0 x1 x2 x3 x4 x6 k2_pay3)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fi, %hfi, HI⟩, ⟨%s, %fs, -, HS⟩, Hk⟩
  subst hf0 hf1 hf2 hf3 hf4 hf5 hf6 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists fi; isplitr; · ipureintro; rfl
    iexact HI
  iexists _; isplitr
  swap; · iexact HS
  ipureintro
  refine (read_writes_unit_zero (S := S512x64) _ _ hz2 _ _ _).trans ?_
  rw [readAt_unit_zero (S := S512x512) arg5.view f2 hz2, readAt_unit_zero (S := S512x512) arg6.view f3 hz2,
    readAt_unit_zero (S := S1x512x512) arg3.view f0 hz3, readAt_unit_zero (S := S1x512x512) arg4.view f1 hz3,
    readAt_unit_zero (S := S1x512x1) arg9.view f6 hz3, readAt_unit_zero (S := S1x512x64) arg7.view f4 hz3]
  unfold sound_kernel2_first.sl.v29 sound_kernel2_first.sl.HS_1
  rw [View.readCov_unit_zero (S := S512x64) arg11.view hz2 inb_S512x64_S512x64_0_0]
  rfl

/-! ## The last column tile: the accumulator gains the point's share and is scaled into the output window -/

set_option maxHeartbeats 1000000 in
/-- The last column tile (the reset not taken, the output store taken): the accumulator gains the point's share and
    the output window, whatever it held, receives the accumulator scaled by the row tile's normalizer block `x5`. -/
theorem sound_kernel2_last (c : Dev nD) (E : Set ℕ) (i : grid2.Coords)
    (arg3 : Memref sig .tc .vmem S1x512x512 .f32) (harg3 : arg3.IsWhole) (arg4 : Memref sig .tc .vmem S1x512x512 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond2_0 i) (hc1 : cond2_1 i)
    (x0 x1 : Vec F S1x512x512 .f32) (x2 x3 : Vec F S512x512 .bf16) (x4 : Vec F S1x512x64 .f32) (x5 x6 : Vec F S1x512x1 .f32)
    (s : Vec F S512x64 .f32) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d) ∗ owns (c : Thread nD τ) arg11 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare (k2_pay2 x5 (mmStep x0 x1 x2 x3 x4 x6 s))
            ∗ owns (c : Thread nD τ) arg11 fullShare (mmStep x0 x1 x2 x3 x4 x6 s)) -∗ K ⟨⟩))
      ⊢ wp frame (wpE (defs₀ (F := F)) Variants.none c none) E
          (cc2__matmul_kernel i arg3 harg3 arg4 harg4 arg5 harg5 arg6 harg6 arg7 harg7 arg8 harg8 arg9 harg9 arg10 harg10 arg11 harg11) K := by
  simp only [cc2__matmul_kernel_eq_skeleton]; unfold cc2__matmul_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %fd, -, HI⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HI]
  · iexists _; isplitr
    swap; · iexact HI
    ipureintro
    refine (read_writes_unit_zero (S := S1x512x64) _ _ hz3 _ _ _).trans ?_
    rw [readAt_unit_zero (S := S1x512x1) arg8.view f5 hz3]
    unfold sound_kernel2_last.sl.v39 sound_kernel2_last.sl.HS_1
    rw [View.readCov_unit_zero (S := S512x64) arg11.view hz2 inb_S512x64_S512x64_0_0]
    rw [readAt_unit_zero (S := S512x512) arg5.view f2 hz2, readAt_unit_zero (S := S512x512) arg6.view f3 hz2,
      readAt_unit_zero (S := S1x512x512) arg3.view f0 hz3, readAt_unit_zero (S := S1x512x512) arg4.view f1 hz3,
      readAt_unit_zero (S := S1x512x1) arg9.view f6 hz3, readAt_unit_zero (S := S1x512x64) arg7.view f4 hz3,
      readAt_unit_zero (S := S512x64) arg11.view fs hz2]
    rfl
  iexists _; isplitr
  swap; · iexact HS
  ipureintro
  unfold sound_kernel2_last.sl.HS_1
  refine (read_writes_unit_zero (S := S512x64) _ _ hz2 _ _ _).trans ?_
  rw [readAt_unit_zero (S := S512x512) arg5.view f2 hz2, readAt_unit_zero (S := S512x512) arg6.view f3 hz2,
      readAt_unit_zero (S := S1x512x512) arg3.view f0 hz3, readAt_unit_zero (S := S1x512x512) arg4.view f1 hz3,
      readAt_unit_zero (S := S1x512x1) arg9.view f6 hz3, readAt_unit_zero (S := S1x512x64) arg7.view f4 hz3,
      readAt_unit_zero (S := S512x64) arg11.view fs hz2]
  rfl

end Cert.Kernel.Hand

end
-- ==== Proof.BRegion2a.lean ====
/-
  Region 2, the coupling kernel, as a segment of the program. Its grid has 4 x 8 x 8 points (batch, row tile, column tile),
  the column tile running fastest. Windows 0 and 1 read the direct and the transposed-source blocks of W, windows 2 and 3
  the two gate tiles, window 4 the x block, windows 5 and 6 the normalizer at the row tile and at the column tile, window 7
  is the output. Three pairs of windows sit on one array each and hold half of its share each.

  The body keeps an accumulator in a scratch buffer of its own: at the first column tile it is reset and gains the point's
  share, at every later column tile it gains the point's share over what the previous point left, and at the last column
  tile the accumulator, scaled by the row tile's normalizer, is stored into the output window, which is written back there
  and nowhere else. So the invariant between points carries the scratch at the accumulation up to the previous point, and
  the output window is idle except at the last column tile.
-/
import proofs.«150832_j3959959847448_2_alg».proof.Proof.BRegion0
import proofs.«150832_j3959959847448_2_alg».proof.Proof.BBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region2

-- what each core's buffers hold when the region is entered
variable (Wv : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (Vat Wv c (Pipeline.arrRef spec2 w))

/-- THE ACCUMULATION. What the scratch holds after the body at position `n`: at the first column tile of a row the point's
    share over the zero fill, at a later one the point's share over what the previous point left. -/
def acc2 (c : Dev nD) : (n : ℕ) → n < cfg2.N → Vec F S512x64 .f32
  | 0, hn => mmStep (iblk2 Wv c 0 ⟨0, hn⟩) (iblk2 Wv c 1 ⟨0, hn⟩) (iblk2 Wv c 2 ⟨0, hn⟩) (iblk2 Wv c 3 ⟨0, hn⟩) (iblk2 Wv c 4 ⟨0, hn⟩)
      (iblk2 Wv c 6 ⟨0, hn⟩) k2_pay3
  | n + 1, hn =>
    if (n + 1) % 8 = 0 then
      mmStep (iblk2 Wv c 0 ⟨n + 1, hn⟩) (iblk2 Wv c 1 ⟨n + 1, hn⟩) (iblk2 Wv c 2 ⟨n + 1, hn⟩) (iblk2 Wv c 3 ⟨n + 1, hn⟩)
        (iblk2 Wv c 4 ⟨n + 1, hn⟩) (iblk2 Wv c 6 ⟨n + 1, hn⟩) k2_pay3
    else
      mmStep (iblk2 Wv c 0 ⟨n + 1, hn⟩) (iblk2 Wv c 1 ⟨n + 1, hn⟩) (iblk2 Wv c 2 ⟨n + 1, hn⟩) (iblk2 Wv c 3 ⟨n + 1, hn⟩)
        (iblk2 Wv c 4 ⟨n + 1, hn⟩) (iblk2 Wv c 6 ⟨n + 1, hn⟩) (acc2 c n (Nat.lt_of_succ_lt hn))

/-- At the first column tile of a row the accumulation starts afresh. -/
theorem acc2_first (c : Dev nD) (t : Fin cfg2.N) (h : t.val % 8 = 0) :
    acc2 Wv c t.val t.isLt
      = mmStep (iblk2 Wv c 0 t) (iblk2 Wv c 1 t) (iblk2 Wv c 2 t) (iblk2 Wv c 3 t) (iblk2 Wv c 4 t) (iblk2 Wv c 6 t) k2_pay3 := by
  obtain ⟨n, hn⟩ := t
  cases n with
  | zero => exact rfl
  | succ n => exact (if_pos h).trans rfl

/-- At a later column tile it continues from what the point before left. -/
theorem acc2_step (c : Dev nD) (t : Fin cfg2.N) (h : t.val % 8 ≠ 0) :
    acc2 Wv c t.val t.isLt
      = mmStep (iblk2 Wv c 0 t) (iblk2 Wv c 1 t) (iblk2 Wv c 2 t) (iblk2 Wv c 3 t) (iblk2 Wv c 4 t) (iblk2 Wv c 6 t)
          (acc2 Wv c (t.val - 1) (Nat.lt_of_le_of_lt (Nat.sub_le _ _) t.isLt)) := by
  obtain ⟨n, hn⟩ := t
  cases n with
  | zero => exact absurd (Nat.zero_mod _) h
  | succ n => exact (if_neg h).trans rfl

/-- The kernel's scratch operand: a whole scoped buffer of its own, passed beside the windows. -/
abbrev scM2 : Memref sig .tc .vmem S512x64 .f32 := Memref.whole cc2_scratch0

/-- One whole scoped buffer of core `c` held outright at some contents. -/
abbrev anyAt (c : Dev nD) (b : Ref sig .tc) : sProp (MM F) :=
  iprop(∃ f : Buf (Elt F) ((c : Thread nD τ).loc b), ((c : Thread nD τ).loc b) ↦{fullShare} f)

/-- The scoped buffers that are neither a staging buffer of this call nor its scratch, each at some contents. -/
def rest2 (c : Dev nD) : sProp (MM F) :=
  iprop(anyAt c cc0_stg0_0 ∗ anyAt c cc0_stg0_1 ∗ anyAt c cc0_stg1_0 ∗ anyAt c cc0_stg1_1 ∗ anyAt c cc0_stg2_0 ∗ anyAt c cc0_stg2_1
    ∗ anyAt c cc1_stg0_0 ∗ anyAt c cc1_stg0_1 ∗ anyAt c cc1_stg1_0 ∗ anyAt c cc1_stg1_1 ∗ anyAt c cc1_stg2_0 ∗ anyAt c cc1_stg2_1
    ∗ anyAt c cc1_stg3_0 ∗ anyAt c cc1_stg3_1 ∗ anyAt c cc1_stg4_0 ∗ anyAt c cc1_stg4_1 ∗ anyAt c cc1_scratch0)

/-- The invariant before position `n`: before the first point what the launch hands the region (every scoped buffer that
    is no staging buffer of the call at anything, the generator register at some state); afterwards the same with the scratch
    at what the point before left in it. -/
def PhiS2 (c : Dev nD) : (n : ℕ) → n ≤ cfg2.N → sProp (MM F)
  | 0, _ => Pipeline.ΦA spec2 c
  | n + 1, hn => iprop(owns (c : Thread nD τ) scM2 fullShare (acc2 Wv c n hn) ∗ rest2 c ∗ (∃ r, prngReg c r))

theorem PhiS2_zero (c : Dev nD) (n : ℕ) (h : n ≤ cfg2.N) (hz : n = 0) : PhiS2 Wv c n h = Pipeline.ΦA spec2 c := by
  subst hz; rfl

theorem PhiS2_succ (c : Dev nD) (n : ℕ) (hn : n < cfg2.N) :
    PhiS2 Wv c (n + 1) hn = iprop(owns (c : Thread nD τ) scM2 fullShare (acc2 Wv c n hn) ∗ rest2 c ∗ (∃ r, prngReg c r)) := rfl

theorem PhiS2_pos (c : Dev nD) (n : ℕ) (h : n ≤ cfg2.N) (hz : n ≠ 0) :
    PhiS2 Wv c n h = iprop(owns (c : Thread nD τ) scM2 fullShare (acc2 Wv c (n - 1) (by omega)) ∗ rest2 c ∗ (∃ r, prngReg c r)) := by
  cases n with
  | zero => exact absurd rfl hz
  | succ n => rfl

/-- The proof data: arrays as found; inputs left in place; the output window at the accumulator scaled by the row tile's
    normalizer (consulted at the last column tile only); the two windows on each shared array hold the two halves of its
    share; nothing owed; the invariant carries the scratch. -/
def dat2 (c : Dev nD) : Dat τ (Elt F) Unit ℕ (UR sig nD τ) ℕ cfg2 c where
  A w := Vat Wv c (Pipeline.arrRef spec2 w)
  after w t := match w with
    | ⟨0, _⟩ => iblk2 Wv c 0 t
    | ⟨1, _⟩ => iblk2 Wv c 1 t
    | ⟨2, _⟩ => iblk2 Wv c 2 t
    | ⟨3, _⟩ => iblk2 Wv c 3 t
    | ⟨4, _⟩ => iblk2 Wv c 4 t
    | ⟨5, _⟩ => iblk2 Wv c 5 t
    | ⟨6, _⟩ => iblk2 Wv c 6 t
    | ⟨7, _⟩ => k2_pay2 (iblk2 Wv c 5 t) (acc2 Wv c t.val t.isLt)
  Φ t := PhiS2 Wv c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare.left
    | ⟨6, _⟩ => fullShare.right
    | ⟨7, _⟩ => fullShare
  owed _ := 0

theorem A2_eq (c : Dev nD) (w : Fin cfg2.W) : (dat2 Wv c).A w = Vat Wv c (Pipeline.arrRef spec2 w) := by dsimp only [dat2]
theorem after2_0 (c : Dev nD) (t : Fin cfg2.N) : (dat2 Wv c).after 0 t = iblk2 Wv c 0 t := by dsimp only [dat2]
theorem after2_1 (c : Dev nD) (t : Fin cfg2.N) : (dat2 Wv c).after 1 t = iblk2 Wv c 1 t := by dsimp only [dat2]
theorem after2_2 (c : Dev nD) (t : Fin cfg2.N) : (dat2 Wv c).after 2 t = iblk2 Wv c 2 t := by dsimp only [dat2]
theorem after2_3 (c : Dev nD) (t : Fin cfg2.N) : (dat2 Wv c).after 3 t = iblk2 Wv c 3 t := by dsimp only [dat2]
theorem after2_4 (c : Dev nD) (t : Fin cfg2.N) : (dat2 Wv c).after 4 t = iblk2 Wv c 4 t := by dsimp only [dat2]
theorem after2_5 (c : Dev nD) (t : Fin cfg2.N) : (dat2 Wv c).after 5 t = iblk2 Wv c 5 t := by dsimp only [dat2]
theorem after2_6 (c : Dev nD) (t : Fin cfg2.N) : (dat2 Wv c).after 6 t = iblk2 Wv c 6 t := by dsimp only [dat2]
theorem after2_7 (c : Dev nD) (t : Fin cfg2.N) :
    (dat2 Wv c).after 7 t = k2_pay2 (iblk2 Wv c 5 t) (acc2 Wv c t.val t.isLt) := by dsimp only [dat2]

/-- The invariant at a point's start, restated at the point's position. -/
theorem PhiS2_castSucc (c : Dev nD) (t : Fin cfg2.N) :
    (dat2 Wv c).Φ t.castSucc = PhiS2 Wv c t.val (Nat.le_of_lt t.isLt) := by
  dsimp only [dat2]; simp only [Fin.coe_castSucc]

end Region2

end Cert.Kernel.Hand

end
-- ==== Proof.BRegion2.lean ====
/-
  Region 2, the coupling kernel: the body obligation of its proof data and its segment record. At every point the body's
  run of the point's control case applies; the scratch leaves the invariant at the previous point's accumulation and
  returns at this point's; the output window passes through as found away from the last column tile.
-/
import proofs.«150832_j3959959847448_2_alg».proof.Proof.BRegion2a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region2

variable (Wv : Dev nD → Valuation τ sig (Elt F))

/-! ## What the body finds in the input windows -/

/-- An input window the body leaves in place holds its block at every point, refetched there or not: when it is not
    refetched (the row tile's normalizer within a row) its block index has not moved. -/
theorem before2_0 (c : Dev nD) (t : Fin cfg2.N) (d) : (dat2 Wv c).before 0 t d = iblk2 Wv c 0 t := by
  have h := (dat2 Wv c).before_in_eq_fetched 0 rfl (fun _ => rfl) (fun _ _ _ => rfl)
    (fun t => by rw [after2_0]; unfold Dat.blockOf iblk2; rw [A2_eq]; try rfl) t d
  rw [h]; unfold Dat.fetched Dat.blockOf iblk2; rw [A2_eq]; try rfl
theorem before2_1 (c : Dev nD) (t : Fin cfg2.N) (d) : (dat2 Wv c).before 1 t d = iblk2 Wv c 1 t := by
  have h := (dat2 Wv c).before_in_eq_fetched 1 rfl (fun _ => rfl) (fun _ _ _ => rfl)
    (fun t => by rw [after2_1]; unfold Dat.blockOf iblk2; rw [A2_eq]; try rfl) t d
  rw [h]; unfold Dat.fetched Dat.blockOf iblk2; rw [A2_eq]; try rfl
theorem before2_2 (c : Dev nD) (t : Fin cfg2.N) (d) : (dat2 Wv c).before 2 t d = iblk2 Wv c 2 t := by
  have h := (dat2 Wv c).before_in_eq_fetched 2 rfl (fun _ => rfl) (fun _ _ _ => rfl)
    (fun t => by rw [after2_2]; unfold Dat.blockOf iblk2; rw [A2_eq]; try rfl) t d
  rw [h]; unfold Dat.fetched Dat.blockOf iblk2; rw [A2_eq]; try rfl
theorem before2_3 (c : Dev nD) (t : Fin cfg2.N) (d) : (dat2 Wv c).before 3 t d = iblk2 Wv c 3 t := by
  have h := (dat2 Wv c).before_in_eq_fetched 3 rfl (fun _ => rfl) (fun _ _ _ => rfl)
    (fun t => by rw [after2_3]; unfold Dat.blockOf iblk2; rw [A2_eq]; try rfl) t d
  rw [h]; unfold Dat.fetched Dat.blockOf iblk2; rw [A2_eq]; try rfl
theorem before2_4 (c : Dev nD) (t : Fin cfg2.N) (d) : (dat2 Wv c).before 4 t d = iblk2 Wv c 4 t := by
  have h := (dat2 Wv c).before_in_eq_fetched 4 rfl (fun _ => rfl) (fun _ _ _ => rfl)
    (fun t => by rw [after2_4]; unfold Dat.blockOf iblk2; rw [A2_eq]; try rfl) t d
  rw [h]; unfold Dat.fetched Dat.blockOf iblk2; rw [A2_eq]; try rfl
theorem before2_5 (c : Dev nD) (t : Fin cfg2.N) (d) : (dat2 Wv c).before 5 t d = iblk2 Wv c 5 t := by
  have h := (dat2 Wv c).before_in_eq_fetched 5 rfl (fun _ => rfl) (fun _ _ _ => rfl)
    (fun t => by rw [after2_5]; unfold Dat.blockOf iblk2; rw [A2_eq]; try rfl) t d
  rw [h]; unfold Dat.fetched Dat.blockOf iblk2; rw [A2_eq]; try rfl
theorem before2_6 (c : Dev nD) (t : Fin cfg2.N) (d) : (dat2 Wv c).before 6 t d = iblk2 Wv c 6 t := by
  have h := (dat2 Wv c).before_in_eq_fetched 6 rfl (fun _ => rfl) (fun _ _ _ => rfl)
    (fun t => by rw [after2_6]; unfold Dat.blockOf iblk2; rw [A2_eq]; try rfl) t d
  rw [h]; unfold Dat.fetched Dat.blockOf iblk2; rw [A2_eq]; try rfl

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The output window is idle exactly where the body's store into it is not taken: away from the last column tile. -/
theorem idleAt2_7 (t : Fin cfg2.N) (h : ¬cond2_1 (grid2.coords t)) : cfg2.idle 7 (grid2.coords t) = true := by
  show (!(k2_cond2 (grid2.coords t) == 1#1)) = true
  simpa [cond2_1] using h
theorem liveAt2_7 (t : Fin cfg2.N) (h : cond2_1 (grid2.coords t)) : cfg2.idle 7 (grid2.coords t) = false := by
  show (!(k2_cond2 (grid2.coords t) == 1#1)) = false
  simpa [cond2_1] using h
/-- Away from the last column tile the output block is not written back. -/
theorem noFlush2_7 (t : Fin cfg2.N) (h : t.val % 8 ≠ 7) : (cfg2.win 7).flush t = false := by
  cases hf : (cfg2.win 7).flush t with
  | false => rfl
  | true => exact absurd ((flush2_7 t).mp hf) h

/-! ## The scratch out of the scoped rest, and back -/

/-- What the launch hands the region, buffer by buffer, the kernel's scratch last and as a memref owned at some contents. -/
theorem PhiA2_eq (c : Dev nD) :
    (Pipeline.ΦA spec2 c : sProp (MM F))
      = iprop((anyAt c cc0_stg0_0 ∗ anyAt c cc0_stg0_1 ∗ anyAt c cc0_stg1_0 ∗ anyAt c cc0_stg1_1 ∗ anyAt c cc0_stg2_0 ∗ anyAt c cc0_stg2_1 ∗ anyAt c cc1_stg0_0 ∗ anyAt c cc1_stg0_1 ∗ anyAt c cc1_stg1_0 ∗ anyAt c cc1_stg1_1 ∗ anyAt c cc1_stg2_0 ∗ anyAt c cc1_stg2_1 ∗ anyAt c cc1_stg3_0 ∗ anyAt c cc1_stg3_1 ∗ anyAt c cc1_stg4_0 ∗ anyAt c cc1_stg4_1 ∗ anyAt c cc1_scratch0
          ∗ (∃ d, owns (c : Thread nD τ) scM2 fullShare d)) ∗ (∃ r, prngReg c r)) := by
  unfold Pipeline.ΦA; rw [scopedRest2_eq]; simp only [owns_whole]; try rfl

theorem PhiA2_split (c : Dev nD) :
    (Pipeline.ΦA spec2 c : sProp (MM F))
      ⊢ iprop((∃ d, owns (c : Thread nD τ) scM2 fullShare d) ∗ rest2 c ∗ (∃ r, prngReg c r)) := by
  rw [PhiA2_eq]; unfold rest2
  iintro ⟨⟨R1, R2, R3, R4, R5, R6, R7, R8, R9, R10, R11, R12, R13, R14, R15, R16, R17, HS⟩, Hg⟩
  isplitl [HS]; · iexact HS
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    iexact R17
  iexact Hg

theorem PhiA2_join (c : Dev nD) :
    iprop((∃ d, owns (c : Thread nD τ) scM2 fullShare d) ∗ rest2 c ∗ (∃ r, prngReg c r))
      ⊢ (Pipeline.ΦA spec2 c : sProp (MM F)) := by
  rw [PhiA2_eq]; unfold rest2
  iintro ⟨HS, ⟨R1, R2, R3, R4, R5, R6, R7, R8, R9, R10, R11, R12, R13, R14, R15, R16, R17⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact HS
  iexact Hg

/-! ## The body obligation -/

set_option maxHeartbeats 1600000 in
/-- The body at any point. The input buffers hold their blocks, so the kernel's run of the point's control case applies:
    at the first column tile the scratch is taken at anything and left at the fresh accumulation, at a later one it is
    taken at what the point before left and left at that plus the point's share; the output window is handed back as
    found except at the last column tile, where it receives the scaled accumulator. -/
theorem sound_body2 (c : Dev nD) (t : Fin cfg2.N) :
    iprop((dat2 Wv c).Φ t.castSucc ∗ (dat2 Wv c).owesAt () t.castSucc
        ∗ (∃ d, owns (c : Thread nD τ) (st2_0 t) fullShare ((dat2 Wv c).before 0 t d))
        ∗ (∃ d, owns (c : Thread nD τ) (st2_1 t) fullShare ((dat2 Wv c).before 1 t d))
        ∗ (∃ d, owns (c : Thread nD τ) (st2_2 t) fullShare ((dat2 Wv c).before 2 t d))
        ∗ (∃ d, owns (c : Thread nD τ) (st2_3 t) fullShare ((dat2 Wv c).before 3 t d))
        ∗ (∃ d, owns (c : Thread nD τ) (st2_4 t) fullShare ((dat2 Wv c).before 4 t d))
        ∗ (∃ d, owns (c : Thread nD τ) (st2_5 t) fullShare ((dat2 Wv c).before 5 t d))
        ∗ (∃ d, owns (c : Thread nD τ) (st2_6 t) fullShare ((dat2 Wv c).before 6 t d))
        ∗ (∃ d, owns (c : Thread nD τ) (st2_7 t) fullShare ((dat2 Wv c).before 7 t d)))
      ⊢ wp frame (wpE (defs₀ (F := F)) Variants.none c none) Set.univ (bodyAt2 t) (fun _ =>
        iprop((dat2 Wv c).Φ t.succ ∗ (dat2 Wv c).owesAt () t.succ
          ∗ (dat2 Wv c).leavesExact 0 t ∗ (dat2 Wv c).leavesExact 1 t ∗ (dat2 Wv c).leavesExact 2 t ∗ (dat2 Wv c).leavesExact 3 t ∗ (dat2 Wv c).leavesExact 4 t ∗ (dat2 Wv c).leavesExact 5 t ∗ (dat2 Wv c).leavesExact 6 t ∗ (dat2 Wv c).leavesExact 7 t)) := by
  unfold bodyAt2
  simp only [before2_0, before2_1, before2_2, before2_3, before2_4, before2_5, before2_6]
  rw [show (dat2 Wv c).owesAt () t.succ = (dat2 Wv c).owesAt () t.castSucc from rfl,
    show (dat2 Wv c).Φ t.succ = PhiS2 Wv c (t.val + 1) t.isLt from rfl, PhiS2_succ, PhiS2_castSucc]
  rw [show (dat2 Wv c).leavesExact 0 t = owns (c : Thread nD τ) (st2_0 t) fullShare ((dat2 Wv c).after 0 t) from by
    unfold Dat.leavesExact; rw [liveAt2_0 t], after2_0]
  rw [show (dat2 Wv c).leavesExact 1 t = owns (c : Thread nD τ) (st2_1 t) fullShare ((dat2 Wv c).after 1 t) from by
    unfold Dat.leavesExact; rw [liveAt2_1 t], after2_1]
  rw [show (dat2 Wv c).leavesExact 2 t = owns (c : Thread nD τ) (st2_2 t) fullShare ((dat2 Wv c).after 2 t) from by
    unfold Dat.leavesExact; rw [liveAt2_2 t], after2_2]
  rw [show (dat2 Wv c).leavesExact 3 t = owns (c : Thread nD τ) (st2_3 t) fullShare ((dat2 Wv c).after 3 t) from by
    unfold Dat.leavesExact; rw [liveAt2_3 t], after2_3]
  rw [show (dat2 Wv c).leavesExact 4 t = owns (c : Thread nD τ) (st2_4 t) fullShare ((dat2 Wv c).after 4 t) from by
    unfold Dat.leavesExact; rw [liveAt2_4 t], after2_4]
  rw [show (dat2 Wv c).leavesExact 5 t = owns (c : Thread nD τ) (st2_5 t) fullShare ((dat2 Wv c).after 5 t) from by
    unfold Dat.leavesExact; rw [liveAt2_5 t], after2_5]
  rw [show (dat2 Wv c).leavesExact 6 t = owns (c : Thread nD τ) (st2_6 t) fullShare ((dat2 Wv c).after 6 t) from by
    unfold Dat.leavesExact; rw [liveAt2_6 t], after2_6]
  have hN : t.val < 256 := lt_of_lt_of_eq t.isLt (show cfg2.N = 256 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 Wv c) 7 t (idleAt2_7 t hc1) (noFlush2_7 t (by omega)), acc2_first Wv c t h0]
    by_cases hz : t.val = 0
    · rw [PhiS2_zero Wv c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA2_split c) $$ [HΦ]
      · iexact HΦ
      icases HΦ' with ⟨HS, HR, Hg⟩
      iapply (sound_kernel2_first c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS2_pos Wv c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_first c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc0 : ¬cond2_0 (grid2.coords t) := fun h => h0 ((hcond2_0 t).mp h)
    have hz : t.val ≠ 0 := fun h => h0 (by rw [h])
    rw [acc2_step Wv c t h0, PhiS2_pos Wv c _ _ hz]
    by_cases h1 : t.val % 8 = 7
    · have hc1 : cond2_1 (grid2.coords t) := (hcond2_1 t).mpr h1
      rw [show (dat2 Wv c).leavesExact 7 t = owns (c : Thread nD τ) (st2_7 t) fullShare ((dat2 Wv c).after 7 t) from by
        unfold Dat.leavesExact; rw [liveAt2_7 t hc1], after2_7, acc2_step Wv c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_last c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 Wv c) 7 t (idleAt2_7 t hc1) (noFlush2_7 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_mid c Set.univ (grid2.coords t) _ _ _ _ _ _ _ _ _ _ _ _ _ _ _ _ _ _ hc0 hc1 (iblk2 Wv c 0 t) (iblk2 Wv c 1 t) (iblk2 Wv c 2 t) (iblk2 Wv c 3 t) (iblk2 Wv c 4 t) (iblk2 Wv c 5 t) (iblk2 Wv c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation2 (c : Dev nD) : BodyObligation (dat2 (F := F) Wv c) (defs₀ (F := F)) Variants.none () Set.univ := fun t => by
  rw [bigSep_W2, bigSep_W2]
  exact sound_body2 Wv c t

end Region2

section Seg2

variable (Wv : Dev nD → Valuation τ sig (Elt F)) (d0 : DatOf F cfg0) (d1 : DatOf F cfg1)

/-- After any point but the first the invariant gives back what the launch handed the region: the scratch's named contents
    are forgotten. -/
theorem Phi2_out (c : Dev nD) (t : Fin (cfg2.N + 1)) (ht : t.val ≠ 0) : (dat2 Wv c).Φ t ⊢ (Pipeline.ΦA spec2 c : sProp (MM F)) := by
  rw [show (dat2 Wv c).Φ t = PhiS2 Wv c t.val (Nat.le_of_lt_succ t.isLt) from rfl, PhiS2_pos Wv c _ _ ht]
  iintro ⟨HS, HR, Hg⟩
  iapply (PhiA2_join c)
  isplitl [HS]; · iexists _; iexact HS
  isplitl [HR]; · iexact HR
  iexact Hg

/-- What core `c`'s buffers hold when the region is left: the result's buffer at what the write-backs leave, every other
    buffer as entered. -/
def Wnext2 (c : Dev nD) : Valuation τ sig (Elt F) :=
  Function.update (Wv c) (Proc.devRef .tc main_v2) ((dat2 Wv c).arrAt 7 cfg2.N)

theorem Wnext2_v2 (c : Dev nD) : Wnext2 Wv c main_v2 = (dat2 Wv c).arrAt 7 cfg2.N := Function.update_self ..
theorem Wnext2_of_ne (c : Dev nD) (b : Ref sig .tc) (h : b ≠ main_v2) : Wnext2 Wv c b = Wv c b :=
  Function.update_of_ne (StableHlo.devRef_ne_of_ne h) ..

/-- The pipeline's arrays window by window: W's, the gate matrix's and the normalizer's buffers at their two halves, x's and
    the result's outright. -/
theorem arrays2_eq (c : Dev nD) (Fa : (w : Fin cfg2.W) → Buf (Elt F) ((cfg2.win w).arr.view.loc (c : Thread nD τ))) :
    ((dat2 Wv c).arrays Fa : sProp (MM F))
      = iprop((((c : Thread nD τ).loc main_arg1) ↦{fullShare.left} Fa 0) ∗ (((c : Thread nD τ).loc main_arg1) ↦{fullShare.right} Fa 1)
          ∗ (((c : Thread nD τ).loc main_v0) ↦{fullShare.left} Fa 2) ∗ (((c : Thread nD τ).loc main_v0) ↦{fullShare.right} Fa 3)
          ∗ (((c : Thread nD τ).loc main_arg0) ↦{fullShare} Fa 4)
          ∗ (((c : Thread nD τ).loc main_v1) ↦{fullShare.left} Fa 5) ∗ (((c : Thread nD τ).loc main_v1) ↦{fullShare.right} Fa 6)
          ∗ (((c : Thread nD τ).loc main_v2) ↦{fullShare} Fa 7)) := by
  unfold Dat.arrays
  rw [bigSep_W2, (arr_whole2 0).set_eq_univ, (arr_whole2 2).set_eq_univ, (arr_whole2 4).set_eq_univ, (arr_whole2 5).set_eq_univ,
    (arr_whole2 7).set_eq_univ]
  rfl

set_option maxHeartbeats 3200000 in
set_option backward.isDefEq.respectTransparency.types false in
/-- Region 2 over the thread state "every unscoped buffer at its contents, the generator register at some state, nothing
    owed": the three shared buffers are split in two halves each for the two windows on them at entry and joined again at
    exit, where the result's buffer comes back at what the write-backs left. -/
def reg2 : RegOf d0 d1 (dat2 Wv) 2 where
  win := winFacts₀2
  block_pos := block_pos2
  stage_whole := stage_whole2
  K := PEmpty
  osem k := k.elim
  ho := Pipeline.OwnSemFacts.none _
  hbody c := (body_obligation2 Wv c).loose
  hwaits := Pipeline.hwaits_of_owed_zero _ _ _ _ LL lvv 2 fun _ _ => rfl
  pre c := iprop(StableHlo.held (c : Thread nD τ) (Pipeline.ucRefs τ sig) (Wv c) ∗ RR c)
  post c := iprop(StableHlo.held (c : Thread nD τ) (Pipeline.ucRefs τ sig) (Wnext2 Wv c) ∗ RR c)
  X c := iprop(∃ r, prngReg c r)
  Y c := iprop(∃ r, prngReg c r)
  Z c := iprop(ptw c main_arg2 (Wv c main_arg2) ∗ ptw c main_arg3 (Wv c main_arg3) ∗ ptw c main_v3 (Wv c main_v3) ∗ ptw c main_v4 (Wv c main_v4))
  hentry c := by
    rw [Pipeline.ownSems0_none, held_uc_eq]
    show _ ⊢ |={Set.univ}=> iprop((dat2 Wv c).arrays ((dat2 Wv c).arrAt · 0) ∗ _ ∗ (dat2 Wv c).owesAt () 0 ∗ _ ∗ _)
    rw [arrays2_eq]
    iintro ⟨⟨⟨H0, H1, H2, H3, Hv0, Hv1, Hv2, Hv3, Hv4⟩, Hp, HO⟩, -, -⟩
    ihave H1' := (ptw_halves c main_arg1 (Wv c main_arg1)).1 $$ [H1]
    · iexact H1
    icases H1' with ⟨H1a, H1b⟩
    ihave Hv0' := (ptw_halves c main_v0 (Wv c main_v0)).1 $$ [Hv0]
    · iexact Hv0
    icases Hv0' with ⟨Hv0a, Hv0b⟩
    ihave Hv1' := (ptw_halves c main_v1 (Wv c main_v1)).1 $$ [Hv1]
    · iexact Hv1
    icases Hv1' with ⟨Hv1a, Hv1b⟩
    imodintro
    isplitl [H1a H1b Hv0a Hv0b H0 Hv1a Hv1b Hv2]
    · isplitl [H1a]; · iexact H1a
      isplitl [H1b]; · iexact H1b
      isplitl [Hv0a]; · iexact Hv0a
      isplitl [Hv0b]; · iexact Hv0b
      isplitl [H0]; · iexact H0
      isplitl [Hv1a]; · iexact Hv1a
      isplitl [Hv1b]; · iexact Hv1b
      iexact Hv2
    isplitr; · unfold Pipeline.prefHeld; rw [show (Finset.univ : Finset (Fin 0)) = ∅ from rfl, BI.bigSep_empty]; iempintro
    isplitl [HO]; · iapply (owesAt_intro (dat2 Wv c) 0 rfl rfl); iexact HO
    isplitl [Hp]; · iexact Hp
    isplitl [H2]; · iexact H2
    isplitl [H3]; · iexact H3
    isplitl [Hv3]; · iexact Hv3
    iexact Hv4
  hin c := by
    show _ ⊢ Pipeline.ΦA spec2 c
    unfold Pipeline.ΦA
    iintro ⟨Hp, -, Hr⟩
    isplitl [Hr]; · iexact Hr
    iexact Hp
  hout c := by
    rw [Pipeline.ownSems0_none]
    refine (Phi2_out Wv c (Fin.last cfg2.N) (by rw [Fin.val_last, show cfg2.N = 256 from N_2]; decide)).trans ?_
    unfold Pipeline.ΦA
    iintro ⟨Hr, Hp⟩
    isplitl [Hp]; · iexact Hp
    isplitr; · iempintro
    iexact Hr
  hexit c := by
    show iprop((dat2 Wv c).arrays ((dat2 Wv c).arrAt · cfg2.N) ∗ (dat2 Wv c).owesAt () (Fin.last cfg2.N) ∗ _ ∗ _) ⊢ _
    rw [arrays2_eq, held_uc_eq, Wnext2_v2, Wnext2_of_ne Wv c main_arg0 (by decide),
      Wnext2_of_ne Wv c main_arg1 (by decide),
      Wnext2_of_ne Wv c main_arg2 (by decide),
      Wnext2_of_ne Wv c main_arg3 (by decide),
      Wnext2_of_ne Wv c main_v0 (by decide),
      Wnext2_of_ne Wv c main_v1 (by decide),
      Wnext2_of_ne Wv c main_v3 (by decide),
      Wnext2_of_ne Wv c main_v4 (by decide),
      (dat2 Wv c).arrAt_in 0 rfl, (dat2 Wv c).arrAt_in 1 rfl, (dat2 Wv c).arrAt_in 2 rfl, (dat2 Wv c).arrAt_in 3 rfl,
      (dat2 Wv c).arrAt_in 4 rfl, (dat2 Wv c).arrAt_in 5 rfl, (dat2 Wv c).arrAt_in 6 rfl,
      A2_eq, A2_eq, A2_eq, A2_eq, A2_eq, A2_eq, A2_eq]
    iintro ⟨⟨H1a, H1b, Hv0a, Hv0b, H0, Hv1a, Hv1b, Hv2⟩, HO, HY, ⟨H2, H3, Hv3, Hv4⟩⟩
    ihave H1 := (ptw_halves c main_arg1 (Wv c main_arg1)).2 $$ [H1a H1b]
    · isplitl [H1a]; · iexact H1a
      iexact H1b
    ihave Hv0 := (ptw_halves c main_v0 (Wv c main_v0)).2 $$ [Hv0a Hv0b]
    · isplitl [Hv0a]; · iexact Hv0a
      iexact Hv0b
    ihave Hv1 := (ptw_halves c main_v1 (Wv c main_v1)).2 $$ [Hv1a Hv1b]
    · isplitl [Hv1a]; · iexact Hv1a
      iexact Hv1b
    imodintro
    isplitr [HY HO]
    · isplitl [H0]; · iexact H0
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      iexact Hv4
    isplitl [HY]; · iexact HY
    iapply (owesAt_elim (dat2 Wv c) _ rfl); iexact HO

end Seg2

end Cert.Kernel.Hand

end
-- ==== Proof.BFrameValue.lean ====
/-
  The conditional frame of the idealized kernel program, with the value of its result buffer.

  The program is three kernel regions followed by two host operations: a broadcast of the scalar argument to the
  result's shape, and the elementwise product of the third region's output with that broadcast. Between two items a
  core holds every unscoped buffer whole at a valuation: V0 the launch contents, V1, V2, V3 the same with what region
  0, 1, 2 leaves in its output array, V4 what the two host operations make of V3.

  Given one segment record per region, entered from the thread state before it and left at the one after it, every
  weakly fair execution terminates, and the final memory holds on every core, at EVERY unscoped buffer, what V4
  holds there (`frame_cond_read`). Read at the result buffer and at the four arguments this is the frame with the
  result's value (`frame_cond_value`): no item writes an argument, so V4 there is the launch contents. What V4 holds
  at the result is the product of the third region's output with the broadcast of the launch contents of the scalar
  argument (`V4_main_v4`): the two host operations read one after the other, the scalar argument written by no item.
-/
import proofs.«150832_j3959959847448_2_alg».proof.Proof.Gen.Kernel.Regions
import Idealize.ShloMosaic.Lib.StableHlo.Run

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

variable (m : (ℓ : Loc nD τ sig) → Buf (Elt F) ℓ)

/-- A TensorCore reference whose buffer is not scoped is among the unscoped buffers. -/
theorem mem_unscoped (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by simp [h]⟩

/-- EVERY UNSCOPED BUFFER AT THE END. For any rest states `E` the launch makes on every core at once (`hE0`) and that end
    owing nothing (`hE3`), any contents the regions leave (`outs`) and, per region K, a segment record entered from
    "the unscoped buffers at V_K beside E K" and left at "the unscoped buffers at V_(K+1) beside E (K+1)": every weakly
    fair execution of the program from memory `m` with zero counters terminates, and every property `Q` of the final
    memory holds that follows from "on every core, each unscoped buffer holds what the last valuation V4 holds there".

    The program is the run of its four items, the same list on every core: the three regions' calls and the line of the
    two host operations. The regions enter the pipelines 0, 1, 2, each once. The thread states chain: the launch state
    enters region 0, what region K leaves enters region K+1, what region 2 leaves is what the host line runs from, and
    the host line takes V3 to V4 beside E 3, which owes nothing. At launch the unscoped buffers, whole at their launch
    contents, are the buffers held at V0, on all cores at once; the remainder of what the launch deals makes E 0. At
    the end the buffers held at V4 are read against the final state, one equation per buffer. -/
theorem frame_cond_read {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    {Q : PUnit × MemSt nD τ sig (Elt F) → Prop}
    (hQ : ∀ s : MemSt nD τ sig (Elt F),
      (∀ c : Dev nD, ∀ b ∈ Pipeline.ucRefs τ sig, s.mem ((c.tc : Thread nD τ).1, b) = Gen.V4 m outs c b) → Q (⟨⟩, s)) :
    θ_run defs (onTc (τ := τ) (main (F := F))) ⟨m, fun _ => 0, ρ⟩ Q := by
  refine Pipeline.θ_run_regions_kit (pcfgs (F := F)) adm pdats ι cellOf_inj EP defs₀ 𝒱₀ L lv m ρ main
    [.region R0, .region R1, .region R2, .host (seg3 m outs 𝒱₀ L lv E)]
    (fun c Q => ?hmain) ?hnd O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := ⟨hpre0, fun c => (hpost0 c).trans (hpre1 c), fun c => (hpost1 c).trans (hpre2 c), hpost2,
      fun c => sep_mono .rfl (hE3 c)⟩)
    (hinit := ?hinit)
    (QY := fun c s => ∀ b ∈ Pipeline.ucRefs τ sig, s.mem ((c.tc : Thread nD τ).1, b) = V4 m outs c b)
    (hfin := fun c s' => ?hfin) (hQ := hQ)
  case hmain =>
    -- the program IS the run of the four items
    rw [main_segs adm pdats ι 𝒱₀ L lv (seg3 m outs 𝒱₀ L lv E) R0 R1 R2 rfl c]
  case hnd =>
    -- the pipelines entered, in order
    show ([0, 1, 2] : List (Fin 3)).Nodup
    decide
  case hinit =>
    -- over all cores at once: (buffers ∗ remainder) is (all buffers) ∗ (all remainders), on both sides
    have eL := bigSep_sep' (Finset.univ : Finset (Dev nD))
      (fun c => (unscopedBufs c (fun b => m ((c.tc : Thread nD τ).loc b)) : sProp (MT nD τ sig Ix (Elt F) ℕ U Lvl)))
      (fun c => iprop(unscopedSems0 c ∗ owes (c.tc : Thread nD τ) (O₀ c) ∅ ∗ Pipeline.launchCred O₀ c ∗ prngReg c (ρ c) ∗ G c))
    have eR := bigSep_sep' (Finset.univ : Finset (Dev nD))
      (fun c => (StableHlo.held (c : Thread nD τ) (Pipeline.ucRefs τ sig) (V0 m c) : sProp (MT nD τ sig Ix (Elt F) ℕ U Lvl))) (E 0)
    rw [eL, eR]
    -- the launch's unscoped buffers are the buffers held at V0
    have hH : (bigSep Finset.univ fun c : Dev nD =>
          (unscopedBufs c (fun b => m ((c.tc : Thread nD τ).loc b)) : sProp (MT nD τ sig Ix (Elt F) ℕ U Lvl)))
        ⊢ bigSep Finset.univ fun c : Dev nD =>
          (StableHlo.held (c : Thread nD τ) (Pipeline.ucRefs τ sig) (V0 m c) : sProp (MT nD τ sig Ix (Elt F) ℕ U Lvl)) :=
      bigSep_mono fun c _ => Entails.of_eq
        (Pipeline.unscopedBufs_held (Ix := Ix) (Name := ℕ) (U := U) (Lvl := Lvl) c (V0 m c))
    -- the remainder and the level facts make E 0 under an update, which the held buffers stand beside
    exact (Laws.sep_assoc.1.trans (BIClass.sep_mono hH hE0)).trans fupd_frame_left
  case hfin =>
    exact (pointsTo_read_all (Pipeline.ucRefs τ sig) (fun b => ((c.tc : Thread nD τ).1, b)) (V4 m outs c) s').trans fupd_intro

/-- THE CONDITIONAL FRAME WITH THE RESULT'S VALUE: under the same hypotheses every weakly fair execution terminates, the
    result buffer ends holding what V4 holds there, and every argument array ends as launched — the reading of
    `frame_cond_read` at these five buffers, none of them scoped, the arguments written by no item. -/
theorem frame_cond_value {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c)) :
    θ_run defs (onTc (τ := τ) (main (F := F))) ⟨m, fun _ => 0, ρ⟩ (fun r => ∀ c : Dev nD,
      r.2.mem ((c.tc : Thread nD τ).loc main_v4) = Gen.V4 m outs c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_read m EP ι 𝒱₀ L lv hL ρ outs pdats O₀ G u₀ hu₀ E hE0 hE3 R0 hpre0 hpost0 R1 hpre1 hpost1 R2 hpre2 hpost2
    fun s h c =>
      ⟨h c _ (mem_unscoped main_v4 rfl),
       (h c _ (mem_unscoped main_arg0 rfl)).trans (V4_main_arg0 m outs c),
       (h c _ (mem_unscoped main_arg1 rfl)).trans (V4_main_arg1 m outs c),
       (h c _ (mem_unscoped main_arg2 rfl)).trans (V4_main_arg2 m outs c),
       (h c _ (mem_unscoped main_arg3 rfl)).trans (V4_main_arg3 m outs c)⟩

/-- What the last valuation holds at the result buffer: the product of what region 2 left in its output array with
    the broadcast of the scalar argument's launch contents. V3 at region 2's output is what that region left; V3 at the
    scalar argument is the launch contents, no region changing it; the broadcast and the product are then the two host
    operations, in order. -/
theorem V4_main_v4 (outs : Outs (F := F)) (c : Dev nD) :
    (Gen.V4 m outs c main_v4 : (⟨S4x4096x64, .f32⟩ : BufTy).Contents (Elt F))
      = mulf (outs 3 main_v2 c : (⟨S4x4096x64, .f32⟩ : BufTy).Contents (Elt F))
          (broadcastInDim S4x4096x64 ![] bcast_S_S4x4096x64
            (m ((c : Thread nD τ).loc main_arg3) : (⟨S_, .f32⟩ : BufTy).Contents (Elt F))) := by
  have e2 : V3 m outs c main_v2 = outs 3 main_v2 c := Function.update_self ..
  have e3 : V3 m outs c main_arg3 = m ((c : Thread nD τ).loc main_arg3) :=
    (V3_of m outs c main_arg3 (by decide)).trans <| (V2_of m outs c main_arg3 (by decide)).trans <|
      (V1_of m outs c main_arg3 (by decide)).trans rfl
  dsimp only [Gen.V4, Gen.hostOps3]
  after_results
  rw [e2, e3]

end Cert.Kernel.Hand

end
-- ==== Proof.BAssemble.lean ====
/-
  The program as its four items: the three kernel regions, each entered from what the one before left in the unscoped
  buffers, then the two host operations. Between items every core holds each unscoped buffer whole at that boundary's
  contents, its generator register at some state, and owes nothing.
-/
import proofs.«150832_j3959959847448_2_alg».proof.Proof.BRegion0
import proofs.«150832_j3959959847448_2_alg».proof.Proof.BRegion1c
import proofs.«150832_j3959959847448_2_alg».proof.Proof.BRegion2
import proofs.«150832_j3959959847448_2_alg».proof.Proof.BFrameValue

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Assemble

variable (m : (ℓ : Loc nD τ sig) → Buf (Elt F) ℓ) (ρ : Dev nD → PrngReg)

/-- Core `c`'s unscoped buffers at launch, then after each of the three regions. -/
abbrev Wv0 (c : Dev nD) : Valuation τ sig (Elt F) := fun b => m (c, b)
abbrev Wv1 (c : Dev nD) : Valuation τ sig (Elt F) := Wnext0 (Wv0 m) c
abbrev Wv2 (c : Dev nD) : Valuation τ sig (Elt F) := Wnext1 (Wv1 m) c
abbrev Wv3 (c : Dev nD) : Valuation τ sig (Elt F) := Wnext2 (Wv2 m) c

/-- The three pipelines' proof data, each at its region's entry contents. -/
abbrev pd : (p : Fin 3) → (c : Dev nD) → Dat τ (Elt F) Unit ℕ (UR sig nD τ) ℕ (cfgs p) c :=
  pdatsOf (dat0 (Wv0 m)) (dat1 (Wv1 m)) (dat2 (Wv2 m))

/-- What the regions leave in the buffers they may change: the gate matrix, the normalizers, the coupled features. -/
def outs : Gen.Outs (F := F) := fun _ r c =>
  if h : r = main_v0 then h.symm ▸ ((dat0 (Wv0 m) c).arrAt 2 cfg0.N : Buf (Elt F) ((c : Thread nD τ).loc main_v0))
  else if h : r = main_v1 then h.symm ▸ ((dat1 (Wv1 m) c).arrAt 4 cfg1.N : Buf (Elt F) ((c : Thread nD τ).loc main_v1))
  else if h : r = main_v2 then h.symm ▸ ((dat2 (Wv2 m) c).arrAt 7 cfg2.N : Buf (Elt F) ((c : Thread nD τ).loc main_v2))
  else m ((c : Thread nD τ).loc r)

theorem outs_v0 (J : ℕ) (c : Dev nD) : outs m J main_v0 c = (dat0 (Wv0 m) c).arrAt 2 cfg0.N := by
  unfold outs; rw [dif_pos rfl]
theorem outs_v1 (J : ℕ) (c : Dev nD) : outs m J main_v1 c = (dat1 (Wv1 m) c).arrAt 4 cfg1.N := by
  unfold outs; rw [dif_neg (by decide), dif_pos rfl]
theorem outs_v2 (J : ℕ) (c : Dev nD) : outs m J main_v2 c = (dat2 (Wv2 m) c).arrAt 7 cfg2.N := by
  unfold outs; rw [dif_neg (by decide), dif_neg (by decide), dif_pos rfl]

/-- The generated boundary valuations are ours. -/
theorem V1_eq (c : Dev nD) : Gen.V1 m (outs m) c = Wv1 m c := by
  unfold Gen.V1 Wv1 Wnext0; rw [outs_v0]
theorem V2_eq (c : Dev nD) : Gen.V2 m (outs m) c = Wv2 m c := by
  unfold Gen.V2 Wv2 Wnext1; rw [outs_v1, V1_eq]
theorem V3_eq (c : Dev nD) : Gen.V3 m (outs m) c = Wv3 m c := by
  unfold Gen.V3 Wv3 Wnext2; rw [outs_v2, V2_eq]

/-- The launch element of the user algebra. -/
abbrev u0 : UR sig nD τ := initOf (Pipeline.cells cfgs cellOf_inj) (Pipeline.launchToks cfgs cellOf_inj)

theorem hu0 : (ownU (u0) : sProp (MM F)) ⊢ |={Set.univ}=> iprop(BI.own (emb₁ (initOf (Pipeline.cells cfgs cellOf_inj) (Pipeline.launchToks cfgs cellOf_inj))) ∗ bigSep Finset.univ (fun _ : Dev nD => (BI.emp : sProp (MM F)))) := by
  iintro Hu; imodintro
  isplitl [Hu]
  · iapply (show (ownU (initOf (Pipeline.cells cfgs cellOf_inj) (Pipeline.launchToks cfgs cellOf_inj)) : sProp (MM F))
        ⊢ BI.own (emb₁ (initOf (Pipeline.cells cfgs cellOf_inj) (Pipeline.launchToks cfgs cellOf_inj))) from .rfl)
    iexact Hu
  iapply (show (BI.emp : sProp (MM F)) ⊢ bigSep Finset.univ (fun _ : Dev nD => (BI.emp : sProp (MM F))) from by rw [BI.bigSep_emp_const])
  iempintro

/-- At launch every core has its generator register and owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F)))) ∗ levAts LL lvv)
    ⊢ (|={Set.univ}=> bigSep Finset.univ (fun c : Dev nD => RR (F := F) c) : sProp (MM F)) := by
  have hc : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F)))
      ⊢ (RR (F := F) c : sProp (MM F)) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MM F))))
      ⊢ (bigSep Finset.univ (fun c : Dev nD => RR (F := F) c) : sProp (MM F)) :=
    bigSep_mono fun c _ => hc c
  iintro ⟨H, -⟩
  imodintro
  iapply hmono
  iexact H

set_option backward.isDefEq.respectTransparency.types false in
/-- THE FRAME of the program at any `F`: every weakly fair execution from memory `m` with zero counters terminates and
    leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () VV LL lvv (fun _ _ => rfl) ρ (outs m) (pd m) 0 (fun _ => BI.emp) u0 hu0
    (fun _ c => RR c) (hE0 ρ) (fun c => by iintro ⟨-, HO⟩; iexact HO)
    (reg0 (Wv0 m) (dat1 (Wv1 m)) (dat2 (Wv2 m))) (fun c => .rfl) (fun c => by rw [V1_eq]; exact .rfl)
    (reg1 (Wv1 m) (dat0 (Wv0 m)) (dat2 (Wv2 m))) (fun c => by rw [V1_eq]; exact .rfl) (fun c => by rw [V2_eq]; exact .rfl)
    (reg2 (Wv2 m) (dat0 (Wv0 m)) (dat1 (Wv1 m))) (fun c => by rw [V2_eq]; exact .rfl) (fun c => by rw [V3_eq]; exact .rfl)

set_option backward.isDefEq.respectTransparency.types false in
/-- THE RUN WITH THE RESULT: as `frame`, and the result buffer ends at what the last boundary valuation holds there. -/
theorem run_value : θ_run defs (onTc (τ := τ) (main (F := F))) ⟨m, fun _ => 0, ρ⟩ (fun r => ∀ c : Dev nD,
      r.2.mem ((c.tc : Thread nD τ).loc main_v4) = Gen.V4 m (outs m) c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_value m emb₁ () VV LL lvv (fun _ _ => rfl) ρ (outs m) (pd m) 0 (fun _ => BI.emp) u0 hu0
    (fun _ c => RR c) (hE0 ρ) (fun c => by iintro ⟨-, HO⟩; iexact HO)
    (reg0 (Wv0 m) (dat1 (Wv1 m)) (dat2 (Wv2 m))) (fun c => .rfl) (fun c => by rw [V1_eq]; exact .rfl)
    (reg1 (Wv1 m) (dat0 (Wv0 m)) (dat2 (Wv2 m))) (fun c => by rw [V1_eq]; exact .rfl) (fun c => by rw [V2_eq]; exact .rfl)
    (reg2 (Wv2 m) (dat0 (Wv0 m)) (dat1 (Wv1 m))) (fun c => by rw [V2_eq]; exact .rfl) (fun c => by rw [V3_eq]; exact .rfl)

end Assemble

end Cert.Kernel.Hand

end
-- ==== Proof.lean ====
/-
  The five claims of the certificate.

  Frames. Each kernel program is three pipelined regions followed by two host operations. A region enters holding every
  unscoped buffer whole; an array that two or three of its input windows read is held by them at the two halves of its
  share and joined again when the region is left; the degree and coupling kernels carry a scratch accumulator from one
  grid point to the next, reset at the first column tile and read out at the last, where alone the output window is
  written back. The word-level program and the idealized one are the same text, so one argument, generic in the float
  interpretation, serves both. The reference is host operations only.

  Equivalence at the ideal instance. Index by index the kernel's result is
      (d b i * sum over column tiles of 1/2 * (sum_k (W b i j * A i j) * (d b j * x b j c) + sum_k (W b j i * A j i) * (d b j * x b j c))) * s
  with A = sigma (U Uᵀ), deg the same tiled sum against the all-ones vector and d = max(deg, eps)^(-1/2); the reference's is
      s * sum_j (((1/2 * (W b i j + W b j i)) * A i j) * d b i * d b j) * x b j c.
  Under the precondition every entry is a real number; the gate is symmetric, the eight tiles of 512 partition the 4096
  nodes, and the rest is distributivity and commutativity in the reals.
-/
import proofs.«150832_j3959959847448_2_alg».proof.Defs
import proofs.«150832_j3959959847448_2_alg».proof.Proof.Gen.Kernel
import proofs.«150832_j3959959847448_2_alg».proof.Proof.Gen.KernelIdeal
import proofs.«150832_j3959959847448_2_alg».proof.Proof.Gen.ReferenceIdeal
import proofs.«150832_j3959959847448_2_alg».proof.Proof.Gen.Pre_finite_inputs
import proofs.«150832_j3959959847448_2_alg».proof.Proof.Gen.ReferenceIdeal.Run
import proofs.«150832_j3959959847448_2_alg».proof.Proof.RefSide
import proofs.«150832_j3959959847448_2_alg».proof.Proof.Finite
import proofs.«150832_j3959959847448_2_alg».proof.Proof.Algebra
import proofs.«150832_j3959959847448_2_alg».proof.Proof.Bridge
import proofs.«150832_j3959959847448_2_alg».proof.Proof.BAssemble

noncomputable section

namespace Cert.Proof.Parts

open Idealize.ShloMosaic Idealize.ShloMosaic.TcCoe Idealize.SL.Sem
open Idealize.ShloMosaic.ValueIdx (ix0 ix2 ix3 eq_ix3)

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result: the kernel's tiled, accumulated form and the reference's whole-array
    form are one function of real arguments. -/
theorem algebraic : Cert.algebraic_KernelIdeal_ReferenceIdeal := by
  intro m ρ m' ρ' hpre hagree
  refine ⟨fun c idx => Cert.Spec.outK (Cert.KernelIdeal.Hand.xsK m c) (Cert.KernelIdeal.Hand.WsK m c) (Cert.KernelIdeal.Hand.UsK m c)
      (Cert.KernelIdeal.Hand.sK m c) (idx 0) (idx 1) (idx 2), ?_, ?_⟩
  · refine (θ_run Cert.KernelIdeal.defs _ _).mono (fun r h c => ⟨?_, (h c).2⟩) (Cert.KernelIdeal.Hand.run_value (F := Ideal) m ρ)
    rw [(h c).1]
    funext idx
    obtain ⟨b, i, e, rfl⟩ : ∃ (b : Fin 4) (i : Fin 4096) (e : Fin 64), idx = ix3 b i e := ⟨idx 0, idx 1, idx 2, eq_ix3 idx⟩
    exact Cert.KernelIdeal.Hand.result_value m c b i e
  · refine (θ_run Cert.ReferenceIdeal.defs _ _).mono (fun r h c => ⟨?_, (h c).2⟩) (Cert.ReferenceIdeal.Value.run (F := Ideal) m' ρ')
    rw [(h c).1, Cert.ReferenceIdeal.Read.val_main_v27_eq, Cert.RefSide.ref_eq, (hagree c).1, (hagree c).2.1, (hagree c).2.2.1,
      (hagree c).2.2.2]
    funext idx
    obtain ⟨hx, hW, hU, hs⟩ := Cert.Finite.real_of_pre_coords _ _ _ _ (hpre c)
    exact (Cert.Spec.outK_eq_outR _ _ _ _ hx hW hU hs _ _ _).symm

end Cert.Proof.Parts

namespace Cert.Proof

theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves, Parts.algebraic⟩

end Cert.Proof

end
